-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x4096x768 .f32) (main_arg1 : FVec F S768x768 .f32) (main_arg2 : FVec F S768x768 .f32) (main_arg3 : FVec F S768x768 .f32) (main_arg4 : FVec F S768x768 .f32) (main_arg5 : FVec F S768 .f32) (main_arg6 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S8x4096x768 : Shape := ⟨3, ![8, 4096, 768]⟩
abbrev S768x768 : Shape := ⟨2, ![768, 768]⟩
abbrev S768 : Shape := ⟨1, ![768]⟩
abbrev S1x768 : Shape := ⟨2, ![1, 768]⟩
abbrev S8x1x768 : Shape := ⟨3, ![8, 1, 768]⟩
abbrev S1x1024x768 : Shape := ⟨3, ![1, 1024, 768]⟩
abbrev S1x1x768 : Shape := ⟨3, ![1, 1, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 17
  | .vmem => 25
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S8x4096x768, .bf16⟩
  | .hbm, ⟨8, _⟩ => ⟨S768x768, .bf16⟩
  | .hbm, ⟨9, _⟩ => ⟨S768x768, .bf16⟩
  | .hbm, ⟨10, _⟩ => ⟨S768x768, .bf16⟩
  | .hbm, ⟨11, _⟩ => ⟨S768x768, .bf16⟩
  | .hbm, ⟨12, _⟩ => ⟨S1x768, .f32⟩
  | .hbm, ⟨13, _⟩ => ⟨S1x768, .f32⟩
  | .hbm, ⟨14, _⟩ => ⟨S8x1x768, .f32⟩
  | .hbm, ⟨15, _⟩ => ⟨S8x1x768, .f32⟩
  | .hbm, ⟨16, _⟩ => ⟨S8x4096x768, .f32⟩
  | .local _ .vmem, ⟨0, _⟩ => ⟨S1x1024x768, .bf16⟩
  | .local _ .vmem, ⟨1, _⟩ => ⟨S1x1024x768, .bf16⟩
  | .local _ .vmem, ⟨2, _⟩ => ⟨S768x768, .bf16⟩
  | .local _ .vmem, ⟨3, _⟩ => ⟨S1x768, .f32⟩
  | .local _ .vmem, ⟨4, _⟩ => ⟨S1x1x768, .f32⟩
  | .local _ .vmem, ⟨5, _⟩ => ⟨S1x1x768, .f32⟩
  | .local _ .vmem, ⟨6, _⟩ => ⟨S1x1x768, .f32⟩
  | .local _ .vmem, ⟨7, _⟩ => ⟨S1x1024x768, .bf16⟩
  | .local _ .vmem, ⟨8, _⟩ => ⟨S1x1024x768, .bf16⟩
  | .local _ .vmem, ⟨9, _⟩ => ⟨S768x768, .bf16⟩
  | .local _ .vmem, ⟨10, _⟩ => ⟨S1x768, .f32⟩
  | .local _ .vmem, ⟨11, _⟩ => ⟨S1x1x768, .f32⟩
  | .local _ .vmem, ⟨12, _⟩ => ⟨S1x1x768, .f32⟩
  | .local _ .vmem, ⟨13, _⟩ => ⟨S1x1x768, .f32⟩
  | .local _ .vmem, ⟨14, _⟩ => ⟨S1x1x768, .f32⟩
  | .local _ .vmem, ⟨15, _⟩ => ⟨S1x1x768, .f32⟩
  | .local _ .vmem, ⟨16, _⟩ => ⟨S1x1024x768, .bf16⟩
  | .local _ .vmem, ⟨17, _⟩ => ⟨S1x1024x768, .bf16⟩
  | .local _ .vmem, ⟨18, _⟩ => ⟨S768x768, .bf16⟩
  | .local _ .vmem, ⟨19, _⟩ => ⟨S768x768, .bf16⟩
  | .local _ .vmem, ⟨20, _⟩ => ⟨S768x768, .bf16⟩
  | .local _ .vmem, ⟨21, _⟩ => ⟨S1x1x768, .f32⟩
  | .local _ .vmem, ⟨22, _⟩ => ⟨S1x1x768, .f32⟩
  | .local _ .vmem, ⟨23, _⟩ => ⟨S1x1024x768, .f32⟩
  | .local _ .vmem, ⟨24, _⟩ => ⟨S1x1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S768x768 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1024x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bitsLt_bf16_f32 : FTy.bits .bf16 < FTy.bits .f32
  shapeCasts_S768_S1x768 : S768.ShapeCasts S1x768
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  reduces_S1024x768_S1024 : S1024x768.Reduces [1] S1024
  shapeCasts_S1024_S1024x1 : S1024.ShapeCasts S1024x1
  broadcasts_S1024x1_S1024x768 : S1024x1.Broadcasts S1024x768
  reduces_S1024x768_S768 : S1024x768.Reduces [0] S768
  shapeCasts_S1x768_S1x1x768 : S1x768.ShapeCasts S1x1x768
  shapeCasts_S1x1x768_S1x768 : S1x1x768.ShapeCasts S1x768
  shapeCasts_S1024x768_S1x1024x768 : S1024x768.ShapeCasts S1x1024x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x4096x768.size a
  hwx0_0 : ∀ i : grid0.Coords, EltTy.bits .bf16 = 32 ∨ (Rect.block (s := S8x4096x768) S1x1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S8x1x768.size a
  hwx0_3 : ∀ i : grid0.Coords, EltTy.bits .f32 = 32 ∨ (Rect.block (s := S8x1x768) S1x1x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S8x4096x768.size a
  hwx1_0 : ∀ i : grid1.Coords, EltTy.bits .bf16 = 32 ∨ (Rect.block (s := S8x4096x768) S1x1024x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x768.size a ≤ S8x1x768.size a
  hwx1_3 : ∀ i : grid1.Coords, EltTy.bits .f32 = 32 ∨ (Rect.block (s := S8x1x768) S1x1x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x768.size a ≤ S8x1x768.size a
  hwx1_4 : ∀ i : grid1.Coords, EltTy.bits .f32 = 32 ∨ (Rect.block (s := S8x1x768) S1x1x768.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x768.size a ≤ S8x4096x768.size a
  hwx2_0 : ∀ i : grid2.Coords, EltTy.bits .bf16 = 32 ∨ (Rect.block (s := S8x4096x768) S1x1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .bf16 = 32 ∨ (Rect.block (s := S768x768) S768x768.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x768.size a ≤ S768x768.size a
  hwx2_3 : ∀ i : grid2.Coords, EltTy.bits .bf16 = 32 ∨ (Rect.block (s := S768x768) S768x768.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x768.size a ≤ S8x1x768.size a
  hwx2_4 : ∀ i : grid2.Coords, EltTy.bits .f32 = 32 ∨ (Rect.block (s := S8x1x768) S1x1x768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x768.size a ≤ S8x4096x768.size a
  hwx2_5 : ∀ i : grid2.Coords, EltTy.bits .f32 = 32 ∨ (Rect.block (s := S8x4096x768) S1x1024x768.size (cc2_transform_5 i) (hinb2_5 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S1x1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S768x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x1x768.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x1024x768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x4096x768 : Shape := ⟨3, ![8, 4096, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S8x4096 : Shape := ⟨2, ![8, 4096]⟩
abbrev S8x4096x1 : Shape := ⟨3, ![8, 4096, 1]⟩
abbrev S8x768 : Shape := ⟨2, ![8, 768]⟩
abbrev S8x1x768 : Shape := ⟨3, ![8, 1, 768]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S8x4096x768, .f32⟩
  | .hbm, ⟨8, _⟩ => ⟨S8x4096x768, .f32⟩
  | .hbm, ⟨9, _⟩ => ⟨S8x4096x768, .f32⟩
  | .hbm, ⟨10, _⟩ => ⟨S1x1x768, .f32⟩
  | .hbm, ⟨11, _⟩ => ⟨S8x4096x768, .f32⟩
  | .hbm, ⟨12, _⟩ => ⟨S8x4096x768, .f32⟩
  | .hbm, ⟨13, _⟩ => ⟨S_, .f32⟩
  | .hbm, ⟨14, _⟩ => ⟨S8x4096x768, .f32⟩
  | .hbm, ⟨15, _⟩ => ⟨S8x4096x768, .f32⟩
  | .hbm, ⟨16, _⟩ => ⟨S_, .f32⟩
  | .hbm, ⟨17, _⟩ => ⟨S8x4096, .f32⟩
  | .hbm, ⟨18, _⟩ => ⟨S_, .f32⟩
  | .hbm, ⟨19, _⟩ => ⟨S8x4096, .f32⟩
  | .hbm, ⟨20, _⟩ => ⟨S8x4096, .f32⟩
  | .hbm, ⟨21, _⟩ => ⟨S8x4096x1, .f32⟩
  | .hbm, ⟨22, _⟩ => ⟨S8x4096x768, .f32⟩
  | .hbm, ⟨23, _⟩ => ⟨S8x4096x768, .f32⟩
  | .hbm, ⟨24, _⟩ => ⟨S8x4096x768, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x768, .f32⟩
  | .hbm, ⟨29, _⟩ => ⟨S8x4096x768, .f32⟩
  | .hbm, ⟨30, _⟩ => ⟨S8x4096x768, .f32⟩
  | .hbm, ⟨31, _⟩ => ⟨S_, .f32⟩
  | .hbm, ⟨32, _⟩ => ⟨S8x768, .f32⟩
  | .hbm, ⟨33, _⟩ => ⟨S8x1x768, .f32⟩
  | .hbm, ⟨34, _⟩ => ⟨S8x4096x768, .f32⟩
  | .hbm, ⟨35, _⟩ => ⟨S8x4096x768, .f32⟩
  | .hbm, ⟨36, _⟩ => ⟨S1x1x768, .f32⟩
  | .hbm, ⟨37, _⟩ => ⟨S8x4096x768, .f32⟩
  | .hbm, ⟨38, _⟩ => ⟨S8x4096x768, .f32⟩
  | .hbm, ⟨39, _⟩ => ⟨S_, .f32⟩
  | .hbm, ⟨40, _⟩ => ⟨S8x4096x768, .f32⟩
  | .hbm, ⟨41, _⟩ => ⟨S8x4096x768, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x768, .f32⟩
  | .hbm, ⟨49, _⟩ => ⟨S8x4096x768, .f32⟩
  | .hbm, ⟨50, _⟩ => ⟨S8x4096x768, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x768, .f32⟩
  | .hbm, ⟨55, _⟩ => ⟨S8x4096x768, .f32⟩
  | .hbm, ⟨56, _⟩ => ⟨S8x4096x768, .f32⟩
  | .hbm, ⟨57, _⟩ => ⟨S_, .f32⟩
  | .hbm, ⟨58, _⟩ => ⟨S8x768, .f32⟩
  | .hbm, ⟨59, _⟩ => ⟨S8x1x768, .f32⟩
  | .hbm, ⟨60, _⟩ => ⟨S8x4096x768, .f32⟩
  | .hbm, ⟨61, _⟩ => ⟨S8x4096x768, .f32⟩
  | .hbm, ⟨62, _⟩ => ⟨S8x4096x768, .f32⟩
  | .hbm, ⟨63, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  bcast_S_S8x4096x768 : S_.BroadcastsInDim S8x4096x768 (![] : Fin 0 → Fin S8x4096x768.rank)
  reducesTo_S8x4096x768_S8x4096_d2 : S8x4096x768.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x768_0_1_2 : S8x4096x1.BroadcastsInDim S8x4096x768 (![0, 1, 2] : Fin 3 → Fin S8x4096x768.rank)
  reducesTo_S8x4096x768_S8x768_d1 : S8x4096x768.ReducesTo [1] S8x768
  bcast_S8x768_S8x1x768_0_2 : S8x768.BroadcastsInDim S8x1x768 (![0, 2] : Fin 2 → Fin S8x1x768.rank)
  bcast_S8x1x768_S8x4096x768_0_1_2 : S8x1x768.BroadcastsInDim S8x4096x768 (![0, 1, 2] : Fin 3 → Fin S8x4096x768.rank)
  dot_S8x4096x768_S768x768_S8x4096x768_2_0_01_1_n_n_wf : DotDims.WF S8x4096x768 S768x768 S8x4096x768 [2] [0] [0, 1] [1] [] []

variable [Facts₀]

def dot_S8x4096x768_S768x768_S8x4096x768_2_0_01_1_n_n : DotDims S8x4096x768 S768x768 S8x4096x768 where
  lhsContracting := [2]
  rhsContracting := [0]
  lhsNonContracting := [0, 1]
  rhsNonContracting := [1]
  lhsBatch := []
  rhsBatch := []
  wf := dot_S8x4096x768_S768x768_S8x4096x768_2_0_01_1_n_n_wf

class Facts : Prop extends Facts₀ where

variable [Facts]
-- ==== Proof.KRun0A.lean ====
/-
  The first call's body, run once per control case. The body keeps a running sum in a scratch buffer of
  768 floats: at the first of the four row tiles of a batch entry it stores zero there; at every tile it
  adds the tile's contribution (the column sums, over the tile's 1024 rows, of the projected rows weighted by
  their softmax) and copies the scratch into the output block. Two cases: the tile is the first of its batch
  entry (the scratch is reset before the sum), or it is not (the scratch holds what the previous tile left).
-/
import proofs.«150044_j70102456205557_1_alg».proof.Proof.Gen.Kernel.Launch
import proofs.«150044_j70102456205557_1_alg».proof.Proof.Gen.Kernel.Skeleton
import proofs.«150044_j70102456205557_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The one branch condition -/

/-- The body's one conditional: "this tile is the first of its batch entry", as the scalar chain reads it
    off the grid coordinates. -/
abbrev cond0 (i : grid0.Coords) : Prop :=
  (Scalar.cmpi .ne (Scalar.extui (Scalar.cmpi .eq (BitVec.ofNat 32 (i 1).val) 0#32)) 0#32) = 1#1

/-- Over the 32 points it holds exactly at the points divisible by four. -/
theorem hcond0 : ∀ t : Fin cfg0.N, cond0 (grid0.coords t) ↔ t.val % 4 = 0 :=
  (by decide +kernel : ∀ t : Fin grid0.N, cond0 (grid0.coords t) ↔ t.val % 4 = 0)

/-- The scratch operand: a whole buffer of the call's own. -/
abbrev scM0 : Memref sig .tc .vmem S1x1x768 .f32 := Memref.whole cc0_scratch0
/-- The view through which the scratch's and the output block's contents are stated. -/
abbrev VS0 : View sig .tc .vmem S1x1x768 .f32 := scM0.view

/-! ## The body in the two cases -/

set_option maxHeartbeats 4000000 in
/-- FIRST TILE of a batch entry. On whole memrefs — the three inputs at their contents, the output block and the
    scratch at anything — the body ends with the inputs as they were and the output block and the scratch
    each holding the pieces the run stored, which are the witnesses. -/
noncomputable def kernelRun0_A (c : Dev nD) (i : grid0.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (hc : cond0 i) (x0 : Vec F S1x1024x768 .bf16) (x1 : Vec F S768x768 .bf16) (x2 : Vec F S1x768 .f32) :
    Σ' (L3 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gq_kernel i arg2 harg2 arg3 harg3 arg4 harg4 arg5 harg5 arg6 harg6) K } := by
  refine ⟨?_, ?_, fun E K => ?run⟩
  case run =>
    simp only [cc0__gq_kernel_eq_skeleton]; unfold cc0__gq_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.KRun0B.lean ====
/-
  The first call's body at a tile that is not the first of its batch entry.
-/
import proofs.«150044_j70102456205557_1_alg».proof.Proof.KRun0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LATER TILE of a batch entry. The scratch holds what the previous tile left (xs); the body ends with the
    inputs as they were and the output block and the scratch each holding the pieces the run stored. -/
noncomputable def kernelRun0_B (c : Dev nD) (i : grid0.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (hc : ¬cond0 i) (x0 : Vec F S1x1024x768 .bf16) (x1 : Vec F S768x768 .bf16) (x2 : Vec F S1x768 .f32) (xs : Vec F S1x1x768 .f32) :
    Σ' (L3 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gq_kernel i arg2 harg2 arg3 harg3 arg4 harg4 arg5 harg5 arg6 harg6) K } := by
  refine ⟨?_, ?_, fun E K => ?run⟩
  case run =>
    simp only [cc0__gq_kernel_eq_skeleton]; unfold cc0__gq_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.Region0K.lean ====
/-
  The first call as a pipeline: what each window's block is at a point, what the body leaves in the output
  block and in the scratch after each of the 32 points (a recursion over the points: the first tile of a
  batch entry starts from zero, a later tile from what the tile before left), the invariant carrying the
  scratch from point to point, and the body obligation at every point.
-/
import proofs.«150044_j70102456205557_1_alg».proof.Proof.KRun0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

abbrev ms0_0 (t : Fin cfg0.N) : Memref sig .tc .vmem S1x1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x768 .f32 := win0_3.stage (cfg0.slots t 3)
abbrev hs0_3 (t : Fin cfg0.N) : (ms0_3 t).IsWhole := hstage0_3 ((cfg0.slots t 3).cast nbuf0_3)

/-! ## What each case leaves: the stored pieces read back -/

/-- The first-tile run at point t on the point's memrefs. -/
abbrev runA0 (c : Dev nD) (t : Fin cfg0.N) (hc : cond0 (grid0.coords t)) (x0 : Vec F S1x1024x768 .bf16) (x1 : Vec F S768x768 .bf16) (x2 : Vec F S1x768 .f32) :=
  kernelRun0_A c (grid0.coords t) (ms0_0 t) (hs0_0 t) (ms0_1 t) (hs0_1 t) (ms0_2 t) (hs0_2 t) (ms0_3 t) (hs0_3 t) scM0 (Memref.isWhole_whole _) hc x0 x1 x2
/-- The later-tile run at point t on the point's memrefs, the scratch found at xs. -/
abbrev runB0 (c : Dev nD) (t : Fin cfg0.N) (hc : ¬cond0 (grid0.coords t)) (x0 : Vec F S1x1024x768 .bf16) (x1 : Vec F S768x768 .bf16) (x2 : Vec F S1x768 .f32) (xs : Vec F S1x1x768 .f32) :=
  kernelRun0_B c (grid0.coords t) (ms0_0 t) (hs0_0 t) (ms0_1 t) (hs0_1 t) (ms0_2 t) (hs0_2 t) (ms0_3 t) (hs0_3 t) scM0 (Memref.isWhole_whole _) hc x0 x1 x2 xs

/-- Each case's pieces tile the 768-float buffer they are stored into, so they cover it. -/
theorem cover0_A_3 (c : Dev nD) (t : Fin cfg0.N) (hc : cond0 (grid0.coords t)) (x0 : Vec F S1x1024x768 .bf16) (x1 : Vec F S768x768 .bf16) (x2 : Vec F S1x768 .f32) (y : S1x1x768.Idx) :
    ∃ pc ∈ (runA0 c t hc x0 x1 x2).1, y ∈ pc.1.set :=
  View.cover_of_tiledL (runA0 c t hc x0 x1 x2).1 S1x1x768.size (by sl_kernel_rfl) y
theorem scover0_A (c : Dev nD) (t : Fin cfg0.N) (hc : cond0 (grid0.coords t)) (x0 : Vec F S1x1024x768 .bf16) (x1 : Vec F S768x768 .bf16) (x2 : Vec F S1x768 .f32) (y : S1x1x768.Idx) :
    ∃ pc ∈ (runA0 c t hc x0 x1 x2).2.1, y ∈ pc.1.set :=
  View.cover_of_tiledL (runA0 c t hc x0 x1 x2).2.1 S1x1x768.size (by sl_kernel_rfl) y
theorem cover0_B_3 (c : Dev nD) (t : Fin cfg0.N) (hc : ¬cond0 (grid0.coords t)) (x0 : Vec F S1x1024x768 .bf16) (x1 : Vec F S768x768 .bf16) (x2 : Vec F S1x768 .f32) (xs : Vec F S1x1x768 .f32) (y : S1x1x768.Idx) :
    ∃ pc ∈ (runB0 c t hc x0 x1 x2 xs).1, y ∈ pc.1.set :=
  View.cover_of_tiledL (runB0 c t hc x0 x1 x2 xs).1 S1x1x768.size (by sl_kernel_rfl) y
theorem scover0_B (c : Dev nD) (t : Fin cfg0.N) (hc : ¬cond0 (grid0.coords t)) (x0 : Vec F S1x1024x768 .bf16) (x1 : Vec F S768x768 .bf16) (x2 : Vec F S1x768 .f32) (xs : Vec F S1x1x768 .f32) (y : S1x1x768.Idx) :
    ∃ pc ∈ (runB0 c t hc x0 x1 x2 xs).2.1, y ∈ pc.1.set :=
  View.cover_of_tiledL (runB0 c t hc x0 x1 x2 xs).2.1 S1x1x768.size (by sl_kernel_rfl) y

/-- What the first-tile case leaves in the output block and in the scratch. -/
def leftA0 (c : Dev nD) (t : Fin cfg0.N) (hc : cond0 (grid0.coords t)) (x0 : Vec F S1x1024x768 .bf16) (x1 : Vec F S768x768 .bf16) (x2 : Vec F S1x768 .f32) :
    Vec F S1x1x768 .f32 × Vec F S1x1x768 .f32 :=
  (VS0.read (Elt F) (VS0.writes (Elt F) VS0.junk (runA0 c t hc x0 x1 x2).1), VS0.read (Elt F) (VS0.writes (Elt F) VS0.junk (runA0 c t hc x0 x1 x2).2.1))
/-- What the later-tile case leaves in the output block and in the scratch. -/
def leftB0 (c : Dev nD) (t : Fin cfg0.N) (hc : ¬cond0 (grid0.coords t)) (x0 : Vec F S1x1024x768 .bf16) (x1 : Vec F S768x768 .bf16) (x2 : Vec F S1x768 .f32) (xs : Vec F S1x1x768 .f32) :
    Vec F S1x1x768 .f32 × Vec F S1x1x768 .f32 :=
  (VS0.read (Elt F) (VS0.writes (Elt F) VS0.junk (runB0 c t hc x0 x1 x2 xs).1), VS0.read (Elt F) (VS0.writes (Elt F) VS0.junk (runB0 c t hc x0 x1 x2 xs).2.1))

/-! ## The accumulation over the points -/

/-- What the output block's staging buffer and the scratch hold after the body at position n: the case the
    point is in, run on the point's blocks, a later tile over what the point before left in the scratch. -/
def outsAt0 (c : Dev nD) : (n : ℕ) → n < cfg0.N → Vec F S1x1x768 .f32 × Vec F S1x1x768 .f32
  | 0, hn => leftA0 c ⟨0, hn⟩ ((hcond0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 4 = 0 then
      leftA0 c ⟨n + 1, hn⟩ ((hcond0 ⟨n + 1, hn⟩).mpr h0) (iblk0 V c 0 ⟨n + 1, hn⟩) (iblk0 V c 1 ⟨n + 1, hn⟩) (iblk0 V c 2 ⟨n + 1, hn⟩)
    else
      leftB0 c ⟨n + 1, hn⟩ (fun h => h0 ((hcond0 ⟨n + 1, hn⟩).mp h)) (iblk0 V c 0 ⟨n + 1, hn⟩) (iblk0 V c 1 ⟨n + 1, hn⟩) (iblk0 V c 2 ⟨n + 1, hn⟩)
        (outsAt0 c n (Nat.lt_of_succ_lt hn)).2

/-- At a first tile: that case's contents. -/
theorem outsAt0_A (c : Dev nD) (t : Fin cfg0.N) (h0 : t.val % 4 = 0) :
    outsAt0 V c t.val t.isLt = leftA0 c t ((hcond0 t).mpr h0) (iblk0 V c 0 t) (iblk0 V c 1 t) (iblk0 V c 2 t) := by
  obtain ⟨n, hn⟩ := t
  cases n with
  | zero => exact rfl
  | succ n => exact (dif_pos h0).trans rfl

/-- At a later tile: that case's contents over what the point before left. -/
theorem outsAt0_B (c : Dev nD) (t : Fin cfg0.N) (h0 : ¬t.val % 4 = 0) :
    outsAt0 V c t.val t.isLt = leftB0 c t (fun h => h0 ((hcond0 t).mp h)) (iblk0 V c 0 t) (iblk0 V c 1 t) (iblk0 V c 2 t)
      (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant: the scratch carried from point to point -/

/-- The call's scoped buffers split at its own scratch: the scratch whole at some contents, the rest unopened. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The other scoped buffers, unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-- The invariant before position n: before the first point every scoped buffer at anything; afterwards the
    scratch at what the point before left in it, the other scoped buffers at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

/-- The arrays as the call finds them; after the body at point t each input's buffer at its block and the
    output block's at the running sum; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4800000 in
/-- The body at any point: the inputs' memrefs hold their blocks; the point is a first tile or a later one; the
    invariant hands the body the scratch (at what the point before left, or at anything before a first tile) and
    takes it back at this point's contents; the output block is handed at anything and taken back at the same sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases h0 : t.val % 4 = 0
  · rw [outsAt0_A V c t h0]
    unfold leftA0; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%d3, H3⟩⟩
      iapply ((runA0 c t ((hcond0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c t _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c t _ _ _ _)
    · rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((runA0 c t ((hcond0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c t _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c t _ _ _ _)
  · rw [outsAt0_B V c t h0]
    unfold leftB0; (try dsimp only)
    have hz : t.val ≠ 0 := fun e => h0 (by rw [e])
    rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩⟩
    iapply ((runB0 c t (fun h => h0 ((hcond0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover0_B c t _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c t _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KRun1A.lean ====
/-
  The second call's body, run once per control case. It is the first call's body over the keys scaled by the
  first pooled vector (a fourth input, one block of 768 floats per batch entry): the same running sum in a
  scratch buffer, reset at the first tile of a batch entry, and copied into the output block at every tile.
-/
import proofs.«150044_j70102456205557_1_alg».proof.Proof.Gen.Kernel.Launch
import proofs.«150044_j70102456205557_1_alg».proof.Proof.Gen.Kernel.Skeleton
import proofs.«150044_j70102456205557_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The one branch condition -/

/-- "This tile is the first of its batch entry", as the scalar chain reads it off the grid coordinates. -/
abbrev cond1 (i : grid1.Coords) : Prop :=
  (Scalar.cmpi .ne (Scalar.extui (Scalar.cmpi .eq (BitVec.ofNat 32 (i 1).val) 0#32)) 0#32) = 1#1

/-- Over the 32 points it holds exactly at the points divisible by four. -/
theorem hcond1 : ∀ t : Fin cfg1.N, cond1 (grid1.coords t) ↔ t.val % 4 = 0 :=
  (by decide +kernel : ∀ t : Fin grid1.N, cond1 (grid1.coords t) ↔ t.val % 4 = 0)

/-- The scratch operand: a whole buffer of the call's own. -/
abbrev scM1 : Memref sig .tc .vmem S1x1x768 .f32 := Memref.whole cc1_scratch0
/-- The view through which the scratch's and the output block's contents are stated. -/
abbrev VS1 : View sig .tc .vmem S1x1x768 .f32 := scM1.view

/-! ## The body in the two cases -/

set_option maxHeartbeats 4000000 in
/-- FIRST TILE of a batch entry. On whole memrefs — the four inputs at their contents, the output block and the scratch at anything — the body ends with the inputs as they were and the output block and the scratch each holding the pieces the run stored, which are the witnesses. -/
noncomputable def kernelRun1_A (c : Dev nD) (i : grid1.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (arg7 : Memref sig .tc .vmem S1x1x768 .f32) (harg7 : arg7.IsWhole)
    (hc : cond1 i) (x0 : Vec F S1x1024x768 .bf16) (x1 : Vec F S768x768 .bf16) (x2 : Vec F S1x768 .f32) (x3 : Vec F S1x1x768 .f32) :
    Σ' (L4 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__gk_kernel i arg2 harg2 arg3 harg3 arg4 harg4 arg5 harg5 arg6 harg6 arg7 harg7) K } := by
  refine ⟨?_, ?_, fun E K => ?run⟩
  case run =>
    simp only [cc1__gk_kernel_eq_skeleton]; unfold cc1__gk_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Hand

end
-- ==== Proof.KRun1B.lean ====
/-
  The second call's body at a tile that is not the first of its batch entry.
-/
import proofs.«150044_j70102456205557_1_alg».proof.Proof.KRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LATER TILE of a batch entry. The scratch holds what the previous tile left (xs); the body ends with the inputs as they were and the output block and the scratch each holding the pieces the run stored. -/
noncomputable def kernelRun1_B (c : Dev nD) (i : grid1.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (arg7 : Memref sig .tc .vmem S1x1x768 .f32) (harg7 : arg7.IsWhole)
    (hc : ¬cond1 i) (x0 : Vec F S1x1024x768 .bf16) (x1 : Vec F S768x768 .bf16) (x2 : Vec F S1x768 .f32) (x3 : Vec F S1x1x768 .f32) (xs : Vec F S1x1x768 .f32) :
    Σ' (L4 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__gk_kernel i arg2 harg2 arg3 harg3 arg4 harg4 arg5 harg5 arg6 harg6 arg7 harg7) K } := by
  refine ⟨?_, ?_, fun E K => ?run⟩
  case run =>
    simp only [cc1__gk_kernel_eq_skeleton]; unfold cc1__gk_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Hand

end
-- ==== Proof.Region1K.lean ====
/-
  The second call as a pipeline: what each window's block is at a point, what the body leaves in the output
  block and in the scratch after each of the 32 points (a recursion over the points: the first tile of a
  batch entry starts from zero, a later tile from what the tile before left), the invariant carrying the
  scratch from point to point, and the body obligation at every point.
-/
import proofs.«150044_j70102456205557_1_alg».proof.Proof.KRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

abbrev ms1_0 (t : Fin cfg1.N) : Memref sig .tc .vmem S1x1024x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x768 .f32 := win1_4.stage (cfg1.slots t 4)
abbrev hs1_4 (t : Fin cfg1.N) : (ms1_4 t).IsWhole := hstage1_4 ((cfg1.slots t 4).cast nbuf1_4)

/-! ## What each case leaves: the stored pieces read back -/

/-- The first-tile run at point t on the point's memrefs. -/
abbrev runA1 (c : Dev nD) (t : Fin cfg1.N) (hc : cond1 (grid1.coords t)) (x0 : Vec F S1x1024x768 .bf16) (x1 : Vec F S768x768 .bf16) (x2 : Vec F S1x768 .f32) (x3 : Vec F S1x1x768 .f32) :=
  kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc x0 x1 x2 x3
/-- The later-tile run at point t on the point's memrefs, the scratch found at xs. -/
abbrev runB1 (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) :=
  kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc x0 x1 x2 x3 xs

/-- Each case's pieces tile the 768-float buffer they are stored into, so they cover it. -/
theorem cover1_A_4 (c : Dev nD) (t : Fin cfg1.N) (hc : cond1 (grid1.coords t)) (x0 : Vec F S1x1024x768 .bf16) (x1 : Vec F S768x768 .bf16) (x2 : Vec F S1x768 .f32) (x3 : Vec F S1x1x768 .f32) (y : S1x1x768.Idx) :
    ∃ pc ∈ (runA1 c t hc x0 x1 x2 x3).1, y ∈ pc.1.set :=
  View.cover_of_tiledL (runA1 c t hc x0 x1 x2 x3).1 S1x1x768.size (by sl_kernel_rfl) y
theorem scover1_A (c : Dev nD) (t : Fin cfg1.N) (hc : cond1 (grid1.coords t)) (x0 : Vec F S1x1024x768 .bf16) (x1 : Vec F S768x768 .bf16) (x2 : Vec F S1x768 .f32) (x3 : Vec F S1x1x768 .f32) (y : S1x1x768.Idx) :
    ∃ pc ∈ (runA1 c t hc x0 x1 x2 x3).2.1, y ∈ pc.1.set :=
  View.cover_of_tiledL (runA1 c t hc x0 x1 x2 x3).2.1 S1x1x768.size (by sl_kernel_rfl) y
theorem cover1_B_4 (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) (y : S1x1x768.Idx) :
    ∃ pc ∈ (runB1 c t hc x0 x1 x2 x3 xs).1, y ∈ pc.1.set :=
  View.cover_of_tiledL (runB1 c t hc x0 x1 x2 x3 xs).1 S1x1x768.size (by sl_kernel_rfl) y
theorem scover1_B (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) (y : S1x1x768.Idx) :
    ∃ pc ∈ (runB1 c t hc x0 x1 x2 x3 xs).2.1, y ∈ pc.1.set :=
  View.cover_of_tiledL (runB1 c t hc x0 x1 x2 x3 xs).2.1 S1x1x768.size (by sl_kernel_rfl) y

/-- What the first-tile case leaves in the output block and in the scratch. -/
def leftA1 (c : Dev nD) (t : Fin cfg1.N) (hc : cond1 (grid1.coords t)) (x0 : Vec F S1x1024x768 .bf16) (x1 : Vec F S768x768 .bf16) (x2 : Vec F S1x768 .f32) (x3 : Vec F S1x1x768 .f32) :
    Vec F S1x1x768 .f32 × Vec F S1x1x768 .f32 :=
  (VS1.read (Elt F) (VS1.writes (Elt F) VS1.junk (runA1 c t hc x0 x1 x2 x3).1), VS1.read (Elt F) (VS1.writes (Elt F) VS1.junk (runA1 c t hc x0 x1 x2 x3).2.1))
/-- What the later-tile case leaves in the output block and in the scratch. -/
def leftB1 (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) :
    Vec F S1x1x768 .f32 × Vec F S1x1x768 .f32 :=
  (VS1.read (Elt F) (VS1.writes (Elt F) VS1.junk (runB1 c t hc x0 x1 x2 x3 xs).1), VS1.read (Elt F) (VS1.writes (Elt F) VS1.junk (runB1 c t hc x0 x1 x2 x3 xs).2.1))

/-! ## The accumulation over the points -/

/-- What the output block's staging buffer and the scratch hold after the body at position n: the case the
    point is in, run on the point's blocks, a later tile over what the point before left in the scratch. -/
def outsAt1 (c : Dev nD) : (n : ℕ) → n < cfg1.N → Vec F S1x1x768 .f32 × Vec F S1x1x768 .f32
  | 0, hn => leftA1 c ⟨0, hn⟩ ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 4 = 0 then
      leftA1 c ⟨n + 1, hn⟩ ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      leftB1 c ⟨n + 1, hn⟩ (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 c n (Nat.lt_of_succ_lt hn)).2

/-- At a first tile: that case's contents. -/
theorem outsAt1_A (c : Dev nD) (t : Fin cfg1.N) (h0 : t.val % 4 = 0) :
    outsAt1 V c t.val t.isLt = leftA1 c t ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a later tile: that case's contents over what the point before left. -/
theorem outsAt1_B (c : Dev nD) (t : Fin cfg1.N) (h0 : ¬t.val % 4 = 0) :
    outsAt1 V c t.val t.isLt = leftB1 c t (fun h => h0 ((hcond1 t).mp h)) (iblk1 V c 0 t) (iblk1 V c 1 t) (iblk1 V c 2 t) (iblk1 V c 3 t)
      (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant: the scratch carried from point to point -/

/-- The call's scoped buffers split at its own scratch: the scratch whole at some contents, the rest unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The other scoped buffers, unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- The invariant before position n: before the first point every scoped buffer at anything; afterwards the
    scratch at what the point before left in it, the other scoped buffers at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The arrays as the call finds them; after the body at point t each input's buffer at its block and the
    output block's at the running sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' memrefs hold their blocks; the point is a first tile or a later one; the
    invariant hands the body the scratch (at what the point before left, or at anything before a first tile) and
    takes it back at this point's contents; the output block is handed at anything and taken back at the same sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val % 4 = 0
  · rw [outsAt1_A V c t h0]
    unfold leftA1; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩⟩
      iapply ((runA1 c t ((hcond1 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c t _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c t _ _ _ _ _)
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runA1 c t ((hcond1 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c t _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c t _ _ _ _ _)
  · rw [outsAt1_B V c t h0]
    unfold leftB1; (try dsimp only)
    have hz : t.val ≠ 0 := fun e => h0 (by rw [e])
    rw [PhiS1_castSucc V c t, PhiS1_pos V c _ _ hz]
    · iintro ⟨⟨⟨HS, Hrest⟩, Hg⟩, Ho, ⟨%d0, H0⟩, ⟨%d1, H1⟩, ⟨%d2, H2⟩, ⟨%d3, H3⟩, ⟨%d4, H4⟩⟩
      iapply ((runB1 c t (fun h => h0 ((hcond1 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c t _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c t _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.Region2K.lean ====
import proofs.«150044_j70102456205557_1_alg».proof.Proof.Gen.Kernel.Launch
import proofs.«150044_j70102456205557_1_alg».proof.Proof.Gen.Kernel.Skeleton
import proofs.«150044_j70102456205557_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third call: the output projection, one block of rows per grid point

The call runs over a grid of 8 x 4 points `(b, n)`. At a point it is handed six staging buffers: a block of
1024 rows of the activations (window 0, block `(b, n, 0)` of a `[8,4096,768]` array), three whole `[768,768]`
weight matrices (windows 1, 2, 3), the row `b` of a `[8,1,768]` array of per-batch gates (window 4), and the
output block `(b, n, 0)` (window 5), which it overwrites whole and which is written back at every point.

This file states, at any float instance and at any contents `V` of the core's buffers when the call is entered,
what every staging buffer holds before and after the body at every point, and proves that the body does that.
-/

-- membership in a rectangle of these extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the block of activation rows, a new block at every point) holds its block at every point, for
    any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a whole weight matrix, brought in once, at the first point) holds its block — the whole
    matrix — at every point, brought in there or not: where it was not, the block index has not moved and the
    body left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a whole weight matrix, brought in once): as window 1. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (a whole weight matrix, brought in once): as window 1. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the gate row of batch `b`, brought in when `b` changes, i.e. at the points ≡ 0 mod 4) holds
    its block at every point: within a batch the block index does not move. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

/-- The whole `[1,1024,768]` buffer (the activation block, and the output block). -/
abbrev r2_0 : Rect S1x1024x768 := Rect.unit (s := S1x1024x768) ![0, 0, 0] S1x1024x768.size inb_S1x1024x768_S1x1024x768_0_0_0
/-- The whole `[768,768]` buffer (each weight matrix). -/
abbrev r2_1 : Rect S768x768 := Rect.unit (s := S768x768) ![0, 0] S768x768.size inb_S768x768_S768x768_0_0
/-- The whole `[1,1,768]` buffer (the gate row). -/
abbrev r2_2 : Rect S1x1x768 := Rect.unit (s := S1x1x768) ![0, 0, 0] S1x1x768.size inb_S1x1x768_S1x1x768_0_0_0

/-! ## What the body leaves in the output window's buffer -/

/-- Window 5's staging buffer after the body, from the input windows' blocks `x0 … x4`: its one store, of the
    payload computed from the five loaded values. The payload takes the activations, the first two weight
    matrices, the gate row and then the third weight matrix, in that order. -/
def out2_5 (x0 : Vec F S1x1024x768 .bf16) (x1 x2 x3 : Vec F S768x768 .bf16) (x4 : Vec F S1x1x768 .f32) : Vec F S1x1024x768 .f32 :=
  View.canon [⟨r2_0, k2_pay1 (View.ld x0 r2_0) (View.ld x1 r2_1) (View.ld x2 r2_1) (View.ld x4 r2_2) (View.ld x3 r2_1)⟩]

/-- The one store takes the whole buffer, so it covers it. -/
theorem cover2_5 (p0 : Vec F S1x1024x768 .f32) (y : S1x1024x768.Idx) :
    ∃ pc ∈ ([⟨r2_0, p0⟩] : List (View.Piece (Elt F) S1x1024x768 .f32)), y ∈ pc.1.set :=
  View.cover_of_tiled [⟨r2_0, p0⟩] S1x1024x768.size (by rfl) y

/-! ## The body's triple -/

set_option maxHeartbeats 1000000 in
/-- The body on whole staging memrefs, the five inputs' at read contents `x0 … x4` and the output's at anything,
    runs to the continuation holding the inputs' as they were and the output's at `out2_5` of the inputs'. The
    body also loads the output buffer once before storing into it; the loaded value is not used, which is why any
    prior contents will do. -/
theorem sound_kernel2 (c : Dev nD) (E : Set ℕ) (i : grid2.Coords)
    (arg0 : Memref sig .tc .vmem S1x1024x768 .bf16) (harg0 : arg0.IsWhole)
    (arg1 : Memref sig .tc .vmem S768x768 .bf16) (harg1 : arg1.IsWhole)
    (arg2 : Memref sig .tc .vmem S768x768 .bf16) (harg2 : arg2.IsWhole)
    (arg3 : Memref sig .tc .vmem S768x768 .bf16) (harg3 : arg3.IsWhole)
    (arg4 : Memref sig .tc .vmem S1x1x768 .f32) (harg4 : arg4.IsWhole)
    (arg5 : Memref sig .tc .vmem S1x1024x768 .f32) (harg5 : arg5.IsWhole)
    (x0 : Vec F S1x1024x768 .bf16) (x1 x2 x3 : Vec F S768x768 .bf16) (x4 : Vec F S1x1x768 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__out_kernel i arg0 harg0 arg1 harg1 arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The call's proof data -/

/-- The proof data of the call on core `c`: the arrays as the call finds them (`V`); after the body at point `t`
    each input's buffer at its block and the output's at `out2_5` of the input blocks; the invariant is the rest of
    the core's scoped memory and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, brought in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, what the core owes, and every window's current
    staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.AssemblyK.lean ====
import proofs.«150044_j70102456205557_1_alg».proof.Proof.Region0K
import proofs.«150044_j70102456205557_1_alg».proof.Proof.Region1K
import proofs.«150044_j70102456205557_1_alg».proof.Proof.Region2K

/-!
# The whole run: one stretch of host operations, then the three calls back to back

The host stretch rounds the arguments to bf16 and reshapes two of them; call 0 writes `main_v7`, call 1 writes
`main_v8`, call 2 writes `main_v9`. This file folds the contents of the core's unscoped buffers through the four
segments, gives each call's proof data at the contents it is entered with, states every call as a segment over
the thread state "every unscoped buffer at the boundary's contents, the generator register at some state, nothing
owed", and concludes: the program terminates without fault and every unscoped buffer ends at the last fold `W4`.
Read at an argument, `W4` walks back to the launch memory; read at a call's output array, it is what the call's
write-backs leave.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (call 0's entry). -/
abbrev W1 : Dev nD → Valuation τ sig (Elt F) := fun c => StableHlo.after hostOps0 (W0 m ρ c)
/-- The same read at the core's references (what call 0's proof data take). -/
abbrev V1 : (c : Dev nD) → (b : Ref sig .tc) → Buf (Elt F) ((c : Thread nD τ).loc b) := fun c b => W1 m ρ c b
/-- After call 0: its arrays at what the pipeline leaves (an input's as entered, the output's with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
/-- At call 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1: its arrays at what the pipeline leaves (an input's as entered, the output's with every
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
/-- At call 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After call 2: its arrays at what the pipeline leaves (an input's as entered, the output's with every
    write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
/-- At call 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched

No host operation and no call writes an argument: the fold at an argument's buffer walks back to the launch memory. -/

/-- Argument 0 ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 ends as launched. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 ends as launched. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## What each call leaves alone, and where its output lands -/

/-- Call 0 changes `main_v7` only: a buffer that is none of its windows' arrays is untouched, and an input window's
    array ends as it was entered. -/
theorem V2_keep (c : Dev nD) (b : Ref sig .tc) (hb : b ≠ main_v7) : V2 m ρ c b = V1 m ρ c b := by
  by_cases h : ∃ w, Pipeline.arrRef spec0 w = b
  · obtain ⟨w, rfl⟩ := h
    revert hb
    exact match w with
    | ⟨0, _⟩ => fun _ => (W2_arr m ρ c 0).trans (((dat0 (V1 m ρ) c).arrAt_in 0 rfl _).trans (A_eq0 (V1 m ρ) c 0))
    | ⟨1, _⟩ => fun _ => (W2_arr m ρ c 1).trans (((dat0 (V1 m ρ) c).arrAt_in 1 rfl _).trans (A_eq0 (V1 m ρ) c 1))
    | ⟨2, _⟩ => fun _ => (W2_arr m ρ c 2).trans (((dat0 (V1 m ρ) c).arrAt_in 2 rfl _).trans (A_eq0 (V1 m ρ) c 2))
    | ⟨3, _⟩ => fun hb => absurd rfl hb
  · exact W2_of_ne m ρ c b fun w e => h ⟨w, e⟩

/-- Call 1 changes `main_v8` only: a buffer that is none of its windows' arrays is untouched, and an input window's
    array ends as it was entered. -/
theorem V3_keep (c : Dev nD) (b : Ref sig .tc) (hb : b ≠ main_v8) : V3 m ρ c b = V2 m ρ c b := by
  by_cases h : ∃ w, Pipeline.arrRef spec1 w = b
  · obtain ⟨w, rfl⟩ := h
    revert hb
    exact match w with
    | ⟨0, _⟩ => fun _ => (W3_arr m ρ c 0).trans (((dat1 (V2 m ρ) c).arrAt_in 0 rfl _).trans (A_eq1 (V2 m ρ) c 0))
    | ⟨1, _⟩ => fun _ => (W3_arr m ρ c 1).trans (((dat1 (V2 m ρ) c).arrAt_in 1 rfl _).trans (A_eq1 (V2 m ρ) c 1))
    | ⟨2, _⟩ => fun _ => (W3_arr m ρ c 2).trans (((dat1 (V2 m ρ) c).arrAt_in 2 rfl _).trans (A_eq1 (V2 m ρ) c 2))
    | ⟨3, _⟩ => fun _ => (W3_arr m ρ c 3).trans (((dat1 (V2 m ρ) c).arrAt_in 3 rfl _).trans (A_eq1 (V2 m ρ) c 3))
    | ⟨4, _⟩ => fun hb => absurd rfl hb
  · exact W3_of_ne m ρ c b fun w e => h ⟨w, e⟩

/-- Call 2 changes `main_v9` only: a buffer that is none of its windows' arrays is untouched, and an input window's
    array ends as it was entered. -/
theorem V4_keep (c : Dev nD) (b : Ref sig .tc) (hb : b ≠ main_v9) : V4 m ρ c b = V3 m ρ c b := by
  by_cases h : ∃ w, Pipeline.arrRef spec2 w = b
  · obtain ⟨w, rfl⟩ := h
    revert hb
    exact match w with
    | ⟨0, _⟩ => fun _ => (W4_arr m ρ c 0).trans (((dat2 (V3 m ρ) c).arrAt_in 0 rfl _).trans (A_eq2 (V3 m ρ) c 0))
    | ⟨1, _⟩ => fun _ => (W4_arr m ρ c 1).trans (((dat2 (V3 m ρ) c).arrAt_in 1 rfl _).trans (A_eq2 (V3 m ρ) c 1))
    | ⟨2, _⟩ => fun _ => (W4_arr m ρ c 2).trans (((dat2 (V3 m ρ) c).arrAt_in 2 rfl _).trans (A_eq2 (V3 m ρ) c 2))
    | ⟨3, _⟩ => fun _ => (W4_arr m ρ c 3).trans (((dat2 (V3 m ρ) c).arrAt_in 3 rfl _).trans (A_eq2 (V3 m ρ) c 3))
    | ⟨4, _⟩ => fun _ => (W4_arr m ρ c 4).trans (((dat2 (V3 m ρ) c).arrAt_in 4 rfl _).trans (A_eq2 (V3 m ρ) c 4))
    | ⟨5, _⟩ => fun hb => absurd rfl hb
  · exact W4_of_ne m ρ c b fun w e => h ⟨w, e⟩

/-- Call 0's output array after the call: every write-back folded in. -/
theorem V2_main_v7 (c : Dev nD) : V2 m ρ c main_v7 = (dat0 (V1 m ρ) c).arrAt 3 cfg0.N := W2_arr m ρ c 3
/-- Call 1's output array after the call. -/
theorem V3_main_v8 (c : Dev nD) : V3 m ρ c main_v8 = (dat1 (V2 m ρ) c).arrAt 4 cfg1.N := W3_arr m ρ c 4
/-- Call 2's output array — the program's result — after the call. -/
theorem W4_main_v9 (c : Dev nD) : W4 m ρ c (Proc.devRef .tc main_v9) = (dat2 (V3 m ρ) c).arrAt 5 cfg2.N := W4_arr m ρ c 5

/-! ## The proof data family and the thread state -/

/-- The prefetched tables' admissible contents: no call has a table. -/
abbrev adm : (p : Fin 3) → (pcfgs (F := F) p).Adm := fun p => (cfgs p).toPCfg_adm
/-- Every call's proof data, each at its entry contents — a literal `match`, so that the pinned configuration at a
    numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends at
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The calls as segments

Calls 0 and 1 carry a scratch from point to point, so their invariant is not the plain one: it is entered from the
plain one (`hin0`, `hin1`) and gives it back after the last point (`hout0`, `hout1`). Call 2's is the plain one. -/

-- a library lemma stated over the pinned configuration unifies with the printed one only when unification may
-- unfold plain definitions in a metavariable's type
set_option backward.isDefEq.respectTransparency.types false in
/-- Call 0 over the thread state: entered from every unscoped buffer at `W1`, left at `W2`. Its arrays are
    split out of the unscoped buffers and put back at the contents the write-backs leave; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Call 1 over the thread state: entered from every unscoped buffer at `W2`, left at `W3`. Its arrays are
    split out of the unscoped buffers and put back at the contents the write-backs leave; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Call 2 over the thread state: entered from every unscoped buffer at `W3`, left at `W4`. Its arrays are
    split out of the unscoped buffers and put back at the contents the write-backs leave; the generator register goes
    into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 4 segments in order: the host stretch from the launch contents, then a segment per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any float instance: from any memory with zero counters, every weakly fair execution of the program
    on the cores terminates, nothing faulting, and in every final state every unscoped buffer of every core holds
    the last fold `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: the program terminates without fault and every argument array ends as launched — `run_all` read at the
    seven arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.Run0A.lean ====
/-
  The first call's body, run once per control case. The body keeps a running sum in a scratch buffer of
  768 floats: at the first of the four row tiles of a batch entry it stores zero there; at every tile it
  adds the tile's contribution (the column sums, over the tile's 1024 rows, of the projected rows weighted by
  their softmax) and copies the scratch into the output block. Two cases: the tile is the first of its batch
  entry (the scratch is reset before the sum), or it is not (the scratch holds what the previous tile left).
-/
import proofs.«150044_j70102456205557_1_alg».proof.Proof.Gen.KernelIdeal.Launch
import proofs.«150044_j70102456205557_1_alg».proof.Proof.Gen.KernelIdeal.Skeleton
import proofs.«150044_j70102456205557_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The one branch condition -/

/-- The body's one conditional: "this tile is the first of its batch entry", as the scalar chain reads it
    off the grid coordinates. -/
abbrev cond0 (i : grid0.Coords) : Prop :=
  (Scalar.cmpi .ne (Scalar.extui (Scalar.cmpi .eq (BitVec.ofNat 32 (i 1).val) 0#32)) 0#32) = 1#1

/-- Over the 32 points it holds exactly at the points divisible by four. -/
theorem hcond0 : ∀ t : Fin cfg0.N, cond0 (grid0.coords t) ↔ t.val % 4 = 0 :=
  (by decide +kernel : ∀ t : Fin grid0.N, cond0 (grid0.coords t) ↔ t.val % 4 = 0)

/-- The scratch operand: a whole buffer of the call's own. -/
abbrev scM0 : Memref sig .tc .vmem S1x1x768 .f32 := Memref.whole cc0_scratch0
/-- The view through which the scratch's and the output block's contents are stated. -/
abbrev VS0 : View sig .tc .vmem S1x1x768 .f32 := scM0.view

/-! ## The body in the two cases -/

set_option maxHeartbeats 4000000 in
/-- FIRST TILE of a batch entry. On whole memrefs — the three inputs at their contents, the output block and the
    scratch at anything — the body ends with the inputs as they were and the output block and the scratch
    each holding the pieces the run stored, which are the witnesses. -/
noncomputable def kernelRun0_A (c : Dev nD) (i : grid0.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (hc : cond0 i) (x0 : Vec F S1x1024x768 .bf16) (x1 : Vec F S768x768 .bf16) (x2 : Vec F S1x768 .f32) :
    Σ' (L3 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gq_kernel i arg2 harg2 arg3 harg3 arg4 harg4 arg5 harg5 arg6 harg6) K } := by
  refine ⟨?_, ?_, fun E K => ?run⟩
  case run =>
    simp only [cc0__gq_kernel_eq_skeleton]; unfold cc0__gq_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.Run0B.lean ====
/-
  The first call's body at a tile that is not the first of its batch entry.
-/
import proofs.«150044_j70102456205557_1_alg».proof.Proof.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LATER TILE of a batch entry. The scratch holds what the previous tile left (xs); the body ends with the
    inputs as they were and the output block and the scratch each holding the pieces the run stored. -/
noncomputable def kernelRun0_B (c : Dev nD) (i : grid0.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (hc : ¬cond0 i) (x0 : Vec F S1x1024x768 .bf16) (x1 : Vec F S768x768 .bf16) (x2 : Vec F S1x768 .f32) (xs : Vec F S1x1x768 .f32) :
    Σ' (L3 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gq_kernel i arg2 harg2 arg3 harg3 arg4 harg4 arg5 harg5 arg6 harg6) K } := by
  refine ⟨?_, ?_, fun E K => ?run⟩
  case run =>
    simp only [cc0__gq_kernel_eq_skeleton]; unfold cc0__gq_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.Region0.lean ====
/-
  The first call as a pipeline: what each window's block is at a point, what the body leaves in the output
  block and in the scratch after each of the 32 points (a recursion over the points: the first tile of a
  batch entry starts from zero, a later tile from what the tile before left), the invariant carrying the
  scratch from point to point, and the body obligation at every point.
-/
import proofs.«150044_j70102456205557_1_alg».proof.Proof.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

abbrev ms0_0 (t : Fin cfg0.N) : Memref sig .tc .vmem S1x1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x768 .f32 := win0_3.stage (cfg0.slots t 3)
abbrev hs0_3 (t : Fin cfg0.N) : (ms0_3 t).IsWhole := hstage0_3 ((cfg0.slots t 3).cast nbuf0_3)

/-! ## What each case leaves: the stored pieces read back -/

/-- The first-tile run at point t on the point's memrefs. -/
abbrev runA0 (c : Dev nD) (t : Fin cfg0.N) (hc : cond0 (grid0.coords t)) (x0 : Vec F S1x1024x768 .bf16) (x1 : Vec F S768x768 .bf16) (x2 : Vec F S1x768 .f32) :=
  kernelRun0_A c (grid0.coords t) (ms0_0 t) (hs0_0 t) (ms0_1 t) (hs0_1 t) (ms0_2 t) (hs0_2 t) (ms0_3 t) (hs0_3 t) scM0 (Memref.isWhole_whole _) hc x0 x1 x2
/-- The later-tile run at point t on the point's memrefs, the scratch found at xs. -/
abbrev runB0 (c : Dev nD) (t : Fin cfg0.N) (hc : ¬cond0 (grid0.coords t)) (x0 : Vec F S1x1024x768 .bf16) (x1 : Vec F S768x768 .bf16) (x2 : Vec F S1x768 .f32) (xs : Vec F S1x1x768 .f32) :=
  kernelRun0_B c (grid0.coords t) (ms0_0 t) (hs0_0 t) (ms0_1 t) (hs0_1 t) (ms0_2 t) (hs0_2 t) (ms0_3 t) (hs0_3 t) scM0 (Memref.isWhole_whole _) hc x0 x1 x2 xs

/-- Each case's pieces tile the 768-float buffer they are stored into, so they cover it. -/
theorem cover0_A_3 (c : Dev nD) (t : Fin cfg0.N) (hc : cond0 (grid0.coords t)) (x0 : Vec F S1x1024x768 .bf16) (x1 : Vec F S768x768 .bf16) (x2 : Vec F S1x768 .f32) (y : S1x1x768.Idx) :
    ∃ pc ∈ (runA0 c t hc x0 x1 x2).1, y ∈ pc.1.set :=
  View.cover_of_tiledL (runA0 c t hc x0 x1 x2).1 S1x1x768.size (by sl_kernel_rfl) y
theorem scover0_A (c : Dev nD) (t : Fin cfg0.N) (hc : cond0 (grid0.coords t)) (x0 : Vec F S1x1024x768 .bf16) (x1 : Vec F S768x768 .bf16) (x2 : Vec F S1x768 .f32) (y : S1x1x768.Idx) :
    ∃ pc ∈ (runA0 c t hc x0 x1 x2).2.1, y ∈ pc.1.set :=
  View.cover_of_tiledL (runA0 c t hc x0 x1 x2).2.1 S1x1x768.size (by sl_kernel_rfl) y
theorem cover0_B_3 (c : Dev nD) (t : Fin cfg0.N) (hc : ¬cond0 (grid0.coords t)) (x0 : Vec F S1x1024x768 .bf16) (x1 : Vec F S768x768 .bf16) (x2 : Vec F S1x768 .f32) (xs : Vec F S1x1x768 .f32) (y : S1x1x768.Idx) :
    ∃ pc ∈ (runB0 c t hc x0 x1 x2 xs).1, y ∈ pc.1.set :=
  View.cover_of_tiledL (runB0 c t hc x0 x1 x2 xs).1 S1x1x768.size (by sl_kernel_rfl) y
theorem scover0_B (c : Dev nD) (t : Fin cfg0.N) (hc : ¬cond0 (grid0.coords t)) (x0 : Vec F S1x1024x768 .bf16) (x1 : Vec F S768x768 .bf16) (x2 : Vec F S1x768 .f32) (xs : Vec F S1x1x768 .f32) (y : S1x1x768.Idx) :
    ∃ pc ∈ (runB0 c t hc x0 x1 x2 xs).2.1, y ∈ pc.1.set :=
  View.cover_of_tiledL (runB0 c t hc x0 x1 x2 xs).2.1 S1x1x768.size (by sl_kernel_rfl) y

/-- What the first-tile case leaves in the output block and in the scratch. -/
def leftA0 (c : Dev nD) (t : Fin cfg0.N) (hc : cond0 (grid0.coords t)) (x0 : Vec F S1x1024x768 .bf16) (x1 : Vec F S768x768 .bf16) (x2 : Vec F S1x768 .f32) :
    Vec F S1x1x768 .f32 × Vec F S1x1x768 .f32 :=
  (VS0.read (Elt F) (VS0.writes (Elt F) VS0.junk (runA0 c t hc x0 x1 x2).1), VS0.read (Elt F) (VS0.writes (Elt F) VS0.junk (runA0 c t hc x0 x1 x2).2.1))
/-- What the later-tile case leaves in the output block and in the scratch. -/
def leftB0 (c : Dev nD) (t : Fin cfg0.N) (hc : ¬cond0 (grid0.coords t)) (x0 : Vec F S1x1024x768 .bf16) (x1 : Vec F S768x768 .bf16) (x2 : Vec F S1x768 .f32) (xs : Vec F S1x1x768 .f32) :
    Vec F S1x1x768 .f32 × Vec F S1x1x768 .f32 :=
  (VS0.read (Elt F) (VS0.writes (Elt F) VS0.junk (runB0 c t hc x0 x1 x2 xs).1), VS0.read (Elt F) (VS0.writes (Elt F) VS0.junk (runB0 c t hc x0 x1 x2 xs).2.1))

/-! ## The accumulation over the points -/

/-- What the output block's staging buffer and the scratch hold after the body at position n: the case the
    point is in, run on the point's blocks, a later tile over what the point before left in the scratch. -/
def outsAt0 (c : Dev nD) : (n : ℕ) → n < cfg0.N → Vec F S1x1x768 .f32 × Vec F S1x1x768 .f32
  | 0, hn => leftA0 c ⟨0, hn⟩ ((hcond0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 4 = 0 then
      leftA0 c ⟨n + 1, hn⟩ ((hcond0 ⟨n + 1, hn⟩).mpr h0) (iblk0 V c 0 ⟨n + 1, hn⟩) (iblk0 V c 1 ⟨n + 1, hn⟩) (iblk0 V c 2 ⟨n + 1, hn⟩)
    else
      leftB0 c ⟨n + 1, hn⟩ (fun h => h0 ((hcond0 ⟨n + 1, hn⟩).mp h)) (iblk0 V c 0 ⟨n + 1, hn⟩) (iblk0 V c 1 ⟨n + 1, hn⟩) (iblk0 V c 2 ⟨n + 1, hn⟩)
        (outsAt0 c n (Nat.lt_of_succ_lt hn)).2

/-- At a first tile: that case's contents. -/
theorem outsAt0_A (c : Dev nD) (t : Fin cfg0.N) (h0 : t.val % 4 = 0) :
    outsAt0 V c t.val t.isLt = leftA0 c t ((hcond0 t).mpr h0) (iblk0 V c 0 t) (iblk0 V c 1 t) (iblk0 V c 2 t) := by
  obtain ⟨n, hn⟩ := t
  cases n with
  | zero => exact rfl
  | succ n => exact (dif_pos h0).trans rfl

/-- At a later tile: that case's contents over what the point before left. -/
theorem outsAt0_B (c : Dev nD) (t : Fin cfg0.N) (h0 : ¬t.val % 4 = 0) :
    outsAt0 V c t.val t.isLt = leftB0 c t (fun h => h0 ((hcond0 t).mp h)) (iblk0 V c 0 t) (iblk0 V c 1 t) (iblk0 V c 2 t)
      (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant: the scratch carried from point to point -/

/-- The call's scoped buffers split at its own scratch: the scratch whole at some contents, the rest unopened. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The other scoped buffers, unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-- The invariant before position n: before the first point every scoped buffer at anything; afterwards the
    scratch at what the point before left in it, the other scoped buffers at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

/-- The arrays as the call finds them; after the body at point t each input's buffer at its block and the
    output block's at the running sum; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4800000 in
/-- The body at any point: the inputs' memrefs hold their blocks; the point is a first tile or a later one; the
    invariant hands the body the scratch (at what the point before left, or at anything before a first tile) and
    takes it back at this point's contents; the output block is handed at anything and taken back at the same sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases h0 : t.val % 4 = 0
  · rw [outsAt0_A V c t h0]
    unfold leftA0; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%d3, H3⟩⟩
      iapply ((runA0 c t ((hcond0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c t _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c t _ _ _ _)
    · rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((runA0 c t ((hcond0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c t _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c t _ _ _ _)
  · rw [outsAt0_B V c t h0]
    unfold leftB0; (try dsimp only)
    have hz : t.val ≠ 0 := fun e => h0 (by rw [e])
    rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩⟩
    iapply ((runB0 c t (fun h => h0 ((hcond0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover0_B c t _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c t _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.Run1A.lean ====
/-
  The second call's body, run once per control case. It is the first call's body over the keys scaled by the
  first pooled vector (a fourth input, one block of 768 floats per batch entry): the same running sum in a
  scratch buffer, reset at the first tile of a batch entry, and copied into the output block at every tile.
-/
import proofs.«150044_j70102456205557_1_alg».proof.Proof.Gen.KernelIdeal.Launch
import proofs.«150044_j70102456205557_1_alg».proof.Proof.Gen.KernelIdeal.Skeleton
import proofs.«150044_j70102456205557_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The one branch condition -/

/-- "This tile is the first of its batch entry", as the scalar chain reads it off the grid coordinates. -/
abbrev cond1 (i : grid1.Coords) : Prop :=
  (Scalar.cmpi .ne (Scalar.extui (Scalar.cmpi .eq (BitVec.ofNat 32 (i 1).val) 0#32)) 0#32) = 1#1

/-- Over the 32 points it holds exactly at the points divisible by four. -/
theorem hcond1 : ∀ t : Fin cfg1.N, cond1 (grid1.coords t) ↔ t.val % 4 = 0 :=
  (by decide +kernel : ∀ t : Fin grid1.N, cond1 (grid1.coords t) ↔ t.val % 4 = 0)

/-- The scratch operand: a whole buffer of the call's own. -/
abbrev scM1 : Memref sig .tc .vmem S1x1x768 .f32 := Memref.whole cc1_scratch0
/-- The view through which the scratch's and the output block's contents are stated. -/
abbrev VS1 : View sig .tc .vmem S1x1x768 .f32 := scM1.view

/-! ## The body in the two cases -/

set_option maxHeartbeats 4000000 in
/-- FIRST TILE of a batch entry. On whole memrefs — the four inputs at their contents, the output block and the scratch at anything — the body ends with the inputs as they were and the output block and the scratch each holding the pieces the run stored, which are the witnesses. -/
noncomputable def kernelRun1_A (c : Dev nD) (i : grid1.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (arg7 : Memref sig .tc .vmem S1x1x768 .f32) (harg7 : arg7.IsWhole)
    (hc : cond1 i) (x0 : Vec F S1x1024x768 .bf16) (x1 : Vec F S768x768 .bf16) (x2 : Vec F S1x768 .f32) (x3 : Vec F S1x1x768 .f32) :
    Σ' (L4 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__gk_kernel i arg2 harg2 arg3 harg3 arg4 harg4 arg5 harg5 arg6 harg6 arg7 harg7) K } := by
  refine ⟨?_, ?_, fun E K => ?run⟩
  case run =>
    simp only [cc1__gk_kernel_eq_skeleton]; unfold cc1__gk_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Hand

end
-- ==== Proof.Run1B.lean ====
/-
  The second call's body at a tile that is not the first of its batch entry.
-/
import proofs.«150044_j70102456205557_1_alg».proof.Proof.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LATER TILE of a batch entry. The scratch holds what the previous tile left (xs); the body ends with the inputs as they were and the output block and the scratch each holding the pieces the run stored. -/
noncomputable def kernelRun1_B (c : Dev nD) (i : grid1.Coords) (arg2 : Memref sig .tc .vmem S1x1024x768 .bf16) (harg2 : arg2.IsWhole)
    (arg3 : Memref sig .tc .vmem S768x768 .bf16) (harg3 : arg3.IsWhole) (arg4 : Memref sig .tc .vmem S1x768 .f32) (harg4 : arg4.IsWhole)
    (arg5 : Memref sig .tc .vmem S1x1x768 .f32) (harg5 : arg5.IsWhole) (arg6 : Memref sig .tc .vmem S1x1x768 .f32) (harg6 : arg6.IsWhole)
    (arg7 : Memref sig .tc .vmem S1x1x768 .f32) (harg7 : arg7.IsWhole)
    (hc : ¬cond1 i) (x0 : Vec F S1x1024x768 .bf16) (x1 : Vec F S768x768 .bf16) (x2 : Vec F S1x768 .f32) (x3 : Vec F S1x1x768 .f32) (xs : Vec F S1x1x768 .f32) :
    Σ' (L4 : List (View.Piece (Elt F) S1x1x768 .f32)), { LS : List (View.Piece (Elt F) S1x1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__gk_kernel i arg2 harg2 arg3 harg3 arg4 harg4 arg5 harg5 arg6 harg6 arg7 harg7) K } := by
  refine ⟨?_, ?_, fun E K => ?run⟩
  case run =>
    simp only [cc1__gk_kernel_eq_skeleton]; unfold cc1__gk_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Hand

end
-- ==== Proof.Region1.lean ====
/-
  The second call as a pipeline: what each window's block is at a point, what the body leaves in the output
  block and in the scratch after each of the 32 points (a recursion over the points: the first tile of a
  batch entry starts from zero, a later tile from what the tile before left), the invariant carrying the
  scratch from point to point, and the body obligation at every point.
-/
import proofs.«150044_j70102456205557_1_alg».proof.Proof.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

abbrev ms1_0 (t : Fin cfg1.N) : Memref sig .tc .vmem S1x1024x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x768 .f32 := win1_4.stage (cfg1.slots t 4)
abbrev hs1_4 (t : Fin cfg1.N) : (ms1_4 t).IsWhole := hstage1_4 ((cfg1.slots t 4).cast nbuf1_4)

/-! ## What each case leaves: the stored pieces read back -/

/-- The first-tile run at point t on the point's memrefs. -/
abbrev runA1 (c : Dev nD) (t : Fin cfg1.N) (hc : cond1 (grid1.coords t)) (x0 : Vec F S1x1024x768 .bf16) (x1 : Vec F S768x768 .bf16) (x2 : Vec F S1x768 .f32) (x3 : Vec F S1x1x768 .f32) :=
  kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc x0 x1 x2 x3
/-- The later-tile run at point t on the point's memrefs, the scratch found at xs. -/
abbrev runB1 (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) :=
  kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc x0 x1 x2 x3 xs

/-- Each case's pieces tile the 768-float buffer they are stored into, so they cover it. -/
theorem cover1_A_4 (c : Dev nD) (t : Fin cfg1.N) (hc : cond1 (grid1.coords t)) (x0 : Vec F S1x1024x768 .bf16) (x1 : Vec F S768x768 .bf16) (x2 : Vec F S1x768 .f32) (x3 : Vec F S1x1x768 .f32) (y : S1x1x768.Idx) :
    ∃ pc ∈ (runA1 c t hc x0 x1 x2 x3).1, y ∈ pc.1.set :=
  View.cover_of_tiledL (runA1 c t hc x0 x1 x2 x3).1 S1x1x768.size (by sl_kernel_rfl) y
theorem scover1_A (c : Dev nD) (t : Fin cfg1.N) (hc : cond1 (grid1.coords t)) (x0 : Vec F S1x1024x768 .bf16) (x1 : Vec F S768x768 .bf16) (x2 : Vec F S1x768 .f32) (x3 : Vec F S1x1x768 .f32) (y : S1x1x768.Idx) :
    ∃ pc ∈ (runA1 c t hc x0 x1 x2 x3).2.1, y ∈ pc.1.set :=
  View.cover_of_tiledL (runA1 c t hc x0 x1 x2 x3).2.1 S1x1x768.size (by sl_kernel_rfl) y
theorem cover1_B_4 (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) (y : S1x1x768.Idx) :
    ∃ pc ∈ (runB1 c t hc x0 x1 x2 x3 xs).1, y ∈ pc.1.set :=
  View.cover_of_tiledL (runB1 c t hc x0 x1 x2 x3 xs).1 S1x1x768.size (by sl_kernel_rfl) y
theorem scover1_B (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) (y : S1x1x768.Idx) :
    ∃ pc ∈ (runB1 c t hc x0 x1 x2 x3 xs).2.1, y ∈ pc.1.set :=
  View.cover_of_tiledL (runB1 c t hc x0 x1 x2 x3 xs).2.1 S1x1x768.size (by sl_kernel_rfl) y

/-- What the first-tile case leaves in the output block and in the scratch. -/
def leftA1 (c : Dev nD) (t : Fin cfg1.N) (hc : cond1 (grid1.coords t)) (x0 : Vec F S1x1024x768 .bf16) (x1 : Vec F S768x768 .bf16) (x2 : Vec F S1x768 .f32) (x3 : Vec F S1x1x768 .f32) :
    Vec F S1x1x768 .f32 × Vec F S1x1x768 .f32 :=
  (VS1.read (Elt F) (VS1.writes (Elt F) VS1.junk (runA1 c t hc x0 x1 x2 x3).1), VS1.read (Elt F) (VS1.writes (Elt F) VS1.junk (runA1 c t hc x0 x1 x2 x3).2.1))
/-- What the later-tile case leaves in the output block and in the scratch. -/
def leftB1 (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) :
    Vec F S1x1x768 .f32 × Vec F S1x1x768 .f32 :=
  (VS1.read (Elt F) (VS1.writes (Elt F) VS1.junk (runB1 c t hc x0 x1 x2 x3 xs).1), VS1.read (Elt F) (VS1.writes (Elt F) VS1.junk (runB1 c t hc x0 x1 x2 x3 xs).2.1))

/-! ## The accumulation over the points -/

/-- What the output block's staging buffer and the scratch hold after the body at position n: the case the
    point is in, run on the point's blocks, a later tile over what the point before left in the scratch. -/
def outsAt1 (c : Dev nD) : (n : ℕ) → n < cfg1.N → Vec F S1x1x768 .f32 × Vec F S1x1x768 .f32
  | 0, hn => leftA1 c ⟨0, hn⟩ ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 4 = 0 then
      leftA1 c ⟨n + 1, hn⟩ ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      leftB1 c ⟨n + 1, hn⟩ (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 c n (Nat.lt_of_succ_lt hn)).2

/-- At a first tile: that case's contents. -/
theorem outsAt1_A (c : Dev nD) (t : Fin cfg1.N) (h0 : t.val % 4 = 0) :
    outsAt1 V c t.val t.isLt = leftA1 c t ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a later tile: that case's contents over what the point before left. -/
theorem outsAt1_B (c : Dev nD) (t : Fin cfg1.N) (h0 : ¬t.val % 4 = 0) :
    outsAt1 V c t.val t.isLt = leftB1 c t (fun h => h0 ((hcond1 t).mp h)) (iblk1 V c 0 t) (iblk1 V c 1 t) (iblk1 V c 2 t) (iblk1 V c 3 t)
      (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant: the scratch carried from point to point -/

/-- The call's scoped buffers split at its own scratch: the scratch whole at some contents, the rest unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The other scoped buffers, unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- The invariant before position n: before the first point every scoped buffer at anything; afterwards the
    scratch at what the point before left in it, the other scoped buffers at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The arrays as the call finds them; after the body at point t each input's buffer at its block and the
    output block's at the running sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' memrefs hold their blocks; the point is a first tile or a later one; the
    invariant hands the body the scratch (at what the point before left, or at anything before a first tile) and
    takes it back at this point's contents; the output block is handed at anything and taken back at the same sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val % 4 = 0
  · rw [outsAt1_A V c t h0]
    unfold leftA1; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩⟩
      iapply ((runA1 c t ((hcond1 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c t _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c t _ _ _ _ _)
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runA1 c t ((hcond1 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c t _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c t _ _ _ _ _)
  · rw [outsAt1_B V c t h0]
    unfold leftB1; (try dsimp only)
    have hz : t.val ≠ 0 := fun e => h0 (by rw [e])
    rw [PhiS1_castSucc V c t, PhiS1_pos V c _ _ hz]
    · iintro ⟨⟨⟨HS, Hrest⟩, Hg⟩, Ho, ⟨%d0, H0⟩, ⟨%d1, H1⟩, ⟨%d2, H2⟩, ⟨%d3, H3⟩, ⟨%d4, H4⟩⟩
      iapply ((runB1 c t (fun h => h0 ((hcond1 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c t _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c t _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.Region2.lean ====
import proofs.«150044_j70102456205557_1_alg».proof.Proof.Gen.KernelIdeal.Launch
import proofs.«150044_j70102456205557_1_alg».proof.Proof.Gen.KernelIdeal.Skeleton
import proofs.«150044_j70102456205557_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third call: the output projection, one block of rows per grid point

The call runs over a grid of 8 x 4 points `(b, n)`. At a point it is handed six staging buffers: a block of
1024 rows of the activations (window 0, block `(b, n, 0)` of a `[8,4096,768]` array), three whole `[768,768]`
weight matrices (windows 1, 2, 3), the row `b` of a `[8,1,768]` array of per-batch gates (window 4), and the
output block `(b, n, 0)` (window 5), which it overwrites whole and which is written back at every point.

This file states, at any float instance and at any contents `V` of the core's buffers when the call is entered,
what every staging buffer holds before and after the body at every point, and proves that the body does that.
-/

-- membership in a rectangle of these extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the block of activation rows, a new block at every point) holds its block at every point, for
    any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a whole weight matrix, brought in once, at the first point) holds its block — the whole
    matrix — at every point, brought in there or not: where it was not, the block index has not moved and the
    body left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a whole weight matrix, brought in once): as window 1. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (a whole weight matrix, brought in once): as window 1. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the gate row of batch `b`, brought in when `b` changes, i.e. at the points ≡ 0 mod 4) holds
    its block at every point: within a batch the block index does not move. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

/-- The whole `[1,1024,768]` buffer (the activation block, and the output block). -/
abbrev r2_0 : Rect S1x1024x768 := Rect.unit (s := S1x1024x768) ![0, 0, 0] S1x1024x768.size inb_S1x1024x768_S1x1024x768_0_0_0
/-- The whole `[768,768]` buffer (each weight matrix). -/
abbrev r2_1 : Rect S768x768 := Rect.unit (s := S768x768) ![0, 0] S768x768.size inb_S768x768_S768x768_0_0
/-- The whole `[1,1,768]` buffer (the gate row). -/
abbrev r2_2 : Rect S1x1x768 := Rect.unit (s := S1x1x768) ![0, 0, 0] S1x1x768.size inb_S1x1x768_S1x1x768_0_0_0

/-! ## What the body leaves in the output window's buffer -/

/-- Window 5's staging buffer after the body, from the input windows' blocks `x0 … x4`: its one store, of the
    payload computed from the five loaded values. The payload takes the activations, the first two weight
    matrices, the gate row and then the third weight matrix, in that order. -/
def out2_5 (x0 : Vec F S1x1024x768 .bf16) (x1 x2 x3 : Vec F S768x768 .bf16) (x4 : Vec F S1x1x768 .f32) : Vec F S1x1024x768 .f32 :=
  View.canon [⟨r2_0, k2_pay1 (View.ld x0 r2_0) (View.ld x1 r2_1) (View.ld x2 r2_1) (View.ld x4 r2_2) (View.ld x3 r2_1)⟩]

/-- The one store takes the whole buffer, so it covers it. -/
theorem cover2_5 (p0 : Vec F S1x1024x768 .f32) (y : S1x1024x768.Idx) :
    ∃ pc ∈ ([⟨r2_0, p0⟩] : List (View.Piece (Elt F) S1x1024x768 .f32)), y ∈ pc.1.set :=
  View.cover_of_tiled [⟨r2_0, p0⟩] S1x1024x768.size (by rfl) y

/-! ## The body's triple -/

set_option maxHeartbeats 1000000 in
/-- The body on whole staging memrefs, the five inputs' at read contents `x0 … x4` and the output's at anything,
    runs to the continuation holding the inputs' as they were and the output's at `out2_5` of the inputs'. The
    body also loads the output buffer once before storing into it; the loaded value is not used, which is why any
    prior contents will do. -/
theorem sound_kernel2 (c : Dev nD) (E : Set ℕ) (i : grid2.Coords)
    (arg0 : Memref sig .tc .vmem S1x1024x768 .bf16) (harg0 : arg0.IsWhole)
    (arg1 : Memref sig .tc .vmem S768x768 .bf16) (harg1 : arg1.IsWhole)
    (arg2 : Memref sig .tc .vmem S768x768 .bf16) (harg2 : arg2.IsWhole)
    (arg3 : Memref sig .tc .vmem S768x768 .bf16) (harg3 : arg3.IsWhole)
    (arg4 : Memref sig .tc .vmem S1x1x768 .f32) (harg4 : arg4.IsWhole)
    (arg5 : Memref sig .tc .vmem S1x1024x768 .f32) (harg5 : arg5.IsWhole)
    (x0 : Vec F S1x1024x768 .bf16) (x1 x2 x3 : Vec F S768x768 .bf16) (x4 : Vec F S1x1x768 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__out_kernel i arg0 harg0 arg1 harg1 arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The call's proof data -/

/-- The proof data of the call on core `c`: the arrays as the call finds them (`V`); after the body at point `t`
    each input's buffer at its block and the output's at `out2_5` of the input blocks; the invariant is the rest of
    the core's scoped memory and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, brought in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, what the core owes, and every window's current
    staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Assembly.lean ====
import proofs.«150044_j70102456205557_1_alg».proof.Proof.Region0
import proofs.«150044_j70102456205557_1_alg».proof.Proof.Region1
import proofs.«150044_j70102456205557_1_alg».proof.Proof.Region2

/-!
# The whole run: one stretch of host operations, then the three calls back to back

The host stretch rounds the arguments to bf16 and reshapes two of them; call 0 writes `main_v7`, call 1 writes
`main_v8`, call 2 writes `main_v9`. This file folds the contents of the core's unscoped buffers through the four
segments, gives each call's proof data at the contents it is entered with, states every call as a segment over
the thread state "every unscoped buffer at the boundary's contents, the generator register at some state, nothing
owed", and concludes: the program terminates without fault and every unscoped buffer ends at the last fold `W4`.
Read at an argument, `W4` walks back to the launch memory; read at a call's output array, it is what the call's
write-backs leave.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (call 0's entry). -/
abbrev W1 : Dev nD → Valuation τ sig (Elt F) := fun c => StableHlo.after hostOps0 (W0 m ρ c)
/-- The same read at the core's references (what call 0's proof data take). -/
abbrev V1 : (c : Dev nD) → (b : Ref sig .tc) → Buf (Elt F) ((c : Thread nD τ).loc b) := fun c b => W1 m ρ c b
/-- After call 0: its arrays at what the pipeline leaves (an input's as entered, the output's with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
/-- At call 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1: its arrays at what the pipeline leaves (an input's as entered, the output's with every
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
/-- At call 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After call 2: its arrays at what the pipeline leaves (an input's as entered, the output's with every
    write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
/-- At call 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched

No host operation and no call writes an argument: the fold at an argument's buffer walks back to the launch memory. -/

/-- Argument 0 ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 ends as launched. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 ends as launched. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## What each call leaves alone, and where its output lands -/

/-- Call 0 changes `main_v7` only: a buffer that is none of its windows' arrays is untouched, and an input window's
    array ends as it was entered. -/
theorem V2_keep (c : Dev nD) (b : Ref sig .tc) (hb : b ≠ main_v7) : V2 m ρ c b = V1 m ρ c b := by
  by_cases h : ∃ w, Pipeline.arrRef spec0 w = b
  · obtain ⟨w, rfl⟩ := h
    revert hb
    exact match w with
    | ⟨0, _⟩ => fun _ => (W2_arr m ρ c 0).trans (((dat0 (V1 m ρ) c).arrAt_in 0 rfl _).trans (A_eq0 (V1 m ρ) c 0))
    | ⟨1, _⟩ => fun _ => (W2_arr m ρ c 1).trans (((dat0 (V1 m ρ) c).arrAt_in 1 rfl _).trans (A_eq0 (V1 m ρ) c 1))
    | ⟨2, _⟩ => fun _ => (W2_arr m ρ c 2).trans (((dat0 (V1 m ρ) c).arrAt_in 2 rfl _).trans (A_eq0 (V1 m ρ) c 2))
    | ⟨3, _⟩ => fun hb => absurd rfl hb
  · exact W2_of_ne m ρ c b fun w e => h ⟨w, e⟩

/-- Call 1 changes `main_v8` only: a buffer that is none of its windows' arrays is untouched, and an input window's
    array ends as it was entered. -/
theorem V3_keep (c : Dev nD) (b : Ref sig .tc) (hb : b ≠ main_v8) : V3 m ρ c b = V2 m ρ c b := by
  by_cases h : ∃ w, Pipeline.arrRef spec1 w = b
  · obtain ⟨w, rfl⟩ := h
    revert hb
    exact match w with
    | ⟨0, _⟩ => fun _ => (W3_arr m ρ c 0).trans (((dat1 (V2 m ρ) c).arrAt_in 0 rfl _).trans (A_eq1 (V2 m ρ) c 0))
    | ⟨1, _⟩ => fun _ => (W3_arr m ρ c 1).trans (((dat1 (V2 m ρ) c).arrAt_in 1 rfl _).trans (A_eq1 (V2 m ρ) c 1))
    | ⟨2, _⟩ => fun _ => (W3_arr m ρ c 2).trans (((dat1 (V2 m ρ) c).arrAt_in 2 rfl _).trans (A_eq1 (V2 m ρ) c 2))
    | ⟨3, _⟩ => fun _ => (W3_arr m ρ c 3).trans (((dat1 (V2 m ρ) c).arrAt_in 3 rfl _).trans (A_eq1 (V2 m ρ) c 3))
    | ⟨4, _⟩ => fun hb => absurd rfl hb
  · exact W3_of_ne m ρ c b fun w e => h ⟨w, e⟩

/-- Call 2 changes `main_v9` only: a buffer that is none of its windows' arrays is untouched, and an input window's
    array ends as it was entered. -/
theorem V4_keep (c : Dev nD) (b : Ref sig .tc) (hb : b ≠ main_v9) : V4 m ρ c b = V3 m ρ c b := by
  by_cases h : ∃ w, Pipeline.arrRef spec2 w = b
  · obtain ⟨w, rfl⟩ := h
    revert hb
    exact match w with
    | ⟨0, _⟩ => fun _ => (W4_arr m ρ c 0).trans (((dat2 (V3 m ρ) c).arrAt_in 0 rfl _).trans (A_eq2 (V3 m ρ) c 0))
    | ⟨1, _⟩ => fun _ => (W4_arr m ρ c 1).trans (((dat2 (V3 m ρ) c).arrAt_in 1 rfl _).trans (A_eq2 (V3 m ρ) c 1))
    | ⟨2, _⟩ => fun _ => (W4_arr m ρ c 2).trans (((dat2 (V3 m ρ) c).arrAt_in 2 rfl _).trans (A_eq2 (V3 m ρ) c 2))
    | ⟨3, _⟩ => fun _ => (W4_arr m ρ c 3).trans (((dat2 (V3 m ρ) c).arrAt_in 3 rfl _).trans (A_eq2 (V3 m ρ) c 3))
    | ⟨4, _⟩ => fun _ => (W4_arr m ρ c 4).trans (((dat2 (V3 m ρ) c).arrAt_in 4 rfl _).trans (A_eq2 (V3 m ρ) c 4))
    | ⟨5, _⟩ => fun hb => absurd rfl hb
  · exact W4_of_ne m ρ c b fun w e => h ⟨w, e⟩

/-- Call 0's output array after the call: every write-back folded in. -/
theorem V2_main_v7 (c : Dev nD) : V2 m ρ c main_v7 = (dat0 (V1 m ρ) c).arrAt 3 cfg0.N := W2_arr m ρ c 3
/-- Call 1's output array after the call. -/
theorem V3_main_v8 (c : Dev nD) : V3 m ρ c main_v8 = (dat1 (V2 m ρ) c).arrAt 4 cfg1.N := W3_arr m ρ c 4
/-- Call 2's output array — the program's result — after the call. -/
theorem W4_main_v9 (c : Dev nD) : W4 m ρ c (Proc.devRef .tc main_v9) = (dat2 (V3 m ρ) c).arrAt 5 cfg2.N := W4_arr m ρ c 5

/-! ## The proof data family and the thread state -/

/-- The prefetched tables' admissible contents: no call has a table. -/
abbrev adm : (p : Fin 3) → (pcfgs (F := F) p).Adm := fun p => (cfgs p).toPCfg_adm
/-- Every call's proof data, each at its entry contents — a literal `match`, so that the pinned configuration at a
    numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends at
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The calls as segments

Calls 0 and 1 carry a scratch from point to point, so their invariant is not the plain one: it is entered from the
plain one (`hin0`, `hin1`) and gives it back after the last point (`hout0`, `hout1`). Call 2's is the plain one. -/

-- a library lemma stated over the pinned configuration unifies with the printed one only when unification may
-- unfold plain definitions in a metavariable's type
set_option backward.isDefEq.respectTransparency.types false in
/-- Call 0 over the thread state: entered from every unscoped buffer at `W1`, left at `W2`. Its arrays are
    split out of the unscoped buffers and put back at the contents the write-backs leave; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Call 1 over the thread state: entered from every unscoped buffer at `W2`, left at `W3`. Its arrays are
    split out of the unscoped buffers and put back at the contents the write-backs leave; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Call 2 over the thread state: entered from every unscoped buffer at `W3`, left at `W4`. Its arrays are
    split out of the unscoped buffers and put back at the contents the write-backs leave; the generator register goes
    into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 4 segments in order: the host stretch from the launch contents, then a segment per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any float instance: from any memory with zero counters, every weakly fair execution of the program
    on the cores terminates, nothing faulting, and in every final state every unscoped buffer of every core holds
    the last fold `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: the program terminates without fault and every argument array ends as launched — `run_all` read at the
    seven arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The function both programs compute, on the extended reals, written once over the argument arrays.

  With x : [8, 4096, 768], four 768 x 768 matrices Wq, Wk, Wv, Wr and two vectors alpha, beta of length 768:
    q = x Wq,  k = x Wk,  v = x Wv                       (row by row: sums over the 768 input features)
    gq[b, d] = sum over the 4096 rows n of  q[b, n, d] * w(q[b, n, :] * alpha * s)[d]
    p[b, n, d] = gq[b, d] * k[b, n, d]
    gk[b, d] = sum over n of  p[b, n, d] * w(p[b, n, :] * beta * s)[d]
    out[b, n, e] = (sum over d of (gk[b, d] * v[b, n, d]) * Wr[d, e]) + q[b, n, e]
  where s is one fixed f32 word (the nearest float to 768^(-1/2), the same word in both programs) and
  w(z) is the softmax of a row z as both programs spell it: exp (z_d - M) / sum_d' exp (z_d' - M) with
  M = max (-inf) (max over the row, folded from -inf).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The three shapes of the arguments. -/
abbrev A3 : Shape := ⟨3, ![8, 4096, 768]⟩
abbrev M2 : Shape := ⟨2, ![768, 768]⟩
abbrev V1 : Shape := ⟨1, ![768]⟩

/-- The scale both programs multiply the logits by: one f32 word, never evaluated. -/
def scale : EReal := Ideal.ofBits .f32 0x3D13CD3A#32
/-- The word of minus infinity both programs start their row maxima from. -/
def negInf : EReal := Ideal.ofBits .f32 0xFF800000#32

/-- A row's maximum as both programs take it. -/
def rowMax (z : Fin 768 → EReal) : EReal :=
  max negInf ((Finset.univ : Finset (Fin 768)).fold max negInf z)
/-- The shifted exponentials of a row. -/
def rowExp (z : Fin 768 → EReal) (d : Fin 768) : EReal := Ideal.exp (z d - rowMax z)
/-- The softmax weights of a row. -/
def rowW (z : Fin 768 → EReal) (d : Fin 768) : EReal := Ideal.div (rowExp z d) (∑ d' : Fin 768, rowExp z d')

/-- A projection x W at batch b, row n, output feature d. -/
def proj (X : A3.Idx → EReal) (W : M2.Idx → EReal) (b : Fin 8) (n : Fin 4096) (d : Fin 768) : EReal :=
  ∑ k : Fin 768, X (ix3 b n k) * W (ix2 k d)

/-- One row's contribution to the first pooled vector. -/
def gqTerm (X : A3.Idx → EReal) (Wq : M2.Idx → EReal) (al : V1.Idx → EReal) (b : Fin 8) (n : Fin 4096) (d : Fin 768) : EReal :=
  proj X Wq b n d * rowW (fun d' => proj X Wq b n d' * al (ix1 d') * scale) d
/-- The first pooled vector: the sum over all 4096 rows. -/
def gq (X : A3.Idx → EReal) (Wq : M2.Idx → EReal) (al : V1.Idx → EReal) (b : Fin 8) (d : Fin 768) : EReal :=
  ∑ n : Fin 4096, gqTerm X Wq al b n d

/-- The keys scaled by the first pooled vector. -/
def pk (X : A3.Idx → EReal) (Wq Wk : M2.Idx → EReal) (al : V1.Idx → EReal) (b : Fin 8) (n : Fin 4096) (d : Fin 768) : EReal :=
  gq X Wq al b d * proj X Wk b n d
/-- One row's contribution to the second pooled vector. -/
def gkTerm (X : A3.Idx → EReal) (Wq Wk : M2.Idx → EReal) (al be : V1.Idx → EReal) (b : Fin 8) (n : Fin 4096) (d : Fin 768) : EReal :=
  pk X Wq Wk al b n d * rowW (fun d' => pk X Wq Wk al b n d' * be (ix1 d') * scale) d
/-- The second pooled vector. -/
def gk (X : A3.Idx → EReal) (Wq Wk : M2.Idx → EReal) (al be : V1.Idx → EReal) (b : Fin 8) (d : Fin 768) : EReal :=
  ∑ n : Fin 4096, gkTerm X Wq Wk al be b n d

/-- The result at batch b, row n, output feature e. -/
def outAt (X : A3.Idx → EReal) (Wq Wk Wv Wr : M2.Idx → EReal) (al be : V1.Idx → EReal) (b : Fin 8) (n : Fin 4096) (e : Fin 768) : EReal :=
  (∑ d : Fin 768, (gk X Wq Wk al be b d * proj X Wv b n d) * Wr (ix2 d e)) + proj X Wq b n e

/-- The result array. -/
def out (X : A3.Idx → EReal) (Wq Wk Wv Wr : M2.Idx → EReal) (al be : V1.Idx → EReal) : A3.Idx → EReal :=
  fun i => outAt X Wq Wk Wv Wr al be (i 0) (i 1) (i 2)

end Cert.Spec

end
-- ==== Proof.Spec2.lean ====
/-
  The second pooled vector's summand with the first pooled vector as a parameter, and the array forms of the
  two pooled vectors and of the result as functions of the arrays the three calls read.
-/
import proofs.«150044_j70102456205557_1_alg».proof.Proof.Spec

noncomputable section

namespace Cert.Spec

open Idealize.ShloMosaic Idealize.ShloMosaic.ValueIdx

/-- The shapes of the pooled vectors [8, 1, 768] and of the row form [1, 768] of the two weight vectors. -/
abbrev P3 : Shape := ⟨3, ![8, 1, 768]⟩
abbrev R2 : Shape := ⟨2, ![1, 768]⟩

/-- A [1, 768] row read as a vector of length 768. -/
def rowOf (a : R2.Idx → EReal) : V1.Idx → EReal := fun j => a (ix2 0 (j 0))

/-- A [8, 1, 768] array read at batch b, feature d. -/
def pooledOf (g : P3.Idx → EReal) (b : Fin 8) (d : Fin 768) : EReal := g (ix3 b 0 d)

/-- One row's contribution to the second pooled vector, the first pooled vector a parameter g. -/
def gkTermOf (g : Fin 8 → Fin 768 → EReal) (X : A3.Idx → EReal) (Wk : M2.Idx → EReal) (be : V1.Idx → EReal)
    (b : Fin 8) (n : Fin 4096) (d : Fin 768) : EReal :=
  (g b d * proj X Wk b n d) * rowW (fun d' => (g b d' * proj X Wk b n d') * be (ix1 d') * scale) d

theorem gkTerm_eq (X : A3.Idx → EReal) (Wq Wk : M2.Idx → EReal) (al be : V1.Idx → EReal) (b : Fin 8) (n : Fin 4096) (d : Fin 768) :
    gkTerm X Wq Wk al be b n d = gkTermOf (gq X Wq al) X Wk be b n d := rfl

/-- The result at an index with the second pooled vector a parameter g. -/
def outOf (g : Fin 8 → Fin 768 → EReal) (X : A3.Idx → EReal) (Wq Wv Wr : M2.Idx → EReal) (b : Fin 8) (n : Fin 4096) (e : Fin 768) : EReal :=
  (∑ d : Fin 768, (g b d * proj X Wv b n d) * Wr (ix2 d e)) + proj X Wq b n e

theorem outAt_eq (X : A3.Idx → EReal) (Wq Wk Wv Wr : M2.Idx → EReal) (al be : V1.Idx → EReal) (b : Fin 8) (n : Fin 4096) (e : Fin 768) :
    outAt X Wq Wk Wv Wr al be b n e = outOf (gk X Wq Wk al be) X Wq Wv Wr b n e := rfl

/-- The first pooled vector as the [8, 1, 768] array the first call writes. -/
def gqArr (X : A3.Idx → EReal) (Wq : M2.Idx → EReal) (a : R2.Idx → EReal) : P3.Idx → EReal :=
  fun i => gq X Wq (rowOf a) (i 0) (i 2)

/-- The second pooled vector as the [8, 1, 768] array the second call writes, from the first call's array g. -/
def gkArr (g : P3.Idx → EReal) (X : A3.Idx → EReal) (Wk : M2.Idx → EReal) (a : R2.Idx → EReal) : P3.Idx → EReal :=
  fun i => ∑ n : Fin 4096, gkTermOf (pooledOf g) X Wk (rowOf a) (i 0) n (i 2)

/-- The result array the third call writes, from the second call's array g. -/
def outArr (g : P3.Idx → EReal) (X : A3.Idx → EReal) (Wq Wv Wr : M2.Idx → EReal) : A3.Idx → EReal :=
  fun i => outOf (pooledOf g) X Wq Wv Wr (i 0) (i 1) (i 2)

end Cert.Spec

end
-- ==== Proof.KernelValue.lean ====
import proofs.«150044_j70102456205557_1_alg».proof.Proof.Assembly
import proofs.«150044_j70102456205557_1_alg».proof.Proof.Spec2
import Idealize.ShloMosaic.Lib.Pipeline.Value
import Idealize.ShloMosaic.Lib.ValueLayout
import Idealize.ShloMosaic.Lib.StableHlo.Run

/-!
# The program's result, named by the specification

On the extended reals the host stretch is the identity on the five matrices (a rounding to bf16 changes nothing
there) and adds a unit axis to the two weight vectors. Call 0 leaves the first pooled vector in `main_v7`, call 1
the second pooled vector in `main_v8` (from call 0's array), call 2 the result in `main_v9` (from call 1's array).
Each call reads arrays no earlier call has changed, so the three array forms compose to the specification's result
as a function of the seven arguments.
-/

noncomputable section

namespace Cert.Spec

open Idealize.ShloMosaic Idealize.ShloMosaic.ValueIdx

/-- The first call's array read as a pooled vector is the first pooled vector. -/
theorem pooledOf_gqArr (X : A3.Idx → EReal) (Wq : M2.Idx → EReal) (a : R2.Idx → EReal) :
    pooledOf (gqArr X Wq a) = gq X Wq (rowOf a) := by
  funext b d; rfl

/-- The second call's array, computed from the first call's, read as a pooled vector is the second pooled vector. -/
theorem pooledOf_gkArr (X : A3.Idx → EReal) (Wq Wk : M2.Idx → EReal) (a5 a6 : R2.Idx → EReal) :
    pooledOf (gkArr (gqArr X Wq a5) X Wk a6) = gk X Wq Wk (rowOf a5) (rowOf a6) := by
  funext b d
  show ∑ n : Fin 4096, gkTermOf (pooledOf (gqArr X Wq a5)) X Wk (rowOf a6) b n d = gk X Wq Wk (rowOf a5) (rowOf a6) b d
  rw [pooledOf_gqArr]
  rfl

/-- The three array forms composed are the specification's result. -/
theorem outArr_compose (X : A3.Idx → EReal) (Wq Wk Wv Wr : M2.Idx → EReal) (a5 a6 : R2.Idx → EReal) :
    outArr (gkArr (gqArr X Wq a5) X Wk a6) X Wq Wv Wr = out X Wq Wk Wv Wr (rowOf a5) (rowOf a6) := by
  funext i
  show outOf (pooledOf (gkArr (gqArr X Wq a5) X Wk a6)) X Wq Wv Wr _ _ _ = _
  rw [pooledOf_gkArr]
  rfl

end Cert.Spec

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg)

/-! ## The host stretch on the extended reals -/

/-- The activations reach call 0 as launched: rounding to bf16 is the identity on the extended reals. -/
theorem V1_main_v0 (c : Dev nD) :
    @Eq (S8x4096x768.Idx → EReal) (V1 m ρ c main_v0) (m ((c : Thread nD τ).loc main_arg0)) := by
  have e : @Eq (S8x4096x768.Idx → EReal) (V1 m ρ c main_v0)
      (truncf (F := Ideal) (s := S8x4096x768) (φ := .f32) .bf16 (m ((c : Thread nD τ).loc main_arg0)) bitsLt_bf16_f32) := by
    dsimp only [V1, W1, hostOps0]; after_results; first | done | rfl
  exact e.trans (funext fun i => truncf_apply _ _ i)

/-- The first weight matrix likewise. -/
theorem V1_main_v1 (c : Dev nD) :
    @Eq (S768x768.Idx → EReal) (V1 m ρ c main_v1) (m ((c : Thread nD τ).loc main_arg1)) := by
  have e : @Eq (S768x768.Idx → EReal) (V1 m ρ c main_v1)
      (truncf (F := Ideal) (s := S768x768) (φ := .f32) .bf16 (m ((c : Thread nD τ).loc main_arg1)) bitsLt_bf16_f32) := by
    dsimp only [V1, W1, hostOps0]; after_results; first | done | rfl
  exact e.trans (funext fun i => truncf_apply _ _ i)

/-- The second weight matrix likewise. -/
theorem V1_main_v2 (c : Dev nD) :
    @Eq (S768x768.Idx → EReal) (V1 m ρ c main_v2) (m ((c : Thread nD τ).loc main_arg2)) := by
  have e : @Eq (S768x768.Idx → EReal) (V1 m ρ c main_v2)
      (truncf (F := Ideal) (s := S768x768) (φ := .f32) .bf16 (m ((c : Thread nD τ).loc main_arg2)) bitsLt_bf16_f32) := by
    dsimp only [V1, W1, hostOps0]; after_results; first | done | rfl
  exact e.trans (funext fun i => truncf_apply _ _ i)

/-- The third weight matrix likewise. -/
theorem V1_main_v3 (c : Dev nD) :
    @Eq (S768x768.Idx → EReal) (V1 m ρ c main_v3) (m ((c : Thread nD τ).loc main_arg3)) := by
  have e : @Eq (S768x768.Idx → EReal) (V1 m ρ c main_v3)
      (truncf (F := Ideal) (s := S768x768) (φ := .f32) .bf16 (m ((c : Thread nD τ).loc main_arg3)) bitsLt_bf16_f32) := by
    dsimp only [V1, W1, hostOps0]; after_results; first | done | rfl
  exact e.trans (funext fun i => truncf_apply _ _ i)

/-- The fourth weight matrix likewise. -/
theorem V1_main_v4 (c : Dev nD) :
    @Eq (S768x768.Idx → EReal) (V1 m ρ c main_v4) (m ((c : Thread nD τ).loc main_arg4)) := by
  have e : @Eq (S768x768.Idx → EReal) (V1 m ρ c main_v4)
      (truncf (F := Ideal) (s := S768x768) (φ := .f32) .bf16 (m ((c : Thread nD τ).loc main_arg4)) bitsLt_bf16_f32) := by
    dsimp only [V1, W1, hostOps0]; after_results; first | done | rfl
  exact e.trans (funext fun i => truncf_apply _ _ i)

/-- The first weight vector gains a unit axis: read back as a vector it is the argument. -/
theorem rowOf_V1_main_v5 (c : Dev nD) :
    @Eq (S768.Idx → EReal) (Cert.Spec.rowOf (V1 m ρ c main_v5)) (m ((c : Thread nD τ).loc main_arg5)) := by
  have e : @Eq (S1x768.Idx → EReal) (V1 m ρ c main_v5)
      (shapeCast S1x768 (m ((c : Thread nD τ).loc main_arg5) : S768.Idx → EReal) shapeCasts_S768_S1x768) := by
    dsimp only [V1, W1, hostOps0]; after_results; first | done | rfl
  funext j
  obtain ⟨a, rfl⟩ : ∃ a : Fin 768, j = ix1 a := ⟨_, eq_ix1 j⟩
  show (V1 m ρ c main_v5 : S1x768.Idx → EReal) (ix2 0 a) = _
  rw [e]
  exact shapeCast_a_1a_apply _ _ 0 a

/-- The second weight vector likewise. -/
theorem rowOf_V1_main_v6 (c : Dev nD) :
    @Eq (S768.Idx → EReal) (Cert.Spec.rowOf (V1 m ρ c main_v6)) (m ((c : Thread nD τ).loc main_arg6)) := by
  have e : @Eq (S1x768.Idx → EReal) (V1 m ρ c main_v6)
      (shapeCast S1x768 (m ((c : Thread nD τ).loc main_arg6) : S768.Idx → EReal) shapeCasts_S768_S1x768) := by
    dsimp only [V1, W1, hostOps0]; after_results; first | done | rfl
  funext j
  obtain ⟨a, rfl⟩ : ∃ a : Fin 768, j = ix1 a := ⟨_, eq_ix1 j⟩
  show (V1 m ρ c main_v6 : S1x768.Idx → EReal) (ix2 0 a) = _
  rw [e]
  exact shapeCast_a_1a_apply _ _ 0 a

/-! ## What each call reads is what was launched -/

/-- The activations as calls 1 and 2 find them: no call writes them. -/
theorem V2_main_v0 (c : Dev nD) : @Eq (S8x4096x768.Idx → EReal) (V2 m ρ c main_v0) (m ((c : Thread nD τ).loc main_arg0)) :=
  (V2_keep m ρ c main_v0 (by decide)).trans (V1_main_v0 m ρ c)
theorem V3_main_v0 (c : Dev nD) : @Eq (S8x4096x768.Idx → EReal) (V3 m ρ c main_v0) (m ((c : Thread nD τ).loc main_arg0)) :=
  (V3_keep m ρ c main_v0 (by decide)).trans (V2_main_v0 m ρ c)
/-- The first weight matrix as call 2 finds it. -/
theorem V3_main_v1 (c : Dev nD) : @Eq (S768x768.Idx → EReal) (V3 m ρ c main_v1) (m ((c : Thread nD τ).loc main_arg1)) :=
  (V3_keep m ρ c main_v1 (by decide)).trans ((V2_keep m ρ c main_v1 (by decide)).trans (V1_main_v1 m ρ c))
/-- The second weight matrix as call 1 finds it. -/
theorem V2_main_v2 (c : Dev nD) : @Eq (S768x768.Idx → EReal) (V2 m ρ c main_v2) (m ((c : Thread nD τ).loc main_arg2)) :=
  (V2_keep m ρ c main_v2 (by decide)).trans (V1_main_v2 m ρ c)
/-- The third and fourth weight matrices as call 2 finds them. -/
theorem V3_main_v3 (c : Dev nD) : @Eq (S768x768.Idx → EReal) (V3 m ρ c main_v3) (m ((c : Thread nD τ).loc main_arg3)) :=
  (V3_keep m ρ c main_v3 (by decide)).trans ((V2_keep m ρ c main_v3 (by decide)).trans (V1_main_v3 m ρ c))
theorem V3_main_v4 (c : Dev nD) : @Eq (S768x768.Idx → EReal) (V3 m ρ c main_v4) (m ((c : Thread nD τ).loc main_arg4)) :=
  (V3_keep m ρ c main_v4 (by decide)).trans ((V2_keep m ρ c main_v4 (by decide)).trans (V1_main_v4 m ρ c))
/-- The second weight vector's row form as call 1 finds it. -/
theorem V2_main_v6 (c : Dev nD) : @Eq (S1x768.Idx → EReal) (V2 m ρ c main_v6) (V1 m ρ c main_v6) :=
  V2_keep m ρ c main_v6 (by decide)

/-! ## The result -/

/-- The program's result array, as the last fold has it, is the specification's result of the seven arguments as
    launched — given that each call's final array is its array form of the arrays it reads (`h0`, `h1`, `h2`). -/
theorem value_v9 (c : Dev nD)
    (h0 : ∀ (V : (c : Dev nD) → (b : Ref sig .tc) → Buf (Elt Ideal) ((c : Thread nD τ).loc b)) (c : Dev nD),
      (dat0 (F := Ideal) V c).arrAt 3 cfg0.N = Cert.Spec.gqArr (V c main_v0) (V c main_v1) (V c main_v5))
    (h1 : ∀ (V : (c : Dev nD) → (b : Ref sig .tc) → Buf (Elt Ideal) ((c : Thread nD τ).loc b)) (c : Dev nD),
      (dat1 (F := Ideal) V c).arrAt 4 cfg1.N = Cert.Spec.gkArr (V c main_v7) (V c main_v0) (V c main_v2) (V c main_v6))
    (h2 : ∀ (V : (c : Dev nD) → (b : Ref sig .tc) → Buf (Elt Ideal) ((c : Thread nD τ).loc b)) (c : Dev nD),
      (dat2 (F := Ideal) V c).arrAt 5 cfg2.N = Cert.Spec.outArr (V c main_v8) (V c main_v0) (V c main_v1) (V c main_v3) (V c main_v4)) :
    @Eq (S8x4096x768.Idx → EReal) (W4 (F := Ideal) m ρ c (Proc.devRef .tc main_v9))
      (Cert.Spec.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))) := by
  refine ((W4_main_v9 m ρ c).trans (h2 (V3 m ρ) c)).trans ?_
  rw [V3_main_v8 m ρ c, h1 (V2 m ρ) c, V2_main_v7 m ρ c, h0 (V1 m ρ) c,
    V3_main_v0, V3_main_v1, V3_main_v3, V3_main_v4, V2_main_v0, V2_main_v2, V2_main_v6, V1_main_v0, V1_main_v1,
    Cert.Spec.outArr_compose, rowOf_V1_main_v5, rowOf_V1_main_v6]

end Cert.KernelIdeal.Hand

end
-- ==== Proof.Left0.lean ====
/-
  What the first call's two cases leave, in closed form: at a first tile both the output block and the scratch end
  at the tile's sum started from zero; at a later tile at the tile's sum added to what the scratch held.
-/
import proofs.«150044_j70102456205557_1_alg».proof.Proof.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 and of a rank-2 whole rectangle. -/
theorem off3 : (![0, 0, 0] : Fin 3 → Nat) = fun _ => 0 := by funext a; fin_cases a <;> rfl
theorem off2 : (![0, 0] : Fin 2 → Nat) = fun _ => 0 := by funext a; fin_cases a <;> rfl

/-- One whole store into the 768-float buffer leaves its payload. -/
theorem canon_one (w : S1x1x768.Idx → Elt F .f32) :
    View.canon [(⟨Rect.unit ![0, 0, 0] ![1, 1, 768] inb_S1x1x768_S1x1x768_0_0_0, w⟩ : View.Piece (Elt F) S1x1x768 .f32)] = w :=
  View.canon_unit_zero (S := S1x1x768) off3 inb_S1x1x768_S1x1x768_0_0_0 w

/-- A whole load of the 768-float buffer after stores the last of which is whole reads that last payload. -/
theorem readCov_last (v : View sig .tc .vmem S1x1x768 .f32) (w : S1x1x768.Idx → Elt F .f32) (L : List (View.Piece (Elt F) S1x1x768 .f32)) :
    v.readCov ((⟨Rect.unit ![0, 0, 0] S1x1x768.size inb_S1x1x768_S1x1x768_0_0_0, w⟩ : View.Piece (Elt F) S1x1x768 .f32) :: L)
      (Rect.unit ![0, 0, 0] S1x1x768.size inb_S1x1x768_S1x1x768_0_0_0).toLoadRect = w := by
  rw [View.readCov_eq_canon_ld _ _ _ (fun y => ⟨_, List.mem_cons_self .., View.mem_set_unit_zero off3 inb_S1x1x768_S1x1x768_0_0_0 y⟩),
    View.canon_cons_unit_zero off3, View.ld_unit_zero off3]

/-- A first tile leaves in the scratch the body's sum over the three input blocks started from the zero vector, -/
theorem leftA0_snd (c : Dev nD) (t : Fin cfg0.N) (hc : cond0 (grid0.coords t)) (x0 : Vec F S1x1024x768 .bf16) (x1 : Vec F S768x768 .bf16) (x2 : Vec F S1x768 .f32) :
    (leftA0 (F := F) c t hc x0 x1 x2).2 = k0_pay2 x0 x1 x2 k0_pay1 := by
  unfold leftA0; dsimp only
  rw [View.read_writes_eq_canon _ _ _ (scover0_A c t hc x0 x1 x2)]
  unfold runA0 kernelRun0_A
  dsimp only
  sl_unfold_words
  rw [View.canon_cons_unit_zero off3, readCov_last]
  simp only [View.readAt_eq_ld, Memref.IsWhole.read_unread, View.ld_unit_zero (S := S1x1024x768) off3, View.ld_unit_zero (S := S768x768) off2, View.ld_unit_zero (S := S1x768) off2, View.ld_unit_zero (S := S1x1x768) off3]

/-- and the same in the output block. -/
theorem leftA0_fst (c : Dev nD) (t : Fin cfg0.N) (hc : cond0 (grid0.coords t)) (x0 : Vec F S1x1024x768 .bf16) (x1 : Vec F S768x768 .bf16) (x2 : Vec F S1x768 .f32) :
    (leftA0 (F := F) c t hc x0 x1 x2).1 = k0_pay2 x0 x1 x2 k0_pay1 := by
  unfold leftA0; dsimp only
  rw [View.read_writes_eq_canon _ _ _ (cover0_A_3 c t hc x0 x1 x2)]
  unfold runA0 kernelRun0_A
  dsimp only
  sl_unfold_words
  refine (canon_one _).trans ?_
  rw [readCov_last, readCov_last]
  simp only [View.readAt_eq_ld, Memref.IsWhole.read_unread, View.ld_unit_zero (S := S1x1024x768) off3, View.ld_unit_zero (S := S768x768) off2, View.ld_unit_zero (S := S1x768) off2, View.ld_unit_zero (S := S1x1x768) off3]

/-- A later tile leaves in the scratch the body's sum over the three input blocks added to what the scratch held, -/
theorem leftB0_snd (c : Dev nD) (t : Fin cfg0.N) (hc : ¬cond0 (grid0.coords t)) (x0 : Vec F S1x1024x768 .bf16) (x1 : Vec F S768x768 .bf16) (x2 : Vec F S1x768 .f32) (xs : Vec F S1x1x768 .f32) :
    (leftB0 (F := F) c t hc x0 x1 x2 xs).2 = k0_pay2 x0 x1 x2 xs := by
  unfold leftB0; dsimp only
  rw [View.read_writes_eq_canon _ _ _ (scover0_B c t hc x0 x1 x2 xs)]
  unfold runB0 kernelRun0_B
  dsimp only
  sl_unfold_words
  rw [View.canon_unit_zero off3]
  simp only [View.readAt_eq_ld, Memref.IsWhole.read_unread, View.ld_unit_zero (S := S1x1024x768) off3, View.ld_unit_zero (S := S768x768) off2, View.ld_unit_zero (S := S1x768) off2, View.ld_unit_zero (S := S1x1x768) off3]
  exact congrArg (k0_pay2 x0 x1 x2) (Memref.IsWhole.read_unread (m := scM0) (Memref.isWhole_whole _) xs)

/-- and the same in the output block. -/
theorem leftB0_fst (c : Dev nD) (t : Fin cfg0.N) (hc : ¬cond0 (grid0.coords t)) (x0 : Vec F S1x1024x768 .bf16) (x1 : Vec F S768x768 .bf16) (x2 : Vec F S1x768 .f32) (xs : Vec F S1x1x768 .f32) :
    (leftB0 (F := F) c t hc x0 x1 x2 xs).1 = k0_pay2 x0 x1 x2 xs := by
  unfold leftB0; dsimp only
  rw [View.read_writes_eq_canon _ _ _ (cover0_B_3 c t hc x0 x1 x2 xs)]
  unfold runB0 kernelRun0_B
  dsimp only
  sl_unfold_words
  refine (canon_one _).trans ?_
  rw [readCov_last]
  simp only [View.readAt_eq_ld, Memref.IsWhole.read_unread, View.ld_unit_zero (S := S1x1024x768) off3, View.ld_unit_zero (S := S768x768) off2, View.ld_unit_zero (S := S1x768) off2, View.ld_unit_zero (S := S1x1x768) off3]
  exact congrArg (k0_pay2 x0 x1 x2) (Memref.IsWhole.read_unread (m := scM0) (Memref.isWhole_whole _) xs)

end Cert.KernelIdeal.Hand

end
-- ==== Proof.PayCommon.lean ====
/-
  The arithmetic the three kernel bodies share, read at an index on the extended reals: a tile of 1024
  rows times a 768 x 768 matrix is, entry by entry, a sum over the 768 contracted features; and the
  softmax chain of a [1024, 768] tile (row maximum folded from minus infinity, shifted exponentials,
  row sum, quotient) is, row by row, the weights of the specification.
-/
import proofs.«150044_j70102456205557_1_alg».proof.Proof.Gen.KernelIdeal.Skeleton
import proofs.«150044_j70102456205557_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- a tile of 1024 rows projected: row r, output feature d -/
def tproj (x : FVec Ideal S1x1024x768 .bf16) (w : FVec Ideal S768x768 .bf16) (r : Fin 1024) (d : Fin 768) : EReal :=
  ∑ k : Fin 768, x (ix3 0 r k) * w (ix2 k d)

/-! ## The matrix product of a tile -/

/-- The left operand's row coordinate under the dot's dimension numbers is the output's row. -/
theorem dot_lhs_row (j : S1024x768.Idx) (q : dot_S1024x768_S768x768_S1024x768_1_0_0_1_n_n.contr.Idx) :
    (dot_S1024x768_S768x768_S1024x768_1_0_0_1_n_n.lhsIdx j q 0).val = (j 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- The left operand's lane coordinate is the contracted feature. -/
theorem dot_lhs_lane (j : S1024x768.Idx) (q : dot_S1024x768_S768x768_S1024x768_1_0_0_1_n_n.contr.Idx) :
    (dot_S1024x768_S768x768_S1024x768_1_0_0_1_n_n.lhsIdx j q 1).val = (q ⟨0, by decide⟩).val :=
  dot_S1024x768_S768x768_S1024x768_1_0_0_1_n_n.lhsIdx_val_of_single rfl j q
/-- The right operand's row coordinate is the contracted feature. -/
theorem dot_rhs_row (j : S1024x768.Idx) (q : dot_S1024x768_S768x768_S1024x768_1_0_0_1_n_n.contr.Idx) :
    (dot_S1024x768_S768x768_S1024x768_1_0_0_1_n_n.rhsIdx j q 0).val = (q ⟨0, by decide⟩).val :=
  dot_S1024x768_S768x768_S1024x768_1_0_0_1_n_n.rhsIdx_val_of_single rfl j q
/-- The right operand's column coordinate is the output's column. -/
theorem dot_rhs_col (j : S1024x768.Idx) (q : dot_S1024x768_S768x768_S1024x768_1_0_0_1_n_n.contr.Idx) :
    (dot_S1024x768_S768x768_S1024x768_1_0_0_1_n_n.rhsIdx j q 1).val = (j 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The product of a [1024, 768] tile with a [768, 768] matrix accumulated into the zero tile, at (r, e):
    the sum over the 768 contracted features of the tile's row r times the matrix's column e. -/
theorem matmul_tile_apply {φ₁ φ₂ : FTy} (a : FVec Ideal S1024x768 φ₁) (b : FVec Ideal S768x768 φ₂) (r : Fin 1024) (e : Fin 768) :
    matmul dot_S1024x768_S768x768_S1024x768_1_0_0_1_n_n none a b (constant (F := Ideal) S1024x768 .f32 0x00000000#32) (ix2 r e)
      = ∑ k : Fin 768, a (ix2 r k) * b (ix2 k e) := by
  show FloatOps.matmul dot_S1024x768_S768x768_S1024x768_1_0_0_1_n_n none a b (constant (F := Ideal) S1024x768 .f32 0x00000000#32) (ix2 r e) = _
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 r e) ((contrEquiv1 dot_S1024x768_S768x768_S1024x768_1_0_0_1_n_n 768 rfl rfl).symm k) = ix2 r k :=
    funext fun c => Fin.ext (by
      match c with
      | ⟨0, _⟩ => exact dot_lhs_row _ _
      | ⟨1, _⟩ => exact (dot_lhs_lane _ _).trans hk)
  have er : dot_S1024x768_S768x768_S1024x768_1_0_0_1_n_n.rhsIdx (ix2 r e) ((contrEquiv1 dot_S1024x768_S768x768_S1024x768_1_0_0_1_n_n 768 rfl rfl).symm k) = ix2 k e :=
    funext fun c => Fin.ext (by
      match c with
      | ⟨0, _⟩ => exact (dot_rhs_row _ _).trans hk
      | ⟨1, _⟩ => exact dot_rhs_col _ _)
  rw [el, er]

/-- A [1, 1024, 768] block viewed as a tile and multiplied by a matrix, as the three bodies spell it. -/
def tmat (x : FVec Ideal S1x1024x768 .bf16) (w : FVec Ideal S768x768 .bf16) : FVec Ideal S1024x768 .f32 :=
  matmul dot_S1024x768_S768x768_S1024x768_1_0_0_1_n_n none
    (shapeCast S1024x768 x shapeCasts_S1x1024x768_S1024x768) (shapeCast S768x768 w shapeCasts_S768x768_S768x768)
    (constant (F := Ideal) S1024x768 .f32 0x00000000#32)

/-- … and at (r, d) it is the projection `tproj`. -/
theorem tmat_apply (x : FVec Ideal S1x1024x768 .bf16) (w : FVec Ideal S768x768 .bf16) (r : Fin 1024) (d : Fin 768) :
    tmat x w (ix2 r d) = tproj x w r d := by
  unfold tmat
  rw [matmul_tile_apply, shapeCast_self]
  unfold tproj
  refine Finset.sum_congr rfl fun k _ => ?_
  rw [shapeCast_1ab_ab_apply]

/-! ## A vector of 768 features spread over the tile's rows -/

/-- A [1, 768] row broadcast over the 1024 rows reads, at (r, d), the row at d. -/
theorem rowVec_apply (v : FVec Ideal S1x768 .f32) (r : Fin 1024) (d : Fin 768) :
    broadcastTo S1024x768 (shapeCast S1x768 v shapeCasts_S1x768_S1x768) broadcasts_S1x768_S1024x768 (ix2 r d)
      = v (ix2 0 d) := by
  rw [broadcastTo_1b_ab_apply, shapeCast_self]

/-- A [1, 1, 768] row viewed [1, 768] and broadcast over the 1024 rows reads, at (r, d), the row at d. -/
theorem rowVec3_apply (v : FVec Ideal S1x1x768 .f32) (r : Fin 1024) (d : Fin 768) :
    broadcastTo S1024x768 (shapeCast S1x768 v shapeCasts_S1x1x768_S1x768) broadcasts_S1x768_S1024x768 (ix2 r d)
      = v (ix3 0 0 d) := by
  rw [broadcastTo_1b_ab_apply, shapeCast_1ab_ab_apply]

/-! ## The keepdims column forms -/

/-- A [1024] vector cast to a [1024, 1] column reads, at (r, u), the vector at r. -/
theorem shapeCast_col_apply {α : Type} (x : S1024.Idx → α) (r : Fin 1024) (u : Fin 1) :
    shapeCast S1024x1 x shapeCasts_S1024_S1024x1 (ix2 r u) = x (ix1 r) :=
  shapeCast_apply x _ _ _ (by
    have hu : u.val = 0 := by omega
    rw [Shape.rowMajor_val_two, Shape.rowMajor_val_one]
    show r.val = r.val * 1 + u.val
    rw [hu, Nat.mul_one, Nat.add_zero])

/-- A [1024, 1] column broadcast over 768 lanes reads, at (r, d), the column at r. -/
theorem broadcastTo_col_apply {α : Type} (x : S1024x1.Idx → α) (r : Fin 1024) (d : Fin 768) :
    broadcastTo S1024x768 x broadcasts_S1024x1_S1024x768 (ix2 r d) = x (ix2 r (0 : Fin 1)) := by
  refine broadcastTo_apply x _ (ix2 r d) (ix2 r (0 : Fin 1)) fun ax => ?_
  match ax with
  | ⟨0, _⟩ => rfl
  | ⟨1, _⟩ => rfl

/-! ## The lane and sublane reductions of a tile -/

/-- The sum of a tile's row r over its 768 lanes, from the zero word. -/
theorem rowSum_apply (z : FVec Ideal S1024x768 .f32) (r : Fin 1024) :
    multiReduction .add [1] S1024 z 0x00000000#32 reduces_S1024x768_S1024 (.inl rfl) rfl (ix1 r)
      = ∑ d : Fin 768, z (ix2 r d) := by
  refine (Ideal.multiReduction_add_single z 0x00000000#32 reduces_S1024x768_S1024 (.inl rfl) rfl (ix1 r)).trans ?_
  refine Finset.sum_congr rfl fun d _ => congrArg z (funext fun c => Fin.ext ?_)
  match c with
  | ⟨0, _⟩ => rfl
  | ⟨1, _⟩ => rfl

/-- The sum of a tile's column d over its 1024 rows, from the zero word. -/
theorem colSum_apply (z : FVec Ideal S1024x768 .f32) (d : Fin 768) :
    multiReduction .add [0] S768 z 0x00000000#32 reduces_S1024x768_S768 (.inl rfl) rfl (ix1 d)
      = ∑ r : Fin 1024, z (ix2 r d) := by
  refine (Ideal.multiReduction_add_single z 0x00000000#32 reduces_S1024x768_S768 (.inl rfl) rfl (ix1 d)).trans ?_
  refine Finset.sum_congr rfl fun r _ => congrArg z (funext fun c => Fin.ext ?_)
  match c with
  | ⟨0, _⟩ => rfl
  | ⟨1, _⟩ => rfl

/-- The maximum of a tile's row r over its lanes, folded from the word of minus infinity. -/
theorem rowMaxFold_apply (z : FVec Ideal S1024x768 .f32) (r : Fin 1024) :
    multiReduction .maximumf [1] S1024 z 0xFF800000#32 reduces_S1024x768_S1024 (.inl rfl) rfl (ix1 r)
      = (Finset.univ : Finset (Fin 768)).fold max Cert.Spec.negInf (fun d => z (ix2 r d)) := by
  refine (Ideal.multiReduction_maximumf_single z 0xFF800000#32 reduces_S1024x768_S1024 (.inl rfl) rfl (ix1 r)).trans ?_
  refine congrArg (fun f => (Finset.univ : Finset (Fin 768)).fold max Cert.Spec.negInf f) (funext fun d => congrArg z (funext fun c => Fin.ext ?_))
  match c with
  | ⟨0, _⟩ => rfl
  | ⟨1, _⟩ => rfl

/-- The column sums of a tile viewed [1, 1, 768]: at (0, 0, d), the sum of column d over the 1024 rows. -/
theorem pooled_apply (y : FVec Ideal S1024x768 .f32) (d : Fin 768) :
    shapeCast S1x1x768
        (shapeCast S1x768 (multiReduction .add [0] S768 y 0x00000000#32 reduces_S1024x768_S768 (.inl rfl) rfl) shapeCasts_S768_S1x768)
        shapeCasts_S1x768_S1x1x768 (ix3 0 0 d)
      = ∑ r : Fin 1024, y (ix2 r d) := by
  rw [shapeCast_ab_1ab_apply, shapeCast_a_1a_apply, colSum_apply]

/-! ## The softmax chain of a tile -/

/-- Each row's maximum, as the bodies take it (the maximum with minus infinity of the fold), spread over the row's lanes. -/
def tileMax (z : FVec Ideal S1024x768 .f32) : FVec Ideal S1024x768 .f32 :=
  broadcastTo S1024x768
    (shapeCast S1024x1
      (maximumf (broadcast S1024 (Scalar.ofBits .f32 0xFF800000#32))
        (multiReduction .maximumf [1] S1024 z 0xFF800000#32 reduces_S1024x768_S1024 (.inl rfl) rfl))
      shapeCasts_S1024_S1024x1)
    broadcasts_S1024x1_S1024x768

/-- The exponentials of the tile shifted by its row maxima. -/
def tileExp (z : FVec Ideal S1024x768 .f32) : FVec Ideal S1024x768 .f32 := exp (subf z (tileMax z))

/-- The softmax weights of the tile: the shifted exponentials over their row sums. -/
def tileW (z : FVec Ideal S1024x768 .f32) : FVec Ideal S1024x768 .f32 :=
  divf (tileExp z)
    (broadcastTo S1024x768
      (shapeCast S1024x1
        (multiReduction .add [1] S1024 (tileExp z) 0x00000000#32 reduces_S1024x768_S1024 (.inl rfl) rfl)
        shapeCasts_S1024_S1024x1)
      broadcasts_S1024x1_S1024x768)

theorem tileMax_apply (z : FVec Ideal S1024x768 .f32) (r : Fin 1024) (d : Fin 768) :
    tileMax z (ix2 r d) = Cert.Spec.rowMax (fun d' => z (ix2 r d')) := by
  unfold tileMax
  rw [broadcastTo_col_apply, shapeCast_col_apply, maximumf_apply, broadcast_apply, rowMaxFold_apply]
  rfl

theorem tileExp_apply (z : FVec Ideal S1024x768 .f32) (r : Fin 1024) (d : Fin 768) :
    tileExp z (ix2 r d) = Cert.Spec.rowExp (fun d' => z (ix2 r d')) d := by
  show Ideal.exp (z (ix2 r d) - tileMax z (ix2 r d)) = _
  rw [tileMax_apply]
  rfl

/-- THE ROW LEMMA: the weights of the tile at (r, d) are the specification's weights of row r at d. -/
theorem tileW_apply (z : FVec Ideal S1024x768 .f32) (r : Fin 1024) (d : Fin 768) :
    tileW z (ix2 r d) = Cert.Spec.rowW (fun d' => z (ix2 r d')) d := by
  unfold tileW
  rw [divf_apply, broadcastTo_col_apply, shapeCast_col_apply, rowSum_apply, tileExp_apply]
  unfold Cert.Spec.rowW
  refine congrArg (Ideal.div _) (Finset.sum_congr rfl fun d' _ => tileExp_apply z r d')

end Cert.KernelIdeal.PayValue

end
-- ==== Proof.Pay0.lean ====
/-
  The first call's two stored values read at an index: the zero the accumulator starts from, and one
  grid step's update — the accumulator plus, over the tile's 1024 rows, the projected row times its
  softmax weights.
-/
import proofs.«150044_j70102456205557_1_alg».proof.Proof.Gen.KernelIdeal.Skeleton
import proofs.«150044_j70102456205557_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«150044_j70102456205557_1_alg».proof.Proof.PayCommon

noncomputable section

namespace Cert.KernelIdeal.PayValue

open Cert.KernelIdeal Cert.KernelIdeal.Gen Idealize.ShloMosaic Idealize.ShloMosaic.ValueIdx

/-- The accumulator's initial value is zero everywhere. -/
theorem pay0_zero (d : Fin 768) : k0_pay1 (F := Ideal) (ix3 0 0 d) = 0 := by
  unfold k0_pay1
  rw [shapeCast_self, broadcast_apply]
  exact Ideal.ofBits_zero_f32

/-- The update as one term over the shared pieces: the projected tile q, its logits q * alpha * s, the weights of the
    logits, and the column sums of q times the weights added to the accumulator. -/
theorem k0_pay2_eq (v3 : Vec Ideal S1x1024x768 .bf16) (v5 : Vec Ideal S768x768 .bf16) (v8 : Vec Ideal S1x768 .f32) (v28 : Vec Ideal S1x1x768 .f32) :
    k0_pay2 (F := Ideal) v3 v5 v8 v28
      = shapeCast S1x1x768
          (addf v28
            (shapeCast S1x1x768
              (shapeCast S1x768
                (multiReduction .add [0] S768
                  (mulf (tmat v3 v5)
                    (tileW (mulf (mulf (tmat v3 v5) (broadcastTo S1024x768 (shapeCast S1x768 v8 shapeCasts_S1x768_S1x768) broadcasts_S1x768_S1024x768))
                      (broadcast S1024x768 (Scalar.ofBits .f32 0x3D13CD3A#32)))))
                  0x00000000#32 reduces_S1024x768_S768 (.inl rfl) rfl)
                shapeCasts_S768_S1x768)
              shapeCasts_S1x768_S1x1x768))
          shapeCasts_S1x1x768_S1x1x768 := rfl

theorem pay0_apply (v3 : Vec Ideal S1x1024x768 .bf16) (v5 : Vec Ideal S768x768 .bf16) (v8 : Vec Ideal S1x768 .f32) (v28 : Vec Ideal S1x1x768 .f32) (d : Fin 768) :
    k0_pay2 (F := Ideal) v3 v5 v8 v28 (ix3 0 0 d)
      = v28 (ix3 0 0 d) + ∑ r : Fin 1024, tproj v3 v5 r d * Cert.Spec.rowW (fun d' => tproj v3 v5 r d' * v8 (ix2 0 d') * Cert.Spec.scale) d := by
  rw [k0_pay2_eq, shapeCast_self, addf_apply, pooled_apply]
  refine congrArg (fun t => v28 (ix3 0 0 d) + t) (Finset.sum_congr rfl fun r _ => ?_)
  rw [mulf_apply, tileW_apply, tmat_apply]
  refine congrArg (fun f => tproj v3 v5 r d * Cert.Spec.rowW f d) (funext fun d' => ?_)
  rw [mulf_apply, mulf_apply, tmat_apply, rowVec_apply, broadcast_apply]
  rfl

end Cert.KernelIdeal.PayValue

end
-- ==== Proof.Final0.lean ====
/-
  The first call's result array. The grid has 8 x 4 points; point t = 4 b + j reads tile j (1024 rows) of batch
  entry b of x, the whole of Wq and the whole alpha row, and the output block of batch entry b is written back
  at the last tile, j = 3. After point 4 b + j the block holds the sum of the contributions of tiles 0..j of
  batch entry b: the first tile starts from the zero vector, a later tile adds to what the tile before left. A
  tile's contribution at feature d is the sum over its 1024 rows of the projected row times its softmax weight,
  and row r of tile j is row 1024 j + r of the array; so the four contributions together are the sum over all
  4096 rows, the first pooled vector of the specification. Only commutativity and associativity of + are used.
-/
import proofs.«150044_j70102456205557_1_alg».proof.Proof.Left0
import proofs.«150044_j70102456205557_1_alg».proof.Proof.Pay0
import proofs.«150044_j70102456205557_1_alg».proof.Proof.Spec2
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.KernelIdeal.PayValue (tproj pay0_zero pay0_apply)

/-- The grid has 32 points. -/
theorem N0_eq : cfg0.N = 32 := by decide

/-- The four index maps, decided once over the 32 points: at point t = 4 b + j the activation block sits at
    (b, j, 0), the output block at (b, 0, 0); the weight matrix and the alpha row are one whole block each. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

variable (V : (c : Dev nD) → (b : Ref sig .tc) → Buf (Elt Ideal) ((c : Thread nD τ).loc b))

/-- The batch entry of point t, and the row of the array that row r of point t's tile is. -/
abbrev bOf0 (t : Fin cfg0.N) : Fin 8 := ⟨t.val / 4, by have h1 := t.isLt; have h2 := N0_eq; omega⟩
abbrev nOf0 (t : Fin cfg0.N) (r : Fin 1024) : Fin 4096 := ⟨1024 * (t.val % 4) + r.val, by have := r.isLt; omega⟩

/-! ## Each block read is the array at the embedded index -/

/-- The activation block at point t, row r, is the array's batch t / 4, row 1024 (t % 4) + r. -/
theorem iblk0_0_apply (c : Dev nD) (t : Fin cfg0.N) (r : Fin 1024) (k : Fin 768) :
    (iblk0 V c 0 t : Vec Ideal S1x1024x768 .bf16) (ix3 0 r k)
      = (V c main_v0 : S8x4096x768.Idx → EReal) (ix3 (bOf0 t) (nOf0 t r) k) := by
  obtain ⟨e0, e1, e2, -⟩ := idx_facts0 t
  unfold iblk0
  rw [View.read_apply]
  show V c main_v0 _ = V c main_v0 _
  refine congrArg (V c main_v0) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 768 + 1 * k.val = k.val; omega

/-- The weight block at any point is the whole matrix. -/
theorem iblk0_1_apply (c : Dev nD) (t : Fin cfg0.N) (k d : Fin 768) :
    (iblk0 V c 1 t : Vec Ideal S768x768 .bf16) (ix2 k d) = (V c main_v1 : S768x768.Idx → EReal) (ix2 k d) := by
  obtain ⟨-, -, -, e0, e1, -⟩ := idx_facts0 t
  unfold iblk0
  rw [View.read_apply]
  show V c main_v1 _ = V c main_v1 _
  refine congrArg (V c main_v1) (funext fun a => Fin.ext ?_)
  match a with
  | ⟨0, _⟩ => show win0_1.index t (0 : Fin 2) * 768 + 1 * k.val = k.val; omega
  | ⟨1, _⟩ => show win0_1.index t (1 : Fin 2) * 768 + 1 * d.val = d.val; omega

/-- The alpha block at any point is the whole row. -/
theorem iblk0_2_apply (c : Dev nD) (t : Fin cfg0.N) (d : Fin 768) :
    (iblk0 V c 2 t : Vec Ideal S1x768 .f32) (ix2 0 d) = (V c main_v5 : S1x768.Idx → EReal) (ix2 0 d) := by
  obtain ⟨-, -, -, -, -, e0, e1, -⟩ := idx_facts0 t
  unfold iblk0
  rw [View.read_apply]
  show V c main_v5 _ = V c main_v5 _
  refine congrArg (V c main_v5) (funext fun a => Fin.ext ?_)
  match a with
  | ⟨0, _⟩ => show win0_2.index t (0 : Fin 2) * 1 + 1 * 0 = 0; omega
  | ⟨1, _⟩ => show win0_2.index t (1 : Fin 2) * 768 + 1 * d.val = d.val; omega

/-! ## One point's update at an index -/

/-- An index of a [1, 1, 768] block is (0, 0, d). -/
theorem eq_ix3_00 (i : S1x1x768.Idx) : i = ix3 (0 : Fin 1) (0 : Fin 1) (i 2) := by
  funext a; apply Fin.ext
  match a with
  | ⟨0, _⟩ => have h : (i 0).val < 1 := (i 0).isLt; show (i 0).val = 0; omega
  | ⟨1, _⟩ => have h : (i 1).val < 1 := (i 1).isLt; show (i 1).val = 0; omega
  | ⟨2, _⟩ => rfl

/-- A tile's projection is the array's projection at the tile's rows. -/
theorem tproj0_eq (c : Dev nD) (t : Fin cfg0.N) (r : Fin 1024) (d : Fin 768) :
    tproj (iblk0 V c 0 t) (iblk0 V c 1 t) r d = Cert.Spec.proj (V c main_v0) (V c main_v1) (bOf0 t) (nOf0 t r) d := by
  unfold tproj Cert.Spec.proj
  exact Finset.sum_congr rfl fun k _ => by rw [iblk0_0_apply, iblk0_1_apply]

/-- The contribution of point n's tile to the pooled vector, at an index of the block (zero past the grid). -/
def addend0 (c : Dev nD) (n : ℕ) (i : S1x1x768.Idx) : EReal :=
  if h : n < cfg0.N then
    ∑ r : Fin 1024, Cert.Spec.gqTerm (V c main_v0) (V c main_v1) (Cert.Spec.rowOf (V c main_v5)) (bOf0 ⟨n, h⟩) (nOf0 ⟨n, h⟩ r) (i 2)
  else 0

/-- The body's update at point t adds the tile's contribution to whatever the accumulator held. -/
theorem pay_step0 (c : Dev nD) (t : Fin cfg0.N) (xs : Vec Ideal S1x1x768 .f32) (i : S1x1x768.Idx) :
    k0_pay2 (F := Ideal) (iblk0 V c 0 t) (iblk0 V c 1 t) (iblk0 V c 2 t) xs i = xs i + addend0 V c t.val i := by
  obtain ⟨d, rfl⟩ : ∃ d : Fin 768, i = ix3 (0 : Fin 1) (0 : Fin 1) d := ⟨i 2, eq_ix3_00 i⟩
  refine (pay0_apply (iblk0 V c 0 t) (iblk0 V c 1 t) (iblk0 V c 2 t) xs d).trans ?_
  refine congrArg (fun s => xs (ix3 (0 : Fin 1) (0 : Fin 1) d) + s) ?_
  unfold addend0
  rw [dif_pos t.isLt]
  refine Finset.sum_congr rfl fun r _ => ?_
  simp only [tproj0_eq, iblk0_2_apply]
  rfl

/-! ## The accumulation over a batch entry's four tiles -/

/-- The reset value and the step of the accumulator at point n. -/
abbrev accA0 (c : Dev nD) (n : ℕ) (h : n < cfg0.N) : Vec Ideal S1x1x768 .f32 :=
  k0_pay2 (F := Ideal) (iblk0 V c 0 ⟨n, h⟩) (iblk0 V c 1 ⟨n, h⟩) (iblk0 V c 2 ⟨n, h⟩) (k0_pay1 (F := Ideal))
abbrev accG0 (c : Dev nD) (n : ℕ) (h : n < cfg0.N) (xs : Vec Ideal S1x1x768 .f32) : Vec Ideal S1x1x768 .f32 :=
  k0_pay2 (F := Ideal) (iblk0 V c 0 ⟨n, h⟩) (iblk0 V c 1 ⟨n, h⟩) (iblk0 V c 2 ⟨n, h⟩) xs

/-- At a first tile the scratch is reset; -/
theorem scratch0_reset (c : Dev nD) (n : ℕ) (h : n < cfg0.N) (h0 : n % 4 = 0) :
    (outsAt0 V c n h).2 = accA0 V c n h := by
  rw [outsAt0_A V c ⟨n, h⟩ h0]
  exact leftA0_snd (F := Ideal) c ⟨n, h⟩ _ _ _ _

/-- at a later tile it is stepped from what the tile before left. -/
theorem scratch0_step (c : Dev nD) (n : ℕ) (h : n + 1 < cfg0.N) (h0 : ¬(n + 1) % 4 = 0) :
    (outsAt0 V c (n + 1) h).2 = accG0 V c (n + 1) h (outsAt0 V c n (Nat.lt_of_succ_lt h)).2 := by
  rw [outsAt0_B V c ⟨n + 1, h⟩ h0]
  exact leftB0_snd (F := Ideal) c ⟨n + 1, h⟩ _ _ _ _ _

/-- The output block holds what the scratch holds, after every point. -/
theorem block0_eq_scratch (c : Dev nD) (t : Fin cfg0.N) : (outsAt0 V c t.val t.isLt).1 = (outsAt0 V c t.val t.isLt).2 := by
  by_cases h0 : t.val % 4 = 0
  · rw [outsAt0_A V c t h0, leftA0_fst, leftA0_snd]
  · rw [outsAt0_B V c t h0, leftB0_fst, leftB0_snd]

/-- After the last tile of batch entry q the scratch holds, at an index, the sum of the four tiles' contributions. -/
theorem scratch0_last (c : Dev nD) (t : Fin cfg0.N) (h3 : t.val % 4 = 3) (i : S1x1x768.Idx) :
    (outsAt0 V c t.val t.isLt).2 i = ∑ s ∈ Finset.range 4, addend0 V c (4 * (t.val / 4) + s) i := by
  have hN := N0_eq
  have h' : 4 * (t.val / 4) + t.val % 4 < cfg0.N := by have := t.isLt; omega
  have e := Pipeline.eq_accAt_of_mod (fun n h => (outsAt0 V c n h).2) 4 (accA0 V c) (accG0 V c)
    (scratch0_reset V c) (scratch0_step V c) (by decide) t.val t.isLt h'
  have e' : (outsAt0 V c t.val t.isLt).2 = Pipeline.accAt (accA0 V c) (accG0 V c) (4 * (t.val / 4)) (t.val % 4) h' := e
  rw [e']
  have hj : t.val % 4 ≤ 3 := by omega
  have s := Pipeline.accAt_add_apply (accA0 V c) (accG0 V c) (fun _ => (0 : EReal)) (addend0 V c) (4 * (t.val / 4)) 3
    (fun h i => by
      obtain ⟨d, rfl⟩ : ∃ d : Fin 768, i = ix3 (0 : Fin 1) (0 : Fin 1) d := ⟨i 2, eq_ix3_00 i⟩
      refine (pay_step0 V c ⟨_, h⟩ (k0_pay1 (F := Ideal)) _).trans ?_
      rw [pay0_zero])
    (fun n h acc i _ _ => pay_step0 V c ⟨n, h⟩ acc i)
    (t.val % 4) hj h' i
  rw [s, zero_add, h3]

/-! ## Four tiles of 1024 rows are the 4096 rows -/

/-- A sum over the 4096 rows, split into four tiles of 1024 rows. -/
theorem sum_rows_tiles (f : Fin 4096 → EReal) :
    ∑ n : Fin 4096, f n
      = ∑ s : Fin 4, ∑ r : Fin 1024, f ⟨1024 * s.val + r.val, by have := s.isLt; have := r.isLt; omega⟩ := by
  rw [← Fintype.sum_prod_type' (f := fun (s : Fin 4) (r : Fin 1024) => f ⟨1024 * s.val + r.val, by have := s.isLt; have := r.isLt; omega⟩)]
  refine (Equiv.sum_comp (finProdFinEquiv (m := 4) (n := 1024)) f).symm.trans ?_
  refine Finset.sum_congr rfl fun x _ => congrArg f (Fin.ext ?_)
  show x.2.val + 1024 * x.1.val = 1024 * x.1.val + x.2.val
  omega

/-- The four contributions of batch entry q's tiles add up to the first pooled vector. -/
theorem addends0_sum (c : Dev nD) (q : Fin 8) (d : Fin 768) :
    ∑ s ∈ Finset.range 4, addend0 V c (4 * q.val + s) (ix3 (0 : Fin 1) (0 : Fin 1) d)
      = Cert.Spec.gq (V c main_v0) (V c main_v1) (Cert.Spec.rowOf (V c main_v5)) q d := by
  have hN := N0_eq
  unfold Cert.Spec.gq
  rw [sum_rows_tiles, ← Fin.sum_univ_eq_sum_range (fun s => addend0 V c (4 * q.val + s) (ix3 (0 : Fin 1) (0 : Fin 1) d)) 4]
  refine Finset.sum_congr rfl fun s _ => ?_
  have hs : 4 * q.val + s.val < cfg0.N := by have := q.isLt; have := s.isLt; omega
  unfold addend0
  rw [dif_pos hs]
  refine Finset.sum_congr rfl fun r _ => ?_
  have eb : bOf0 ⟨4 * q.val + s.val, hs⟩ = q := Fin.ext (by show (4 * q.val + s.val) / 4 = q.val; have := s.isLt; omega)
  have en : nOf0 ⟨4 * q.val + s.val, hs⟩ r = ⟨1024 * s.val + r.val, by have := s.isLt; have := r.isLt; omega⟩ :=
    Fin.ext (by show 1024 * ((4 * q.val + s.val) % 4) + r.val = 1024 * s.val + r.val; have := s.isLt; omega)
  rw [eb, en]

/-! ## What a flushing point writes back, and the array after the call -/

/-- At the last tile of a batch entry the output block holds the first pooled vector of that entry. -/
theorem block0_last (c : Dev nD) (t : Fin cfg0.N) (h3 : t.val % 4 = 3) (d : Fin 768) :
    (outsAt0 V c t.val t.isLt).1 (ix3 (0 : Fin 1) (0 : Fin 1) d)
      = Cert.Spec.gq (V c main_v0) (V c main_v1) (Cert.Spec.rowOf (V c main_v5)) (bOf0 t) d := by
  rw [block0_eq_scratch, scratch0_last V c t h3]
  exact addends0_sum V c (bOf0 t) d

/-- The index of the array that entry (0, 0, d) of point t's output block is: (t / 4, 0, d). -/
theorem emb0_3 (t : Fin cfg0.N) (d : Fin 768) :
    ((cfg0.win 3).blk t).view.emb (ix3 (0 : Fin 1) (0 : Fin 1) d) = (ix3 (bOf0 t) (0 : Fin 1) d : S8x1x768.Idx) := by
  obtain ⟨-, -, -, -, -, -, -, e0, e1, e2⟩ := idx_facts0 t
  refine funext fun a => Fin.ext ?_
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 768 + 1 * d.val = d.val; omega

/-- WHAT A FLUSHING POINT WRITES BACK is its block of the first pooled vector's array. -/
theorem flushed0_eq (c : Dev nD) (t : Fin cfg0.N) (hf : (cfg0.win 3).flush t = true) :
    (dat0 (F := Ideal) V c).flushed 3 t
      = ((cfg0.win 3).blk t).view.read (Elt Ideal) (Cert.Spec.gqArr (V c main_v0) (V c main_v1) (V c main_v5)) := by
  have h3 : t.val % 4 = 3 := (flush0_3 t).mp hf
  show (cfg0.win 3).cut (grid0.coords t) ((dat0 (F := Ideal) V c).after 3 t) = _
  rw [after0_3]
  funext y
  obtain ⟨d, rfl⟩ : ∃ d : Fin 768, y = (ix3 (0 : Fin 1) (0 : Fin 1) d : S1x1x768.Idx) := ⟨y 2, eq_ix3_00 y⟩
  rw [View.read_apply, emb0_3]
  exact block0_last V c t h3 d

/-- An index of the array is in point t's output block iff each coordinate is in the block's range on its axis. -/
theorem mem_blk0_3 (t : Fin cfg0.N) (i : S8x1x768.Idx) :
    i ∈ ((cfg0.win 3).blk t).view.set
      ↔ ∀ a : Fin 3, win0_3.index t a * S1x1x768.size a ≤ (i a).val ∧ (i a).val < win0_3.index t a * S1x1x768.size a + S1x1x768.size a := by
  show i ∈ ((View.whole main_v7).slice (win0_3.rect t)).set ↔ _
  rw [View.set_slice_whole, Rect.mem_set_unit]
  exact Iff.rfl

/-- Every index of the array is in the block of the last tile of its batch entry. -/
theorem cover0_3 (i : S8x1x768.Idx) : ∃ t : Fin cfg0.N, (cfg0.win 3).flush t = true ∧ i ∈ ((cfg0.win 3).blk t).view.set := by
  have hN := N0_eq
  have h0 : (i 0).val < 8 := (i 0).isLt
  have h1 : (i 1).val < 1 := (i 1).isLt
  have h2 : (i 2).val < 768 := (i 2).isLt
  obtain ⟨t, ht⟩ : ∃ t : Fin cfg0.N, t.val = 4 * (i 0).val + 3 := ⟨⟨4 * (i 0).val + 3, by omega⟩, rfl⟩
  refine ⟨t, (flush0_3 t).mpr (by omega), ?_⟩
  rw [mem_blk0_3]
  obtain ⟨-, -, -, -, -, -, -, e0, e1, e2⟩ := idx_facts0 t
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 768 ≤ (i 2).val ∧ (i 2).val < win0_3.index _ (2 : Fin 3) * 768 + 768; omega

/-- THE ARRAY after the first call: the first pooled vector of the arrays the call read. -/
theorem final0 (c : Dev nD) :
    (dat0 (F := Ideal) V c).arrAt 3 cfg0.N = Cert.Spec.gqArr (V c main_v0) (V c main_v1) (V c main_v5) :=
  (dat0 (F := Ideal) V c).arrAt_eq_of_cover 3 (Cert.Spec.gqArr (V c main_v0) (V c main_v1) (V c main_v5))
    (flushed0_eq V c) cover0_3

end Cert.KernelIdeal.Hand

end
-- ==== Proof.Left1.lean ====
/-
  What the second call's two cases leave, in closed form: at a first tile both the output block and the scratch end
  at the tile's sum started from zero; at a later tile at the tile's sum added to what the scratch held.
-/
import proofs.«150044_j70102456205557_1_alg».proof.Proof.Region1
import proofs.«150044_j70102456205557_1_alg».proof.Proof.Left0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A first tile leaves in the scratch the body's sum over the four input blocks started from the zero vector, -/
theorem leftA1_snd (c : Dev nD) (t : Fin cfg1.N) (hc : cond1 (grid1.coords t)) (x0 : Vec F S1x1024x768 .bf16) (x1 : Vec F S768x768 .bf16) (x2 : Vec F S1x768 .f32) (x3 : Vec F S1x1x768 .f32) :
    (leftA1 (F := F) c t hc x0 x1 x2 x3).2 = k1_pay1 (k1_pay3 x0 x1 x3 x2 k1_pay2) := by
  unfold leftA1; dsimp only
  rw [View.read_writes_eq_canon _ _ _ (scover1_A c t hc x0 x1 x2 x3)]
  unfold runA1 kernelRun1_A
  dsimp only
  sl_unfold_words
  rw [View.canon_cons_unit_zero off3, readCov_last]
  simp only [View.readAt_eq_ld, Memref.IsWhole.read_unread, View.ld_unit_zero (S := S1x1024x768) off3, View.ld_unit_zero (S := S768x768) off2, View.ld_unit_zero (S := S1x768) off2, View.ld_unit_zero (S := S1x1x768) off3]

/-- and the same in the output block. -/
theorem leftA1_fst (c : Dev nD) (t : Fin cfg1.N) (hc : cond1 (grid1.coords t)) (x0 : Vec F S1x1024x768 .bf16) (x1 : Vec F S768x768 .bf16) (x2 : Vec F S1x768 .f32) (x3 : Vec F S1x1x768 .f32) :
    (leftA1 (F := F) c t hc x0 x1 x2 x3).1 = k1_pay1 (k1_pay3 x0 x1 x3 x2 k1_pay2) := by
  unfold leftA1; dsimp only
  rw [View.read_writes_eq_canon _ _ _ (cover1_A_4 c t hc x0 x1 x2 x3)]
  unfold runA1 kernelRun1_A
  dsimp only
  sl_unfold_words
  refine (canon_one _).trans ?_
  rw [readCov_last, readCov_last]
  simp only [View.readAt_eq_ld, Memref.IsWhole.read_unread, View.ld_unit_zero (S := S1x1024x768) off3, View.ld_unit_zero (S := S768x768) off2, View.ld_unit_zero (S := S1x768) off2, View.ld_unit_zero (S := S1x1x768) off3]

/-- A later tile leaves in the scratch the body's sum over the four input blocks added to what the scratch held, -/
theorem leftB1_snd (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) :
    (leftB1 (F := F) c t hc x0 x1 x2 x3 xs).2 = k1_pay1 (k1_pay3 x0 x1 x3 x2 xs) := by
  unfold leftB1; dsimp only
  rw [View.read_writes_eq_canon _ _ _ (scover1_B c t hc x0 x1 x2 x3 xs)]
  unfold runB1 kernelRun1_B
  dsimp only
  sl_unfold_words
  rw [View.canon_unit_zero off3]
  simp only [View.readAt_eq_ld, Memref.IsWhole.read_unread, View.ld_unit_zero (S := S1x1024x768) off3, View.ld_unit_zero (S := S768x768) off2, View.ld_unit_zero (S := S1x768) off2, View.ld_unit_zero (S := S1x1x768) off3]
  exact congrArg (fun s => k1_pay1 (k1_pay3 x0 x1 x3 x2 s)) (Memref.IsWhole.read_unread (m := scM1) (Memref.isWhole_whole _) xs)

/-- and the same in the output block. -/
theorem leftB1_fst (c : Dev nD) (t : Fin cfg1.N) (hc : ¬cond1 (grid1.coords t)) (x0 : Vec F S1x1024x768 .bf16) (x1 : Vec F S768x768 .bf16) (x2 : Vec F S1x768 .f32) (x3 : Vec F S1x1x768 .f32) (xs : Vec F S1x1x768 .f32) :
    (leftB1 (F := F) c t hc x0 x1 x2 x3 xs).1 = k1_pay1 (k1_pay3 x0 x1 x3 x2 xs) := by
  unfold leftB1; dsimp only
  rw [View.read_writes_eq_canon _ _ _ (cover1_B_4 c t hc x0 x1 x2 x3 xs)]
  unfold runB1 kernelRun1_B
  dsimp only
  sl_unfold_words
  refine (canon_one _).trans ?_
  rw [readCov_last]
  simp only [View.readAt_eq_ld, Memref.IsWhole.read_unread, View.ld_unit_zero (S := S1x1024x768) off3, View.ld_unit_zero (S := S768x768) off2, View.ld_unit_zero (S := S1x768) off2, View.ld_unit_zero (S := S1x1x768) off3]
  exact congrArg (fun s => k1_pay1 (k1_pay3 x0 x1 x3 x2 s)) (Memref.IsWhole.read_unread (m := scM1) (Memref.isWhole_whole _) xs)

end Cert.KernelIdeal.Hand

end
-- ==== Proof.Pay1.lean ====
/-
  The second call's stored values read at an index: the carried accumulator stored as it is, the zero
  it starts from, and one grid step's update — the accumulator plus, over the tile's 1024 rows, the
  keys scaled by the pooled vector times their softmax weights.
-/
import proofs.«150044_j70102456205557_1_alg».proof.Proof.Gen.KernelIdeal.Skeleton
import proofs.«150044_j70102456205557_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«150044_j70102456205557_1_alg».proof.Proof.PayCommon

noncomputable section

namespace Cert.KernelIdeal.PayValue

open Cert.KernelIdeal Cert.KernelIdeal.Gen Idealize.ShloMosaic Idealize.ShloMosaic.ValueIdx

/-- The carried accumulator is stored unchanged. -/
theorem pay1_id (v34 : FVec Ideal S1x1x768 .f32) : k1_pay1 (F := Ideal) v34 = v34 := by
  unfold k1_pay1
  exact shapeCast_self v34 _

/-- The accumulator's initial value is zero everywhere. -/
theorem pay1_zero (d : Fin 768) : k1_pay2 (F := Ideal) (ix3 0 0 d) = 0 := by
  unfold k1_pay2
  rw [shapeCast_self, broadcast_apply]
  exact Ideal.ofBits_zero_f32

/-- The update as one term over the shared pieces: the scaled keys p = g * (x W), their logits p * beta * s, the
    weights of the logits, and the column sums of p times the weights added to the accumulator. -/
theorem k1_pay3_eq (v3 : Vec Ideal S1x1024x768 .bf16) (v5 : Vec Ideal S768x768 .bf16) (v8 : Vec Ideal S1x1x768 .f32) (v12 : Vec Ideal S1x768 .f32) (v32 : Vec Ideal S1x1x768 .f32) :
    k1_pay3 (F := Ideal) v3 v5 v8 v12 v32
      = addf v32
          (shapeCast S1x1x768
            (shapeCast S1x768
              (multiReduction .add [0] S768
                (mulf (mulf (broadcastTo S1024x768 (shapeCast S1x768 v8 shapeCasts_S1x1x768_S1x768) broadcasts_S1x768_S1024x768) (tmat v3 v5))
                  (tileW (mulf (mulf (mulf (broadcastTo S1024x768 (shapeCast S1x768 v8 shapeCasts_S1x1x768_S1x768) broadcasts_S1x768_S1024x768) (tmat v3 v5))
                      (broadcastTo S1024x768 (shapeCast S1x768 v12 shapeCasts_S1x768_S1x768) broadcasts_S1x768_S1024x768))
                    (broadcast S1024x768 (Scalar.ofBits .f32 0x3D13CD3A#32)))))
                0x00000000#32 reduces_S1024x768_S768 (.inl rfl) rfl)
              shapeCasts_S768_S1x768)
            shapeCasts_S1x768_S1x1x768) := rfl

theorem pay1_apply (v3 : Vec Ideal S1x1024x768 .bf16) (v5 : Vec Ideal S768x768 .bf16) (v8 : Vec Ideal S1x1x768 .f32) (v12 : Vec Ideal S1x768 .f32) (v32 : Vec Ideal S1x1x768 .f32) (d : Fin 768) :
    k1_pay3 (F := Ideal) v3 v5 v8 v12 v32 (ix3 0 0 d)
      = v32 (ix3 0 0 d) + ∑ r : Fin 1024, (v8 (ix3 0 0 d) * tproj v3 v5 r d) * Cert.Spec.rowW (fun d' => (v8 (ix3 0 0 d') * tproj v3 v5 r d') * v12 (ix2 0 d') * Cert.Spec.scale) d := by
  rw [k1_pay3_eq, addf_apply, pooled_apply]
  refine congrArg (fun t => v32 (ix3 0 0 d) + t) (Finset.sum_congr rfl fun r _ => ?_)
  rw [mulf_apply, tileW_apply, mulf_apply, rowVec3_apply, tmat_apply]
  refine congrArg (fun f => (v8 (ix3 0 0 d) * tproj v3 v5 r d) * Cert.Spec.rowW f d) (funext fun d' => ?_)
  rw [mulf_apply, mulf_apply, mulf_apply, rowVec3_apply, tmat_apply, rowVec_apply, broadcast_apply]
  rfl

end Cert.KernelIdeal.PayValue

end
-- ==== Proof.Final1.lean ====
/-
  The second call's final array. After the tile t = 4 b + j of batch entry b the scratch and the output block hold
  the sum of the contributions of tiles 0..j; a tile's contribution at feature d is the sum over its 1024 rows of the
  scaled key times its softmax weight. The block is written back after the fourth tile, where the sum runs over all
  4096 rows of the batch entry: the second pooled vector.
-/
import proofs.«150044_j70102456205557_1_alg».proof.Proof.Left1
import proofs.«150044_j70102456205557_1_alg».proof.Proof.Pay1
import proofs.«150044_j70102456205557_1_alg».proof.Proof.Spec2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayValue

variable (V : (c : Dev nD) → (b : Ref sig .tc) → Buf (Elt Ideal) ((c : Thread nD τ).loc b))

/-! ## The index maps over the grid -/

/-- Point t = 4 b + j reads row tile j of batch entry b of x, the whole key matrix and weight row, and block b of the
    two pooled arrays. -/
theorem idx1 : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = 0 :=
  (by decide +kernel : ∀ t : Fin grid1.N, _)

/-- The batch entry of a point, and the row of x its tile's row r is. -/
def tb1 (t : Fin cfg1.N) : Fin 8 := ⟨t.val / 4, by have := t.isLt; have : cfg1.N = 32 := N_1; omega⟩
def tn1 (t : Fin cfg1.N) (r : Fin 1024) : Fin 4096 := ⟨1024 * (t.val % 4) + r.val, by have := r.isLt; omega⟩

/-! ## The blocks read at an index -/

theorem blk1_0 (c : Dev nD) (t : Fin cfg1.N) (r : Fin 1024) (k : Fin 768) :
    (iblk1 V c 0 t : Vec Ideal S1x1024x768 .bf16) (ix3 0 r k) = V c main_v0 (ix3 (tb1 t) (tn1 t r) k) := by
  obtain ⟨e0, e1, e2, -⟩ := idx1 t
  unfold iblk1
  rw [View.read_apply]
  show V c main_v0 _ = V c main_v0 _
  refine congrArg (V c main_v0) ?_
  funext a; apply Fin.ext
  match a with
  | ⟨0, _⟩ => show win1_0.index t (0 : Fin 3) * 1 + 1 * 0 = t.val / 4; omega
  | ⟨1, _⟩ => show win1_0.index t (1 : Fin 3) * 1024 + 1 * r.val = 1024 * (t.val % 4) + r.val; omega
  | ⟨2, _⟩ => show win1_0.index t (2 : Fin 3) * 768 + 1 * k.val = k.val; omega

theorem blk1_1 (c : Dev nD) (t : Fin cfg1.N) (k d : Fin 768) :
    (iblk1 V c 1 t : Vec Ideal S768x768 .bf16) (ix2 k d) = V c main_v2 (ix2 k d) := by
  obtain ⟨-, -, -, e0, e1, -⟩ := idx1 t
  unfold iblk1
  rw [View.read_apply]
  show V c main_v2 _ = V c main_v2 _
  refine congrArg (V c main_v2) ?_
  funext a; apply Fin.ext
  match a with
  | ⟨0, _⟩ => show win1_1.index t (0 : Fin 2) * 768 + 1 * k.val = k.val; omega
  | ⟨1, _⟩ => show win1_1.index t (1 : Fin 2) * 768 + 1 * d.val = d.val; omega

theorem blk1_2 (c : Dev nD) (t : Fin cfg1.N) (d : Fin 768) :
    (iblk1 V c 2 t : Vec Ideal S1x768 .f32) (ix2 0 d) = V c main_v6 (ix2 0 d) := by
  obtain ⟨-, -, -, -, -, e0, e1, -⟩ := idx1 t
  unfold iblk1
  rw [View.read_apply]
  show V c main_v6 _ = V c main_v6 _
  refine congrArg (V c main_v6) ?_
  funext a; apply Fin.ext
  match a with
  | ⟨0, _⟩ => show win1_2.index t (0 : Fin 2) * 1 + 1 * 0 = 0; omega
  | ⟨1, _⟩ => show win1_2.index t (1 : Fin 2) * 768 + 1 * d.val = d.val; omega

theorem blk1_3 (c : Dev nD) (t : Fin cfg1.N) (d : Fin 768) :
    (iblk1 V c 3 t : Vec Ideal S1x1x768 .f32) (ix3 0 0 d) = V c main_v7 (ix3 (tb1 t) 0 d) := by
  obtain ⟨-, -, -, -, -, -, -, e0, e1, e2, -⟩ := idx1 t
  unfold iblk1
  rw [View.read_apply]
  show V c main_v7 _ = V c main_v7 _
  refine congrArg (V c main_v7) ?_
  funext a; apply Fin.ext
  match a with
  | ⟨0, _⟩ => show win1_3.index t (0 : Fin 3) * 1 + 1 * 0 = t.val / 4; omega
  | ⟨1, _⟩ => show win1_3.index t (1 : Fin 3) * 1 + 1 * 0 = 0; omega
  | ⟨2, _⟩ => show win1_3.index t (2 : Fin 3) * 768 + 1 * d.val = d.val; omega

/-! ## A tile's contribution -/

/-- The four input blocks of a point at their vector types. -/
abbrev b1_0 (c : Dev nD) (t : Fin cfg1.N) : Vec Ideal S1x1024x768 .bf16 := iblk1 V c 0 t
abbrev b1_1 (c : Dev nD) (t : Fin cfg1.N) : Vec Ideal S768x768 .bf16 := iblk1 V c 1 t
abbrev b1_2 (c : Dev nD) (t : Fin cfg1.N) : Vec Ideal S1x768 .f32 := iblk1 V c 2 t
abbrev b1_3 (c : Dev nD) (t : Fin cfg1.N) : Vec Ideal S1x1x768 .f32 := iblk1 V c 3 t

/-- The contribution of the tile at position n to feature d, over the blocks the point reads. -/
def part1 (c : Dev nD) (n : ℕ) (h : n < cfg1.N) (d : Fin 768) : EReal :=
  ∑ r : Fin 1024, (b1_3 V c ⟨n, h⟩ (ix3 0 0 d) * tproj (b1_0 V c ⟨n, h⟩) (b1_1 V c ⟨n, h⟩) r d)
    * Cert.Spec.rowW (fun d' => (b1_3 V c ⟨n, h⟩ (ix3 0 0 d') * tproj (b1_0 V c ⟨n, h⟩) (b1_1 V c ⟨n, h⟩) r d')
        * b1_2 V c ⟨n, h⟩ (ix2 0 d') * Cert.Spec.scale) d

/-- The same with no bound to carry: zero past the grid. -/
def partN1 (c : Dev nD) (n : ℕ) (d : Fin 768) : EReal := if h : n < cfg1.N then part1 V c n h d else 0

/-- In the specification's terms it is the sum of the second pooled vector's summands over the tile's rows. -/
theorem part1_eq (c : Dev nD) (t : Fin cfg1.N) (d : Fin 768) :
    part1 V c t.val t.isLt d = ∑ r : Fin 1024, Cert.Spec.gkTermOf (Cert.Spec.pooledOf (V c main_v7)) (V c main_v0) (V c main_v2)
      (Cert.Spec.rowOf (V c main_v6)) (tb1 t) (tn1 t r) d := by
  unfold part1 Cert.Spec.gkTermOf Cert.Spec.pooledOf Cert.Spec.rowOf Cert.Spec.proj tproj b1_0 b1_1 b1_2 b1_3
  refine Finset.sum_congr rfl fun r _ => ?_
  simp only [blk1_0 V c t, blk1_1 V c t, blk1_2 V c t, blk1_3 V c t]

/-! ## The running sum -/

/-- The scratch after a first tile: the tile's contribution; -/
theorem acc1_A (c : Dev nD) (t : Fin cfg1.N) (h0 : t.val % 4 = 0) (d : Fin 768) :
    (outsAt1 V c t.val t.isLt).2 (ix3 0 0 d) = part1 V c t.val t.isLt d := by
  rw [outsAt1_A V c t h0, leftA1_snd, pay1_id, pay1_apply, pay1_zero, zero_add]
  rfl

/-- after a later tile: what the tile before left plus the tile's contribution. -/
theorem acc1_B (c : Dev nD) (t : Fin cfg1.N) (h0 : ¬t.val % 4 = 0) (d : Fin 768) :
    (outsAt1 V c t.val t.isLt).2 (ix3 0 0 d)
      = (outsAt1 V c (t.val - 1) (Nat.lt_of_le_of_lt (Nat.sub_le _ _) t.isLt)).2 (ix3 0 0 d) + part1 V c t.val t.isLt d := by
  rw [outsAt1_B V c t h0, leftB1_snd, pay1_id, pay1_apply]
  rfl

/-- The output block holds what the scratch holds. -/
theorem fst_eq_snd1 (c : Dev nD) (t : Fin cfg1.N) : (outsAt1 V c t.val t.isLt).1 = (outsAt1 V c t.val t.isLt).2 := by
  by_cases h0 : t.val % 4 = 0
  · rw [outsAt1_A V c t h0, leftA1_fst, leftA1_snd]
  · rw [outsAt1_B V c t h0, leftB1_fst, leftB1_snd]

theorem outsAt1_cast (c : Dev nD) {n n' : ℕ} (e : n = n') (h : n < cfg1.N) (h' : n' < cfg1.N) : outsAt1 V c n h = outsAt1 V c n' h' := by
  subst e; rfl

/-- After tile j of batch entry q the scratch holds the sum of the contributions of tiles 0..j. -/
theorem acc1_sum (c : Dev nD) (q : ℕ) (d : Fin 768) : ∀ (j : ℕ) (_ : j < 4) (h : 4 * q + j < cfg1.N),
    (outsAt1 V c (4 * q + j) h).2 (ix3 0 0 d) = ∑ s ∈ Finset.range (j + 1), partN1 V c (4 * q + s) d
  | 0, _, h => by
    rw [Finset.sum_range_one]
    have := acc1_A V c ⟨4 * q + 0, h⟩ (by show (4 * q + 0) % 4 = 0; omega) d
    rw [this]
    simp only [partN1, dif_pos h]
  | j + 1, hj, h => by
    rw [Finset.sum_range_succ, ← acc1_sum c q d j (by omega) (by omega)]
    have := acc1_B V c ⟨4 * q + (j + 1), h⟩ (by show ¬(4 * q + (j + 1)) % 4 = 0; omega) d
    rw [this, outsAt1_cast V c (show 4 * q + (j + 1) - 1 = 4 * q + j by omega) _ (by omega)]
    simp only [partN1, dif_pos h]

/-! ## The sum over the four tiles is the sum over the 4096 rows -/

theorem sum_tiles (f : Fin 4096 → EReal) :
    ∑ n : Fin 4096, f n = ∑ j : Fin 4, ∑ r : Fin 1024, f ⟨1024 * j.val + r.val, by have := j.isLt; have := r.isLt; omega⟩ := by
  rw [← Fintype.sum_prod_type']
  refine (Fintype.sum_equiv (finProdFinEquiv (m := 4) (n := 1024)) _ _ fun p => ?_).symm
  refine congrArg f (Fin.ext ?_)
  show 1024 * p.1.val + p.2.val = p.2.val + 1024 * p.1.val
  omega

/-! ## What a flushing point writes back -/

/-- Feature d of point t's output block sits in the array at batch t / 4, feature d. -/
theorem emb1_4 (t : Fin cfg1.N) (d : Fin 768) :
    ((cfg1.win 4).blk t).view.emb (ix3 0 0 d) = (ix3 (tb1 t) 0 d : S8x1x768.Idx) := by
  obtain ⟨-, -, -, -, -, -, -, -, -, -, e0, e1, e2⟩ := idx1 t
  refine funext fun a => Fin.ext ?_
  match a with
  | ⟨0, _⟩ => show win1_4.index t (0 : Fin 3) * 1 + 1 * 0 = t.val / 4; omega
  | ⟨1, _⟩ => show win1_4.index t (1 : Fin 3) * 1 + 1 * 0 = 0; omega
  | ⟨2, _⟩ => show win1_4.index t (2 : Fin 3) * 768 + 1 * d.val = d.val; omega

/-- At the fourth tile of batch entry b the running sum is the second pooled vector at b. -/
theorem flush_value1 (c : Dev nD) (t : Fin cfg1.N) (h3 : t.val % 4 = 3) (d : Fin 768) :
    (outsAt1 V c t.val t.isLt).2 (ix3 0 0 d)
      = ∑ n : Fin 4096, Cert.Spec.gkTermOf (Cert.Spec.pooledOf (V c main_v7)) (V c main_v0) (V c main_v2)
          (Cert.Spec.rowOf (V c main_v6)) (tb1 t) n d := by
  have hN : cfg1.N = 32 := N_1
  have ht := t.isLt
  have hq : t.val = 4 * (t.val / 4) + 3 := by omega
  rw [outsAt1_cast V c hq t.isLt (by omega), acc1_sum V c (t.val / 4) d 3 (by omega) (by omega), sum_tiles]
  rw [Finset.sum_range_succ, Finset.sum_range_succ, Finset.sum_range_succ, Finset.sum_range_one, Fin.sum_univ_four]
  have hp : ∀ (s : ℕ) (hs : s < 4), partN1 V c (4 * (t.val / 4) + s) d
      = ∑ r : Fin 1024, Cert.Spec.gkTermOf (Cert.Spec.pooledOf (V c main_v7)) (V c main_v0) (V c main_v2)
          (Cert.Spec.rowOf (V c main_v6)) (tb1 t) ⟨1024 * s + r.val, by have := r.isLt; omega⟩ d := by
    intro s hs
    have hlt : 4 * (t.val / 4) + s < cfg1.N := by omega
    unfold partN1; rw [dif_pos hlt]
    rw [part1_eq V c ⟨4 * (t.val / 4) + s, hlt⟩ d]
    refine Finset.sum_congr rfl fun r _ => ?_
    have eb : tb1 ⟨4 * (t.val / 4) + s, hlt⟩ = tb1 t := Fin.ext (by show (4 * (t.val / 4) + s) / 4 = t.val / 4; omega)
    have en : tn1 ⟨4 * (t.val / 4) + s, hlt⟩ r = ⟨1024 * s + r.val, by have := r.isLt; omega⟩ :=
      Fin.ext (by show 1024 * ((4 * (t.val / 4) + s) % 4) + r.val = 1024 * s + r.val; have : (4 * (t.val / 4) + s) % 4 = s := by omega
                  rw [this])
    rw [eb, en]
  rw [hp 0 (by omega), hp 1 (by omega), hp 2 (by omega), hp 3 (by omega)]
  rfl

/-- WHAT A FLUSHING POINT WRITES BACK is its block of the second pooled array. -/
theorem flushed1_eq (c : Dev nD) (t : Fin cfg1.N) (hf : (cfg1.win 4).flush t = true) :
    (dat1 (F := Ideal) V c).flushed 4 t
      = ((cfg1.win 4).blk t).view.read (Elt Ideal) (Cert.Spec.gkArr (V c main_v7) (V c main_v0) (V c main_v2) (V c main_v6)) := by
  have h3 : t.val % 4 = 3 := (flush1_4 t).mp hf
  show (cfg1.win 4).cut (grid1.coords t) ((dat1 (F := Ideal) V c).after 4 t) = _
  funext j
  obtain ⟨u, v, d, rfl⟩ : ∃ (u : Fin 1) (v : Fin 1) (d : Fin 768), j = ix3 u v d := ⟨j 0, j 1, j 2, eq_ix3 j⟩
  obtain rfl : u = 0 := Subsingleton.elim _ _
  obtain rfl : v = 0 := Subsingleton.elim _ _
  rw [View.read_apply]
  show (dat1 (F := Ideal) V c).after 4 t (ix3 0 0 d)
    = Cert.Spec.gkArr (V c main_v7) (V c main_v0) (V c main_v2) (V c main_v6) (((cfg1.win 4).blk t).view.emb (ix3 0 0 d))
  rw [emb1_4, after1_4, fst_eq_snd1, flush_value1 V c t h3 d]
  rfl

/-! ## The flushed blocks tile the array -/

theorem mem_blk1_4 (t : Fin cfg1.N) (i : S8x1x768.Idx) :
    i ∈ ((cfg1.win 4).blk t).view.set ↔ ∀ a : Fin 3, win1_4.index t a * S1x1x768.size a ≤ (i a).val
      ∧ (i a).val < win1_4.index t a * S1x1x768.size a + S1x1x768.size a := by
  show i ∈ ((View.whole main_v8).slice (win1_4.rect t)).set ↔ _
  rw [View.set_slice_whole, Rect.mem_set_unit]
  exact Iff.rfl

/-- Every index (b, 0, d) of the array lies in the block of the flushing point 4 b + 3. -/
theorem cover1_4_all (i : S8x1x768.Idx) :
    ∃ t : Fin cfg1.N, (cfg1.win 4).flush t = true ∧ i ∈ ((cfg1.win 4).blk t).view.set := by
  have h0 : (i 0).val < 8 := (i 0).isLt
  have h1 : (i 1).val < 1 := (i 1).isLt
  have h2 : (i 2).val < 768 := (i 2).isLt
  obtain ⟨t, ht⟩ : ∃ t : Fin cfg1.N, t.val = 4 * (i 0).val + 3 :=
    ⟨⟨4 * (i 0).val + 3, lt_of_lt_of_eq (by omega) N_1.symm⟩, rfl⟩
  obtain ⟨-, -, -, -, -, -, -, -, -, -, e0, e1, e2⟩ := idx1 t
  refine ⟨t, (flush1_4 t).mpr (by omega), ?_⟩
  rw [mem_blk1_4]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 1 ≤ (i 1).val ∧ (i 1).val < win1_4.index t (1 : Fin 3) * 1 + 1
    omega
  | ⟨2, _⟩ =>
    show win1_4.index t (2 : Fin 3) * 768 ≤ (i 2).val ∧ (i 2).val < win1_4.index t (2 : Fin 3) * 768 + 768
    omega

/-! ## The array after the call -/

/-- THE SECOND POOLED ARRAY after the second call is the specification's, of the arrays the call read. -/
theorem final1 (c : Dev nD) :
    (dat1 (F := Ideal) V c).arrAt 4 cfg1.N
      = Cert.Spec.gkArr (V c main_v7) (V c main_v0) (V c main_v2) (V c main_v6) :=
  (dat1 (F := Ideal) V c).arrAt_eq_of_cover 4 _ (fun t hf => flushed1_eq V c t hf) (fun i => cover1_4_all i)

end Cert.KernelIdeal.Hand

end
-- ==== Proof.Region2Closed.lean ====
import proofs.«150044_j70102456205557_1_alg».proof.Proof.Region2
import Idealize.ShloMosaic.Lib.Pipeline.Value
import Idealize.ShloMosaic.Lib.ValueIdx

/-!
# The third call: what a point writes back, in closed form

Every load of the body and its one store take a whole staging buffer, through the rectangle at offset zero of the
buffer's own extents. So a load reads the buffer's contents, the store leaves exactly its payload, and what the
output window holds after the body at a point is the payload of the five input blocks at that point.
-/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The offsets of a rank-3 whole-buffer access are all zero. -/
theorem zeros3 : (![0, 0, 0] : Fin 3 → Nat) = fun _ => 0 := funext fun a => by fin_cases a <;> rfl
/-- The offsets of a rank-2 whole-buffer access are all zero. -/
theorem zeros2 : (![0, 0] : Fin 2 → Nat) = fun _ => 0 := funext fun a => by fin_cases a <;> rfl

/-- What the body leaves in the output buffer is the payload of the input buffers' contents: the loads read the
    contents and the one store, which covers the buffer, leaves its payload. The payload takes the gate row (`x4`)
    before the third weight matrix (`x3`). -/
theorem out2_5_eq (x0 : Vec F S1x1024x768 .bf16) (x1 x2 x3 : Vec F S768x768 .bf16) (x4 : Vec F S1x1x768 .f32) :
    out2_5 x0 x1 x2 x3 x4 = k2_pay1 x0 x1 x2 x4 x3 := by
  unfold out2_5
  rw [View.canon_unit_zero (S := S1x1024x768) zeros3]
  simp only [View.ld_unit_zero (S := S1x1024x768) zeros3, View.ld_unit_zero (S := S768x768) zeros2,
    View.ld_unit_zero (S := S1x1x768) zeros3]

variable (V : (c : Dev nD) → (b : Ref sig .tc) → Buf (Elt F) ((c : Thread nD τ).loc b))

/-- What point `t` leaves in the output window: the payload of the five input blocks at `t`. -/
theorem after2_5_closed (c : Dev nD) (t : Fin cfg2.N) :
    (dat2 V c).after 5 t = k2_pay1 (iblk2 V c 0 t) (iblk2 V c 1 t) (iblk2 V c 2 t) (iblk2 V c 4 t) (iblk2 V c 3 t) := by
  rw [after2_5]; exact out2_5_eq _ _ _ _ _

/-- The same at row `r`, column `e` of the block. -/
theorem after2_5_apply (c : Dev nD) (t : Fin cfg2.N) (r : Fin 1024) (e : Fin 768) :
    (dat2 V c).after 5 t (ix3 0 r e)
      = k2_pay1 (iblk2 V c 0 t) (iblk2 V c 1 t) (iblk2 V c 2 t) (iblk2 V c 4 t) (iblk2 V c 3 t) (ix3 0 r e) :=
  congrFun (after2_5_closed V c t) _

end Cert.KernelIdeal.Hand

end
-- ==== Proof.Pay2.lean ====
/-
  The third call's stored value read at an index: the values scaled by the second pooled vector,
  times the output matrix, plus the queries.
-/
import proofs.«150044_j70102456205557_1_alg».proof.Proof.Gen.KernelIdeal.Skeleton
import proofs.«150044_j70102456205557_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«150044_j70102456205557_1_alg».proof.Proof.PayCommon

noncomputable section

namespace Cert.KernelIdeal.PayValue

open Cert.KernelIdeal Cert.KernelIdeal.Gen Idealize.ShloMosaic Idealize.ShloMosaic.ValueIdx

/-- The stored tile as one term over the shared pieces: (g * (x Wv)) narrowed, times Wr, plus x Wq, viewed [1, 1024, 768]. -/
theorem k2_pay1_eq (v0 : Vec Ideal S1x1024x768 .bf16) (v2 v5 : Vec Ideal S768x768 .bf16) (v8 : Vec Ideal S1x1x768 .f32) (v13 : Vec Ideal S768x768 .bf16) :
    k2_pay1 (F := Ideal) v0 v2 v5 v8 v13
      = shapeCast S1x1024x768
          (addf
            (matmul dot_S1024x768_S768x768_S1024x768_1_0_0_1_n_n none
              (truncf .bf16
                (mulf (broadcastTo S1024x768 (shapeCast S1x768 v8 shapeCasts_S1x1x768_S1x768) broadcasts_S1x768_S1024x768) (tmat v0 v5))
                bitsLt_bf16_f32)
              (shapeCast S768x768 v13 shapeCasts_S768x768_S768x768 : FVec Ideal S768x768 .bf16)
              (constant (F := Ideal) S1024x768 .f32 0x00000000#32))
            (tmat v0 v2))
          shapeCasts_S1024x768_S1x1024x768 := rfl

theorem pay2_apply (v0 : Vec Ideal S1x1024x768 .bf16) (v2 v5 : Vec Ideal S768x768 .bf16) (v8 : Vec Ideal S1x1x768 .f32) (v13 : Vec Ideal S768x768 .bf16) (r : Fin 1024) (e : Fin 768) :
    k2_pay1 (F := Ideal) v0 v2 v5 v8 v13 (ix3 0 r e)
      = (∑ d : Fin 768, (v8 (ix3 0 0 d) * tproj v0 v5 r d) * v13 (ix2 d e)) + tproj v0 v2 r e := by
  rw [k2_pay1_eq, shapeCast_ab_1ab_apply, addf_apply, matmul_tile_apply, tmat_apply]
  refine congrArg (fun t => t + tproj v0 v2 r e) (Finset.sum_congr rfl fun d _ => ?_)
  rw [truncf_apply, mulf_apply, rowVec3_apply, tmat_apply, shapeCast_self]

end Cert.KernelIdeal.PayValue

end
-- ==== Proof.Final2.lean ====
/-
  The third call's result array. Every grid point (b, n) of the 8 x 4 grid writes back the block
  (b, n, 0) of the [8, 4096, 768] result; the 32 blocks tile the array. What a point leaves in its
  block is, entry by entry, the specification's result at the entry's place in the array, because
  each block it read is the matching piece of the array it was cut from.
-/
import proofs.«150044_j70102456205557_1_alg».proof.Proof.Region2Closed
import proofs.«150044_j70102456205557_1_alg».proof.Proof.Pay2
import proofs.«150044_j70102456205557_1_alg».proof.Proof.Spec2
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The grid has 32 points. -/
theorem N2 : cfg2.N = 32 := by decide
theorem lt_N2 (t : Fin cfg2.N) : t.val < 32 := lt_of_lt_of_eq t.isLt N2

/-- The six index maps, decided once over the 32 points: at point t = 4 b + n the activation block, the pooled row and
    the result block sit at (b, n, 0), (b, 0, 0) and (b, n, 0); each weight matrix is one whole block. -/
theorem idx_facts2 : ∀ t : Fin cfg2.N,
    win2_0.index t (0 : Fin 3) = t.val / 4 ∧ win2_0.index t (1 : Fin 3) = t.val % 4 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 4 ∧ win2_4.index t (1 : Fin 3) = 0 ∧ win2_4.index t (2 : Fin 3) = 0
    ∧ win2_5.index t (0 : Fin 3) = t.val / 4 ∧ win2_5.index t (1 : Fin 3) = t.val % 4 ∧ win2_5.index t (2 : Fin 3) = 0 :=
  (by decide +kernel : ∀ t : Fin grid2.N, _)

variable (V : (c : Dev nD) → (b : Ref sig .tc) → Buf (Elt Ideal) ((c : Thread nD τ).loc b))

/-- The batch and the row of the array that row r of point t's block is. -/
abbrev bOf (t : Fin cfg2.N) : Fin 8 := ⟨t.val / 4, by have := lt_N2 t; omega⟩
abbrev nOf (t : Fin cfg2.N) (r : Fin 1024) : Fin 4096 := ⟨1024 * (t.val % 4) + r.val, by have := r.isLt; omega⟩

/-! ## Each block read is the array at the embedded index -/

/-- The activation block at point t, row r, is the array's batch t / 4, row 1024 (t % 4) + r. -/
theorem iblk2_0_apply (c : Dev nD) (t : Fin cfg2.N) (r : Fin 1024) (k : Fin 768) :
    (iblk2 V c 0 t : Vec Ideal S1x1024x768 .bf16) (ix3 0 r k)
      = (V c main_v0 : S8x4096x768.Idx → EReal) (ix3 (bOf t) (nOf t r) k) := by
  obtain ⟨e0, e1, e2, -⟩ := idx_facts2 t
  unfold iblk2
  rw [View.read_apply]
  show V c main_v0 _ = V c main_v0 _
  refine congrArg (V c main_v0) (funext fun a => Fin.ext ?_)
  match a with
  | ⟨0, _⟩ => show win2_0.index t (0 : Fin 3) * 1 + 1 * 0 = t.val / 4; omega
  | ⟨1, _⟩ => show win2_0.index t (1 : Fin 3) * 1024 + 1 * r.val = 1024 * (t.val % 4) + r.val; omega
  | ⟨2, _⟩ => show win2_0.index t (2 : Fin 3) * 768 + 1 * k.val = k.val; omega

/-- The first weight matrix's block is the whole matrix. -/
theorem iblk2_1_apply (c : Dev nD) (t : Fin cfg2.N) (k d : Fin 768) :
    (iblk2 V c 1 t : Vec Ideal S768x768 .bf16) (ix2 k d) = (V c main_v1 : S768x768.Idx → EReal) (ix2 k d) := by
  obtain ⟨-, -, -, e0, e1, -⟩ := idx_facts2 t
  unfold iblk2
  rw [View.read_apply]
  show V c main_v1 _ = V c main_v1 _
  refine congrArg (V c main_v1) (funext fun a => Fin.ext ?_)
  match a with
  | ⟨0, _⟩ => show win2_1.index t (0 : Fin 2) * 768 + 1 * k.val = k.val; omega
  | ⟨1, _⟩ => show win2_1.index t (1 : Fin 2) * 768 + 1 * d.val = d.val; omega

/-- The second weight matrix's block is the whole matrix. -/
theorem iblk2_2_apply (c : Dev nD) (t : Fin cfg2.N) (k d : Fin 768) :
    (iblk2 V c 2 t : Vec Ideal S768x768 .bf16) (ix2 k d) = (V c main_v3 : S768x768.Idx → EReal) (ix2 k d) := by
  obtain ⟨-, -, -, -, -, e0, e1, -⟩ := idx_facts2 t
  unfold iblk2
  rw [View.read_apply]
  show V c main_v3 _ = V c main_v3 _
  refine congrArg (V c main_v3) (funext fun a => Fin.ext ?_)
  match a with
  | ⟨0, _⟩ => show win2_2.index t (0 : Fin 2) * 768 + 1 * k.val = k.val; omega
  | ⟨1, _⟩ => show win2_2.index t (1 : Fin 2) * 768 + 1 * d.val = d.val; omega

/-- The third weight matrix's block is the whole matrix. -/
theorem iblk2_3_apply (c : Dev nD) (t : Fin cfg2.N) (k d : Fin 768) :
    (iblk2 V c 3 t : Vec Ideal S768x768 .bf16) (ix2 k d) = (V c main_v4 : S768x768.Idx → EReal) (ix2 k d) := by
  obtain ⟨-, -, -, -, -, -, -, e0, e1, -⟩ := idx_facts2 t
  unfold iblk2
  rw [View.read_apply]
  show V c main_v4 _ = V c main_v4 _
  refine congrArg (V c main_v4) (funext fun a => Fin.ext ?_)
  match a with
  | ⟨0, _⟩ => show win2_3.index t (0 : Fin 2) * 768 + 1 * k.val = k.val; omega
  | ⟨1, _⟩ => show win2_3.index t (1 : Fin 2) * 768 + 1 * d.val = d.val; omega

/-- The pooled row at point t is the pooled array's row of batch t / 4. -/
theorem iblk2_4_apply (c : Dev nD) (t : Fin cfg2.N) (d : Fin 768) :
    (iblk2 V c 4 t : Vec Ideal S1x1x768 .f32) (ix3 0 0 d) = (V c main_v8 : S8x1x768.Idx → EReal) (ix3 (bOf t) 0 d) := by
  obtain ⟨-, -, -, -, -, -, -, -, -, e0, e1, e2, -⟩ := idx_facts2 t
  unfold iblk2
  rw [View.read_apply]
  show V c main_v8 _ = V c main_v8 _
  refine congrArg (V c main_v8) (funext fun a => Fin.ext ?_)
  match a with
  | ⟨0, _⟩ => show win2_4.index t (0 : Fin 3) * 1 + 1 * 0 = t.val / 4; omega
  | ⟨1, _⟩ => show win2_4.index t (1 : Fin 3) * 1 + 1 * 0 = 0; omega
  | ⟨2, _⟩ => show win2_4.index t (2 : Fin 3) * 768 + 1 * d.val = d.val; omega

/-- Row r, column e of point t's result block sits in the array at batch t / 4, row 1024 (t % 4) + r, column e. -/
theorem emb2_5 (t : Fin cfg2.N) (r : Fin 1024) (e : Fin 768) :
    ((cfg2.win 5).blk t).view.emb (ix3 0 r e) = (ix3 (bOf t) (nOf t r) e : S8x4096x768.Idx) := by
  obtain ⟨-, -, -, -, -, -, -, -, -, -, -, -, e0, e1, e2⟩ := idx_facts2 t
  refine funext fun a => Fin.ext ?_
  match a with
  | ⟨0, _⟩ => show win2_5.index t (0 : Fin 3) * 1 + 1 * 0 = t.val / 4; omega
  | ⟨1, _⟩ => show win2_5.index t (1 : Fin 3) * 1024 + 1 * r.val = 1024 * (t.val % 4) + r.val; omega
  | ⟨2, _⟩ => show win2_5.index t (2 : Fin 3) * 768 + 1 * e.val = e.val; omega

/-! ## What a point writes back -/

/-- The stored value of a point, over blocks that are pieces of the arrays, is the specification's result at the
    entry's place in the array. -/
theorem out_point (x0 : Vec Ideal S1x1024x768 .bf16) (x1 x2 x3 : Vec Ideal S768x768 .bf16) (x4 : Vec Ideal S1x1x768 .f32)
    (g : Cert.Spec.P3.Idx → EReal) (X : Cert.Spec.A3.Idx → EReal) (Wq Wv Wr : Cert.Spec.M2.Idx → EReal)
    (b : Fin 8) (n : Fin 4096) (r : Fin 1024) (e : Fin 768)
    (h0 : ∀ k, x0 (ix3 0 r k) = X (ix3 b n k)) (h1 : ∀ k d, x1 (ix2 k d) = Wq (ix2 k d))
    (h2 : ∀ k d, x2 (ix2 k d) = Wv (ix2 k d)) (h3 : ∀ k d, x3 (ix2 k d) = Wr (ix2 k d))
    (h4 : ∀ d, x4 (ix3 0 0 d) = g (ix3 b 0 d)) :
    (∑ d : Fin 768, (x4 (ix3 0 0 d) * PayValue.tproj x0 x2 r d) * x3 (ix2 d e)) + PayValue.tproj x0 x1 r e
      = Cert.Spec.outArr g X Wq Wv Wr (ix3 b n e) := by
  show _ = (∑ d : Fin 768, (g (ix3 b 0 d) * ∑ k : Fin 768, X (ix3 b n k) * Wv (ix2 k d)) * Wr (ix2 d e))
      + ∑ k : Fin 768, X (ix3 b n k) * Wq (ix2 k e)
  unfold PayValue.tproj
  simp only [h0, h1, h2, h3, h4]

/-- WHAT POINT t WRITES BACK is block t of the specification's result array. -/
theorem flushed2_eq (c : Dev nD) (t : Fin cfg2.N) :
    (dat2 (F := Ideal) V c).flushed 5 t
      = ((cfg2.win 5).blk t).view.read (Elt Ideal)
          (Cert.Spec.outArr (V c main_v8) (V c main_v0) (V c main_v1) (V c main_v3) (V c main_v4)) := by
  show (cfg2.win 5).cut (grid2.coords t) ((dat2 (F := Ideal) V c).after 5 t) = _
  funext j
  obtain ⟨u, r, e, rfl⟩ : ∃ (u : Fin 1) (r : Fin 1024) (e : Fin 768), j = ix3 u r e := ⟨j 0, j 1, j 2, eq_ix3 j⟩
  obtain rfl : u = 0 := Subsingleton.elim _ _
  rw [View.read_apply]
  show (dat2 (F := Ideal) V c).after 5 t (ix3 0 r e)
    = Cert.Spec.outArr (V c main_v8) (V c main_v0) (V c main_v1) (V c main_v3) (V c main_v4) (((cfg2.win 5).blk t).view.emb (ix3 0 r e))
  rw [emb2_5]
  refine (after2_5_apply V c t r e).trans ((PayValue.pay2_apply _ _ _ _ _ r e).trans ?_)
  exact out_point _ _ _ _ _ _ _ _ _ _ (bOf t) (nOf t r) r e (iblk2_0_apply V c t r) (iblk2_1_apply V c t) (iblk2_2_apply V c t)
    (iblk2_3_apply V c t) (iblk2_4_apply V c t)

/-! ## The blocks tile the array -/

/-- An index of the array is in point t's block iff each coordinate is in the block's range on its axis. -/
theorem mem_blk2_5 (t : Fin cfg2.N) (i : S8x4096x768.Idx) :
    i ∈ ((cfg2.win 5).blk t).view.set ↔ ∀ a : Fin 3, win2_5.index t a * S1x1024x768.size a ≤ (i a).val
      ∧ (i a).val < win2_5.index t a * S1x1024x768.size a + S1x1024x768.size a := by
  show i ∈ ((View.whole main_v9).slice (win2_5.rect t)).set ↔ _
  rw [View.set_slice_whole, Rect.mem_set_unit]
  exact Iff.rfl

/-- Every index (b, n, e) of the array lies in the block of point 4 b + n / 1024, and every point writes its block back. -/
theorem cover2_5_all (i : S8x4096x768.Idx) :
    ∃ t : Fin cfg2.N, (cfg2.win 5).flush t = true ∧ i ∈ ((cfg2.win 5).blk t).view.set := by
  have h0 : (i 0).val < 8 := (i 0).isLt
  have h1 : (i 1).val < 4096 := (i 1).isLt
  have h2 : (i 2).val < 768 := (i 2).isLt
  obtain ⟨t, ht⟩ : ∃ t : Fin cfg2.N, t.val = 4 * (i 0).val + (i 1).val / 1024 :=
    ⟨⟨4 * (i 0).val + (i 1).val / 1024, lt_of_lt_of_eq (by omega) N2.symm⟩, rfl⟩
  obtain ⟨-, -, -, -, -, -, -, -, -, -, -, -, e0, e1, e2⟩ := idx_facts2 t
  refine ⟨t, flush2_5 t, ?_⟩
  rw [mem_blk2_5]
  intro a
  match a with
  | ⟨0, _⟩ =>
    show win2_5.index t (0 : Fin 3) * 1 ≤ (i 0).val ∧ (i 0).val < win2_5.index t (0 : Fin 3) * 1 + 1
    omega
  | ⟨1, _⟩ =>
    show win2_5.index t (1 : Fin 3) * 1024 ≤ (i 1).val ∧ (i 1).val < win2_5.index t (1 : Fin 3) * 1024 + 1024
    omega
  | ⟨2, _⟩ =>
    show win2_5.index t (2 : Fin 3) * 768 ≤ (i 2).val ∧ (i 2).val < win2_5.index t (2 : Fin 3) * 768 + 768
    omega

/-! ## The array after the call -/

/-- THE RESULT ARRAY after the third call is the specification's result array of the arrays the call read. -/
theorem final2 (c : Dev nD) :
    (dat2 (F := Ideal) V c).arrAt 5 cfg2.N
      = Cert.Spec.outArr (V c main_v8) (V c main_v0) (V c main_v1) (V c main_v3) (V c main_v4) :=
  (dat2 (F := Ideal) V c).arrAt_eq_of_cover 5 _ (fun t _ => flushed2_eq V c t) (fun i => cover2_5_all i)

end Cert.KernelIdeal.Hand

end
-- ==== Proof.RefValue.lean ====
/-
  The reference program is the specification.

  The reference computes, over x : [8, 4096, 768], four 768 x 768 matrices and two vectors of length 768: three
  projections of x; a softmax along the features of the first projection times alpha times a fixed scale, which
  weights that projection before it is summed over the 4096 rows; the second projection scaled by that pooled
  vector, softmaxed and pooled the same way with beta; the third projection scaled by the second pooled vector,
  multiplied by the last matrix, plus the first projection. Each of its array operations is read here at an index
  (b, n, d) and the results are chained, stage by stage, into the functions of `Cert.Spec`: `proj`, `rowW`,
  `gqTerm`, `gq`, `pk`, `gkTerm`, `gk`, `outAt`.

  The softmax is read once, for an arbitrary array Z: on every row (b, n) the reference takes the maximum of the
  row folded from minus infinity, then its maximum with minus infinity; the exponentials of the row shifted by
  that number; their sum; and the quotient of each exponential by the sum. The maximum and the sum live on
  [8, 4096] and come back to the row through two broadcasts ([8, 4096] -> [8, 4096, 1] -> [8, 4096, 768]).
  A sum the reference starts from the zero word is the plain sum (0 + s = s on the extended reals).
-/
import proofs.«150044_j70102456205557_1_alg».proof.Defs
import proofs.«150044_j70102456205557_1_alg».proof.Proof.Gen.ReferenceIdeal
import proofs.«150044_j70102456205557_1_alg».proof.Proof.Gen.Pre_finite_inputs
import proofs.«150044_j70102456205557_1_alg».proof.Proof.Gen.ReferenceIdeal.Read
import proofs.«150044_j70102456205557_1_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.ValueIdx Cert.Spec

/-! ## Layout operations at an index -/

/-- A scalar broadcast to [8, 4096] is the scalar everywhere. -/
theorem bcastScalar_apply (h : S_.BroadcastsInDim S8x4096 (![] : Fin 0 → Fin S8x4096.rank)) (y : FVec Ideal S_ .f32)
    (b : Fin 8) (n : Fin 4096) :
    broadcastInDim S8x4096 ![] h y (ix2 b n) = y ix0 :=
  broadcastInDim_apply _ h y (ix2 b n) ix0 (fun a => a.elim0)

/-- [8, 4096] -> [8, 4096, 1]: the entry (b, n, 0) is the entry (b, n). -/
theorem keepCol_apply (h : S8x4096.BroadcastsInDim S8x4096x1 (![0, 1] : Fin 2 → Fin S8x4096x1.rank)) (y : FVec Ideal S8x4096 .f32)
    (b : Fin 8) (n : Fin 4096) (j : Fin 1) :
    broadcastInDim S8x4096x1 ![0, 1] h y (ix3 b n j) = y (ix2 b n) :=
  broadcastInDim_apply _ h y (ix3 b n j) (ix2 b n) (fun a => match a with
    | ⟨0, _⟩ => by show b.val = if (8 : Nat) = 1 then 0 else b.val; rw [if_neg (by decide)]
    | ⟨1, _⟩ => by show n.val = if (4096 : Nat) = 1 then 0 else n.val; rw [if_neg (by decide)])

/-- [8, 4096, 1] -> [8, 4096, 768]: every entry of row (b, n) is the entry (b, n, 0). -/
theorem spreadCol_apply (h : S8x4096x1.BroadcastsInDim S8x4096x768 (![0, 1, 2] : Fin 3 → Fin S8x4096x768.rank))
    (y : FVec Ideal S8x4096x1 .f32) (b : Fin 8) (n : Fin 4096) (d : Fin 768) :
    broadcastInDim S8x4096x768 ![0, 1, 2] h y (ix3 b n d) = y (ix3 b n (0 : Fin 1)) :=
  broadcastInDim_apply _ h y (ix3 b n d) (ix3 b n (0 : Fin 1)) (fun a => match a with
    | ⟨0, _⟩ => by show b.val = if (8 : Nat) = 1 then 0 else b.val; rw [if_neg (by decide)]
    | ⟨1, _⟩ => by show n.val = if (4096 : Nat) = 1 then 0 else n.val; rw [if_neg (by decide)]
    | ⟨2, _⟩ => by show (0 : Nat) = if (1 : Nat) = 1 then 0 else d.val; rw [if_pos rfl])

/-! ## The two reductions over the last axis -/

/-- The index (b, n) with the coordinate k put back on the last axis is (b, n, k). -/
theorem lift_last (h : S8x4096x768.Reduces [2] S8x4096) (b : Fin 8) (n : Fin 4096) (k : Fin (S8x4096x768.size 2)) :
    h.lift (ix2 b n) k = ix3 b n (⟨k.val, k.isLt⟩ : Fin 768) := by
  funext c; apply Fin.ext
  fin_cases c <;> rfl

/-- The maximum-reduce of Z over its last axis from minus infinity, at (b, n): the fold of max over the row. -/
theorem reduceMax_apply (h' : S8x4096x768.ReducesTo [2] S8x4096) (hu : 0 < S_.numel) (Z : FVec Ideal S8x4096x768 .f32)
    (b : Fin 8) (n : Fin 4096) :
    Host.reduce FloatOps.maximumf Z (constant (F := Ideal) S_ .f32 0xFF800000#32) h' hu (ix2 b n)
      = (Finset.univ : Finset (Fin 768)).fold max negInf (fun d => Z (ix3 b n d)) := by
  have h : S8x4096x768.Reduces [2] S8x4096 := by decide
  rw [Host.reduce_eq_fold_single FloatOps.maximumf Z _ h' h hu]
  have hf : (Z ∘ h.lift (ix2 b n)) = fun k : Fin 768 => Z (ix3 b n k) :=
    funext fun k => congrArg Z (lift_last h b n k)
  exact congrArg (fun f => Finset.fold max negInf f (Finset.univ : Finset (Fin 768))) hf

/-- The sum-reduce of Y over its last axis from the zero word, at (b, n): the sum of the row. -/
theorem reduceSum_apply (h' : S8x4096x768.ReducesTo [2] S8x4096) (hu : 0 < S_.numel) (Y : FVec Ideal S8x4096x768 .f32)
    (b : Fin 8) (n : Fin 4096) :
    Host.reduceAdd (F := Ideal) Y (constant (F := Ideal) S_ .f32 0x00000000#32) h' hu (ix2 b n)
      = ∑ d : Fin 768, Y (ix3 b n d) := by
  have h : S8x4096x768.Reduces [2] S8x4096 := by decide
  simp only [Host.reduceAdd, Ideal.hostReduceAdd_def]
  rw [Ideal.hostReduceAdd_single h' h]
  have e0 : constant (F := Ideal) S_ .f32 0x00000000#32 (Shape.Idx.first hu) = 0 := Ideal.ofBits_zero_f32
  rw [e0, zero_add]
  exact Finset.sum_congr rfl fun k _ => congrArg Y (lift_last h b n k)

/-! ## The softmax of a row -/

section Softmax

variable (h0 : S_.BroadcastsInDim S8x4096 (![] : Fin 0 → Fin S8x4096.rank))
  (h1 : S8x4096.BroadcastsInDim S8x4096x1 (![0, 1] : Fin 2 → Fin S8x4096x1.rank))
  (h2 : S8x4096x1.BroadcastsInDim S8x4096x768 (![0, 1, 2] : Fin 3 → Fin S8x4096x768.rank))
  (hr : S8x4096x768.ReducesTo [2] S8x4096) (hu : 0 < S_.numel)

/-- The row maxima of Z, spread back over the rows: the array the reference subtracts from Z. -/
abbrev rowMaxV (Z : FVec Ideal S8x4096x768 .f32) : FVec Ideal S8x4096x768 .f32 :=
  broadcastInDim S8x4096x768 ![0, 1, 2] h2 (broadcastInDim S8x4096x1 ![0, 1] h1
    (maximumf (broadcastInDim S8x4096 ![] h0 (constant S_ .f32 0xFF800000#32))
      (Host.reduce FloatOps.maximumf Z (constant S_ .f32 0xFF800000#32) hr hu)))

/-- The shifted exponentials of Z. -/
abbrev rowExpV (Z : FVec Ideal S8x4096x768 .f32) : FVec Ideal S8x4096x768 .f32 :=
  Host.exp (subf Z (rowMaxV h0 h1 h2 hr hu Z))

/-- The softmax of Z along its last axis, as the reference spells it. -/
abbrev softmaxV (Z : FVec Ideal S8x4096x768 .f32) : FVec Ideal S8x4096x768 .f32 :=
  Host.divf (rowExpV h0 h1 h2 hr hu Z) (broadcastInDim S8x4096x768 ![0, 1, 2] h2 (broadcastInDim S8x4096x1 ![0, 1] h1
    (Host.reduceAdd (rowExpV h0 h1 h2 hr hu Z) (constant S_ .f32 0x00000000#32) hr hu)))

/-- At (b, n, d) the subtracted array holds the maximum of row (b, n). -/
theorem rowMaxV_apply (Z : FVec Ideal S8x4096x768 .f32) (b : Fin 8) (n : Fin 4096) (d : Fin 768) :
    rowMaxV h0 h1 h2 hr hu Z (ix3 b n d) = rowMax (fun d' => Z (ix3 b n d')) := by
  unfold rowMaxV
  rw [spreadCol_apply, keepCol_apply, maximumf_apply, bcastScalar_apply, reduceMax_apply]
  rfl

/-- At (b, n, d) the exponentials hold exp (Z (b, n, d) - the row's maximum). -/
theorem rowExpV_apply (Z : FVec Ideal S8x4096x768 .f32) (b : Fin 8) (n : Fin 4096) (d : Fin 768) :
    rowExpV h0 h1 h2 hr hu Z (ix3 b n d) = rowExp (fun d' => Z (ix3 b n d')) d := by
  show Ideal.exp (Z (ix3 b n d) - rowMaxV h0 h1 h2 hr hu Z (ix3 b n d)) = _
  rw [rowMaxV_apply]
  rfl

/-- At (b, n, d) the softmax holds the weight of entry d in row (b, n). -/
theorem softmaxV_apply (Z : FVec Ideal S8x4096x768 .f32) (b : Fin 8) (n : Fin 4096) (d : Fin 768) :
    softmaxV h0 h1 h2 hr hu Z (ix3 b n d) = rowW (fun d' => Z (ix3 b n d')) d := by
  show Ideal.div (rowExpV h0 h1 h2 hr hu Z (ix3 b n d))
    (broadcastInDim S8x4096x768 ![0, 1, 2] h2 (broadcastInDim S8x4096x1 ![0, 1] h1
      (Host.reduceAdd (rowExpV h0 h1 h2 hr hu Z) (constant S_ .f32 0x00000000#32) hr hu)) (ix3 b n d)) = _
  rw [spreadCol_apply, keepCol_apply, reduceSum_apply, rowExpV_apply]
  simp only [rowExpV_apply]
  rfl

end Softmax

/-! ## The stages of the program at an index -/

section Stages

variable (X : FVec Ideal S8x4096x768 .f32) (Wq Wk Wv Wr : FVec Ideal S768x768 .f32) (al be : FVec Ideal S768 .f32)

/-- An index of [8, 4096, 768] with the coordinates b, n, d is (b, n, d). -/
theorem ix3_of (i : S8x4096x768.Idx) (b : Fin 8) (n : Fin 4096) (d : Fin 768)
    (e0 : (i 0).val = b.val) (e1 : (i 1).val = n.val) (e2 : (i 2).val = d.val) : i = ix3 b n d :=
  funext fun a => Fin.ext (by match a with | ⟨0, _⟩ => exact e0 | ⟨1, _⟩ => exact e1 | ⟨2, _⟩ => exact e2)

/-- An index of [768, 768] with the coordinates k, d is (k, d). -/
theorem ix2_of (i : S768x768.Idx) (k d : Fin 768) (e0 : (i 0).val = k.val) (e1 : (i 1).val = d.val) : i = ix2 k d :=
  funext fun a => Fin.ext (by match a with | ⟨0, _⟩ => exact e0 | ⟨1, _⟩ => exact e1)

/-- An index of [8, 768] with the coordinates b, d is (b, d). -/
theorem ix2_of' (i : S8x768.Idx) (b : Fin 8) (d : Fin 768) (e0 : (i 0).val = b.val) (e1 : (i 1).val = d.val) : i = ix2 b d :=
  funext fun a => Fin.ext (by match a with | ⟨0, _⟩ => exact e0 | ⟨1, _⟩ => exact e1)

/-- An index of [768] with the coordinate d is (d). -/
theorem ix1_of (i : S768.Idx) (d : Fin 768) (e0 : (i 0).val = d.val) : i = ix1 d :=
  funext fun a => Fin.ext (by match a with | ⟨0, _⟩ => exact e0)

/-- A projection x W at (b, n, d): the sum over the 768 input features. -/
theorem proj_at (W : FVec Ideal S768x768 .f32) (b : Fin 8) (n : Fin 4096) (d : Fin 768) :
    Read.val_main_v0 (F := Ideal) X W (ix3 b n d) = proj X W b n d := by
  rw [Read.val_main_v0_apply]
  refine Finset.sum_congr rfl fun k _ => ?_
  rw [ix3_of (Read.lidx_main_v0 (ix3 b n d) k) b n k rfl rfl rfl, ix2_of (Read.ridx_main_v0 (ix3 b n d) k) k d rfl rfl]

/-- The second and third projections are the same operation on other matrices. -/
theorem proj_at1 (W : FVec Ideal S768x768 .f32) (b : Fin 8) (n : Fin 4096) (d : Fin 768) :
    Read.val_main_v1 (F := Ideal) X W (ix3 b n d) = proj X W b n d := proj_at X W b n d
theorem proj_at2 (W : FVec Ideal S768x768 .f32) (b : Fin 8) (n : Fin 4096) (d : Fin 768) :
    Read.val_main_v2 (F := Ideal) X W (ix3 b n d) = proj X W b n d := proj_at X W b n d

/-- The logits of the first softmax: q * alpha * scale. -/
theorem logits1_at (b : Fin 8) (n : Fin 4096) (d : Fin 768) :
    Read.val_main_v7 (F := Ideal) X Wq al (ix3 b n d) = proj X Wq b n d * al (ix1 d) * scale := by
  rw [Read.val_main_v7_apply, Read.val_main_v5_apply, Read.val_main_v6_apply, Read.val_main_cst_apply,
    Read.val_main_v4_apply, Read.val_main_v3_apply, proj_at,
    ix1_of (Read.idx_main_v3 (Read.idx_main_v4 (ix3 b n d))) d rfl]
  rfl

/-- The first softmax: the weights of the row of logits. -/
theorem weights1_at (b : Fin 8) (n : Fin 4096) (d : Fin 768) :
    Read.val_main_v18 (F := Ideal) X Wq al (ix3 b n d)
      = rowW (fun d' => proj X Wq b n d' * al (ix1 d') * scale) d := by
  have e := softmaxV_apply bcast_S_S8x4096 bcast_S8x4096_S8x4096x1_0_1 bcast_S8x4096x1_S8x4096x768_0_1_2
    reducesTo_S8x4096x768_S8x4096_d2 h_S_ (Read.val_main_v7 (F := Ideal) X Wq al) b n d
  simp only [logits1_at] at e
  unfold Read.val_main_v18 Read.val_main_v17 Read.val_main_v16 Read.val_main_v15 Read.val_main_v14 Read.val_main_v13
    Read.val_main_v12 Read.val_main_v11 Read.val_main_v10 Read.val_main_v9 Read.val_main_v8 Read.val_main_cst_0
    Read.val_main_cst_1 Read.val_main_cst_2
  exact e

/-- One row's contribution to the first pooled vector. -/
theorem gqTerm_at (b : Fin 8) (n : Fin 4096) (d : Fin 768) :
    Read.val_main_v19 (F := Ideal) X Wq al (ix3 b n d) = gqTerm X Wq al b n d := by
  rw [Read.val_main_v19_apply, proj_at, weights1_at]
  rfl

/-- The first pooled vector: the sum over the rows, started from the zero word. -/
theorem gq_at (b : Fin 8) (d : Fin 768) :
    Read.val_main_v20 (F := Ideal) X Wq al (ix2 b d) = gq X Wq al b d := by
  rw [Read.val_main_v20_apply, Read.val_main_cst_3_apply]
  have e0 : FloatOps.ofBits (F := Ideal) .f32 0x00000000#32 = 0 := Ideal.ofBits_zero_f32
  rw [e0, zero_add]
  refine Finset.sum_congr rfl fun k _ => ?_
  rw [ix3_of (Read.idx_main_v20 (ix2 b d) k) b k d rfl rfl rfl, gqTerm_at]

/-- The first pooled vector spread back over the rows. -/
theorem gqSpread_at (b : Fin 8) (n : Fin 4096) (d : Fin 768) :
    Read.val_main_v22 (F := Ideal) X Wq al (ix3 b n d) = gq X Wq al b d := by
  rw [Read.val_main_v22_apply, Read.val_main_v21_apply,
    ix2_of' (Read.idx_main_v21 (Read.idx_main_v22 (ix3 b n d))) b d rfl rfl, gq_at]

/-- The keys scaled by the first pooled vector. -/
theorem pk_at (b : Fin 8) (n : Fin 4096) (d : Fin 768) :
    Read.val_main_v23 (F := Ideal) X Wq Wk al (ix3 b n d) = pk X Wq Wk al b n d := by
  rw [Read.val_main_v23_apply, gqSpread_at, proj_at1]
  rfl

/-- The logits of the second softmax: p * beta * scale. -/
theorem logits2_at (b : Fin 8) (n : Fin 4096) (d : Fin 768) :
    Read.val_main_v28 (F := Ideal) X Wq Wk al be (ix3 b n d) = pk X Wq Wk al b n d * be (ix1 d) * scale := by
  rw [Read.val_main_v28_apply, Read.val_main_v26_apply, Read.val_main_v27_apply, Read.val_main_cst_4_apply,
    Read.val_main_v25_apply, Read.val_main_v24_apply, pk_at,
    ix1_of (Read.idx_main_v24 (Read.idx_main_v25 (ix3 b n d))) d rfl]
  rfl

/-- The second softmax: the weights of the row of logits. -/
theorem weights2_at (b : Fin 8) (n : Fin 4096) (d : Fin 768) :
    Read.val_main_v39 (F := Ideal) X Wq Wk al be (ix3 b n d)
      = rowW (fun d' => pk X Wq Wk al b n d' * be (ix1 d') * scale) d := by
  have e := softmaxV_apply bcast_S_S8x4096 bcast_S8x4096_S8x4096x1_0_1 bcast_S8x4096x1_S8x4096x768_0_1_2
    reducesTo_S8x4096x768_S8x4096_d2 h_S_ (Read.val_main_v28 (F := Ideal) X Wq Wk al be) b n d
  simp only [logits2_at] at e
  unfold Read.val_main_v39 Read.val_main_v38 Read.val_main_v37 Read.val_main_v36 Read.val_main_v35 Read.val_main_v34
    Read.val_main_v33 Read.val_main_v32 Read.val_main_v31 Read.val_main_v30 Read.val_main_v29 Read.val_main_cst_5
    Read.val_main_cst_6 Read.val_main_cst_7
  exact e

/-- One row's contribution to the second pooled vector. -/
theorem gkTerm_at (b : Fin 8) (n : Fin 4096) (d : Fin 768) :
    Read.val_main_v40 (F := Ideal) X Wq Wk al be (ix3 b n d) = gkTerm X Wq Wk al be b n d := by
  rw [Read.val_main_v40_apply, pk_at, weights2_at]
  rfl

/-- The second pooled vector. -/
theorem gk_at (b : Fin 8) (d : Fin 768) :
    Read.val_main_v41 (F := Ideal) X Wq Wk al be (ix2 b d) = gk X Wq Wk al be b d := by
  rw [Read.val_main_v41_apply, Read.val_main_cst_8_apply]
  have e0 : FloatOps.ofBits (F := Ideal) .f32 0x00000000#32 = 0 := Ideal.ofBits_zero_f32
  rw [e0, zero_add]
  refine Finset.sum_congr rfl fun k _ => ?_
  rw [ix3_of (Read.idx_main_v41 (ix2 b d) k) b k d rfl rfl rfl, gkTerm_at]

/-- The values scaled by the second pooled vector. -/
theorem kv_at (b : Fin 8) (n : Fin 4096) (d : Fin 768) :
    Read.val_main_v44 (F := Ideal) X Wq Wk Wv al be (ix3 b n d) = gk X Wq Wk al be b d * proj X Wv b n d := by
  rw [Read.val_main_v44_apply, Read.val_main_v43_apply, Read.val_main_v42_apply,
    ix2_of' (Read.idx_main_v42 (Read.idx_main_v43 (ix3 b n d))) b d rfl rfl, gk_at, proj_at2]
  rfl

/-- The last product with Wr. -/
theorem kvWr_at (b : Fin 8) (n : Fin 4096) (e : Fin 768) :
    Read.val_main_v45 (F := Ideal) X Wq Wk Wv Wr al be (ix3 b n e)
      = ∑ d : Fin 768, (gk X Wq Wk al be b d * proj X Wv b n d) * Wr (ix2 d e) := by
  rw [Read.val_main_v45_apply]
  refine Finset.sum_congr rfl fun k _ => ?_
  rw [ix3_of (Read.lidx_main_v45 (ix3 b n e) k) b n k rfl rfl rfl, ix2_of (Read.ridx_main_v45 (ix3 b n e) k) k e rfl rfl,
    kv_at]

/-- The result at (b, n, e). -/
theorem out_at (b : Fin 8) (n : Fin 4096) (e : Fin 768) :
    Read.val_main_v46 (F := Ideal) X Wq Wk Wv Wr al be (ix3 b n e) = outAt X Wq Wk Wv Wr al be b n e := by
  rw [Read.val_main_v46_apply, kvWr_at, proj_at]
  rfl

end Stages

/-! ## The deliverables -/

/-- the reference's result term at Ideal is the specification -/
theorem result_eq (X : FVec Ideal Cert.ReferenceIdeal.S8x4096x768 .f32) (Wq Wk Wv Wr : FVec Ideal Cert.ReferenceIdeal.S768x768 .f32)
    (al be : FVec Ideal Cert.ReferenceIdeal.S768 .f32) :
    Read.val_main_v46 (F := Ideal) X Wq Wk Wv Wr al be = Cert.Spec.out X Wq Wk Wv Wr al be := by
  funext i
  obtain ⟨b, n, e, rfl⟩ : ∃ (b : Fin 8) (n : Fin 4096) (e : Fin 768), i = ix3 b n e := ⟨i 0, i 1, i 2, eq_ix3 i⟩
  exact out_at X Wq Wk Wv Wr al be b n e

/-- the reference's run with its result NAMED by the specification -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v46)
          = Cert.Spec.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono
    (fun _ h c => ⟨(h c).1.trans ((Read.val_main_v46_eq (F := Ideal) m c).trans (result_eq _ _ _ _ _ _ _)), (h c).2⟩)
    (Cert.ReferenceIdeal.Value.run (F := Ideal) m ρ)

/-- the reference's frame claim -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The five claims of the certificate.

  The kernel is three pipelined calls over a grid of 8 batch entries by 4 row tiles of 1024 rows. The first call
  projects a tile of rows by Wq, weights each projected row by the softmax of its scaled logits, sums the weighted
  rows over the tile and adds the sum into a running vector kept in a scratch buffer, reset at a batch entry's
  first tile; after the fourth tile the running vector is the sum over all 4096 rows: the first pooled vector.
  The second call does the same over the keys scaled by the first pooled vector, giving the second pooled vector.
  The third call scales the values by the second pooled vector, multiplies by Wr and adds the projected queries.
  The reference computes the same three stages on whole arrays. On the extended reals the two agree index by
  index: a change of float format is the identity, a matrix product into a zero accumulator and the reference's
  contraction are the same finite sum, and the sum over 4096 rows is the sum of the four tiles' sums of 1024 rows,
  by commutativity and associativity of addition alone.

  Frames: every call's body loads and stores whole staging buffers and so cannot fault; the scratch buffer's
  contents are carried from grid point to grid point by the region's invariant; no call and no host operation
  writes an argument array. The idealization rewrote nothing, so the preservation claim is trivial.
-/
import proofs.«150044_j70102456205557_1_alg».proof.Defs
import proofs.«150044_j70102456205557_1_alg».proof.Proof.Gen.Kernel
import proofs.«150044_j70102456205557_1_alg».proof.Proof.Gen.KernelIdeal
import proofs.«150044_j70102456205557_1_alg».proof.Proof.Gen.ReferenceIdeal
import proofs.«150044_j70102456205557_1_alg».proof.Proof.Gen.Pre_finite_inputs
import proofs.«150044_j70102456205557_1_alg».proof.Proof.AssemblyK
import proofs.«150044_j70102456205557_1_alg».proof.Proof.KernelValue
import proofs.«150044_j70102456205557_1_alg».proof.Proof.Final0
import proofs.«150044_j70102456205557_1_alg».proof.Proof.Final1
import proofs.«150044_j70102456205557_1_alg».proof.Proof.Final2
import proofs.«150044_j70102456205557_1_alg».proof.Proof.RefValue

noncomputable section

namespace Cert.Proof

open Idealize.ShloMosaic Idealize.SL.Sem

/-- The word-level kernel runs to the end, faults nowhere and leaves its arguments unchanged. -/
theorem frame_p : Cert.frame_Kernel := fun m ρ _ => Cert.Kernel.Hand.frame m ρ

/-- So does the idealized kernel. -/
theorem frame_pi : Cert.frame_KernelIdeal := fun m ρ _ => Cert.KernelIdeal.Hand.frame m ρ

/-- The idealization rewrote no operation. -/
theorem preserves : Cert.preserves_Kernel_KernelIdeal := trivial

/-- From memories agreeing on the arguments the idealized kernel and the idealized reference both end with their result
    at the one function of the arguments (the kernel's by the three calls' final arrays, the reference's by its run read
    back), and with the arguments unchanged. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono (fun r h c =>
      ⟨(h c _ (Cert.KernelIdeal.Hand.mem_uc Cert.KernelIdeal.main_v9 (by decide))).trans
          (Cert.KernelIdeal.Hand.value_v9 m ρ c Cert.KernelIdeal.Hand.final0 Cert.KernelIdeal.Hand.final1 Cert.KernelIdeal.Hand.final2),
        (h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c)⟩)
      (Cert.KernelIdeal.Hand.run_all (F := Ideal) m ρ)
  · refine (θ_run (Cert.ReferenceIdeal.defs (F := Ideal)) _ _).mono (fun r h c => ⟨?_, (h c).2⟩) (Cert.ReferenceIdeal.RefValue.run m' ρ')
    rw [(h c).1, (hagree c).1, (hagree c).2.1, (hagree c).2.2.1, (hagree c).2.2.2.1, (hagree c).2.2.2.2.1, (hagree c).2.2.2.2.2.1,
      (hagree c).2.2.2.2.2.2]

/-- The certificate. -/
theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.RefValue.frame_ri, preserves, algebraic⟩

end Cert.Proof

end
